-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128 .f32) (main_arg4 : FVec F S128 .f32) (main_arg5 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S5000x128 : Shape := ⟨2, ![5000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S2x128 : Shape := ⟨2, ![2, 128]⟩

abbrev nBuf : Space → Nat
  | .hbm => 70
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x800000, .i32⟩
  | .hbm, ⟨6, _⟩ => ⟨S50000x128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S_, .i32⟩
  | .hbm, ⟨17, _⟩ => ⟨S850000, .i32⟩
  | .hbm, ⟨18, _⟩ => ⟨S850000, .i1⟩
  | .hbm, ⟨19, _⟩ => ⟨S_, .i32⟩
  | .hbm, ⟨20, _⟩ => ⟨S850000, .i32⟩
  | .hbm, ⟨21, _⟩ => ⟨S850000, .i32⟩
  | .hbm, ⟨22, _⟩ => ⟨S850000, .i32⟩
  | .hbm, ⟨23, _⟩ => ⟨S850000x1, .i32⟩
  | .hbm, ⟨24, _⟩ => ⟨S_, .f32⟩
  | .hbm, ⟨25, _⟩ => ⟨S850000, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S2x128, .f32⟩
  | .hbm, ⟨67, _⟩ => ⟨S1x128, .f32⟩
  | .hbm, ⟨68, _⟩ => ⟨S1x128, .f32⟩
  | .hbm, ⟨69, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S2x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S2x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_scratch0 : Ref sig .tc := ⟨.vmem, 8, rfl⟩
abbrev cc1_scratch1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  reduces_S5000x128_S128 : S5000x128.Reduces [0] S128
  shapeCasts_S128_S1x128 : S128.ShapeCasts S1x128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  broadcasts_S1x128_S5000x128 : S1x128.Broadcasts S5000x128
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x128.size a ≤ S2x128.size a
  hwx2_1 : ∀ i : grid2.Coords, EltTy.bits .f32 = 32 ∨ (Rect.block (s := S2x128) S2x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S2x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S2x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x800000, .i32⟩
  | .hbm, ⟨6, _⟩ => ⟨S50000x128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S_, .i32⟩
  | .hbm, ⟨17, _⟩ => ⟨S850000, .i32⟩
  | .hbm, ⟨18, _⟩ => ⟨S850000, .i1⟩
  | .hbm, ⟨19, _⟩ => ⟨S_, .i32⟩
  | .hbm, ⟨20, _⟩ => ⟨S850000, .i32⟩
  | .hbm, ⟨21, _⟩ => ⟨S850000, .i32⟩
  | .hbm, ⟨22, _⟩ => ⟨S850000, .i32⟩
  | .hbm, ⟨23, _⟩ => ⟨S850000x1, .i32⟩
  | .hbm, ⟨24, _⟩ => ⟨S_, .f32⟩
  | .hbm, ⟨25, _⟩ => ⟨S850000, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S_, .i32⟩
  | .hbm, ⟨72, _⟩ => ⟨S_, .f32⟩
  | .hbm, ⟨73, _⟩ => ⟨S128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S_, .f32⟩
  | .hbm, ⟨89, _⟩ => ⟨S_, .i1⟩
  | .hbm, ⟨90, _⟩ => ⟨S_, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S50000x128, .f32⟩
  | .hbm, ⟨112, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_c_11 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_cst_0 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_cst_1 : Ref sig .tc := ⟨.hbm, 82, rfl⟩
abbrev main_call0_v8 : Ref sig .tc := ⟨.hbm, 83, rfl⟩
abbrev main_call0_cst_2 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_call0_cst_3 : Ref sig .tc := ⟨.hbm, 88, rfl⟩
abbrev main_call0_v12 : Ref sig .tc := ⟨.hbm, 89, rfl⟩
abbrev main_call0_cst_4 : Ref sig .tc := ⟨.hbm, 90, rfl⟩
abbrev main_call0_call0_v0 : Ref sig .tc := ⟨.hbm, 91, rfl⟩
abbrev main_call0_call0_v1 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_12 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_call1_cst : Ref sig .tc := ⟨.hbm, 110, rfl⟩
abbrev main_call1_v0 : Ref sig .tc := ⟨.hbm, 111, rfl⟩
abbrev main_v68 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.K.Region0.lean ====
/-
  The first pallas_call (the dense product h = x · W, ten row blocks of 5000 rows): what its body leaves in the
  output block's buffer as a function of the two input blocks, the body's triple, the pipeline's proof data at
  the contents `V` the region is entered from, and the body obligation at every grid point.
-/
import proofs.«181293_j22840636080817_1_alg».proof.Proof.Gen.Kernel.Launch
import proofs.«181293_j22840636080817_1_alg».proof.Proof.Gen.Kernel.Skeleton
import proofs.«181293_j22840636080817_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (an unfetched window's
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 5000 × 128 block and the whole 128 × 128 block as rectangles. -/
abbrev rX : Rect S5000x128 := Rect.unit (s := S5000x128) ![0, 0] S5000x128.size inb_S5000x128_S5000x128_0_0
abbrev rW : Rect S128x128 := Rect.unit (s := S128x128) ![0, 0] S128x128.size inb_S128x128_S128x128_0_0

/-- The output block's buffer after the body: one store of the whole block, the product of the two loaded blocks. -/
def out0_2 (x0 : Vec F S5000x128 .f32) (x1 : Vec F S128x128 .f32) : Vec F S5000x128 .f32 :=
  View.canon [⟨rX, k0_pay1 (View.ld x0 rX) (View.ld x1 rW)⟩]

theorem cover0_2 (p0 : Vec F S5000x128 .f32) (y : S5000x128.Idx) :
    ∃ pc ∈ ([⟨rX, p0⟩] : List (View.Piece (Elt F) S5000x128 .f32)), y ∈ pc.1.set :=
  View.cover_of_tiled [⟨rX, p0⟩] S5000x128.size (by rfl) y

set_option maxHeartbeats 1000000 in
/-- The body on whole staging buffers: the inputs' at `x0`, `x1`, the output's at anything; it returns with the inputs'
    as they were and the output's at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`, entered from `V`: after the body at point `t` each input's
    buffer holds its block and the output's the body's result on them; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Base.lean ====
/-
  The second pallas_call (column sums and column sums of squares of the 50000 × 128 array, accumulated over ten row
  blocks in two 1 × 128 scratch buffers; at the last block the mean and the variance are written to the 2 × 128
  output): what the runs of its body share — the two branch conditions in closed form over the grid, where the
  output window is idle, the staging and scratch buffers' names.
-/
import proofs.«181293_j22840636080817_1_alg».proof.Proof.Gen.Kernel.Launch
import proofs.«181293_j22840636080817_1_alg».proof.Proof.Gen.Kernel.Skeleton
import proofs.«181293_j22840636080817_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (zero the two accumulators): taken at the first grid point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- The second branch of the body (write the mean and the variance): taken at the last grid point only. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-- The input window is never idle; the output window is idle, and not written back, wherever the second branch is
    not taken, and live where it is. -/
theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel

/-- One staging buffer of the output window, through which its contents are stated. -/
abbrev VO1_1 : View sig .tc .vmem S2x128 .f32 := (Memref.whole cc1_stg1_0 : Memref sig .tc .vmem S2x128 .f32).view
/-- Each window's current staging buffer at point `t`, as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x128 .f32 := win1_1.stage (cfg1.slots t 1)
abbrev hs1_1 (t : Fin cfg1.N) : (ms1_1 t).IsWhole := hstage1_1 ((cfg1.slots t 1).cast nbuf1_1)
/-- The two accumulators: whole scoped buffers of the kernel's own, carried from one grid point to the next. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

end Cert.Kernel.Hand

end
-- ==== Proof.K.Region1RunA.lean ====
/-
  The statistics body at the first grid point (accumulators zeroed, then the block's column sums added; nothing
  written to the output): the pieces its stores leave in the two accumulators, with the proof that it runs.
-/
import proofs.«181293_j22840636080817_1_alg».proof.Proof.K.Region1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point: the input block at `x0`, the output's buffer at `xi1` handed back untouched, the two
    accumulators at anything; the run finds the pieces stored into each accumulator (last first). -/
noncomputable def kernelRun1_A (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : cond1_0 i) (hc1 : ¬cond1_1 i)
    (x0 : Vec F S5000x128 .f32) :
    Σ' (LS0 : List (View.Piece (Elt F) S1x128 .f32)), { LS1 : List (View.Piece (Elt F) S1x128 .f32) //
      ∀ (xi1 : Vec F S2x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare xi1
                ∗ (∃ f, arg3.view.loc (c : Thread nD τ) ↦[arg3.view.set]{fullShare} arg3.view.writes (Elt F) f LS0)
                ∗ (∃ f, arg4.view.loc (c : Thread nD τ) ↦[arg4.view.set]{fullShare} arg4.view.writes (Elt F) f LS1)) -∗ K ⟨⟩))
          ⊢ wp frame (wpE (defs₀ (F := F)) Variants.none c none) E (cc1__stats_kernel i arg1 harg1 arg2 harg2 arg3 harg3 arg4 harg4) K } := by
  refine ⟨?_, ?_, fun xi1 E K => ?run⟩
  case run =>
    simp only [cc1__stats_kernel_eq_skeleton]; unfold cc1__stats_kernel_skel
    unfold owns
    iintro ⟨⟨%f0, %hf0, H0⟩, ⟨%f1, %hf1, H1⟩, ⟨%ds0, %fs0, -, HS0⟩, ⟨%ds1, %fs1, -, HS1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.Kernel.Hand

end
-- ==== Proof.K.Region1RunB.lean ====
/-
  The statistics body at a middle grid point (the block's column sums added to the accumulators; nothing written
  to the output): the pieces its stores leave in the two accumulators, with the proof that it runs.
-/
import proofs.«181293_j22840636080817_1_alg».proof.Proof.K.Region1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle point: the input block at `x0`, the output's buffer at `xi1` handed back untouched, the two
    accumulators at what the point before left (`xs0`, `xs1`). -/
noncomputable def kernelRun1_B (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : ¬cond1_1 i)
    (x0 : Vec F S5000x128 .f32) (xs0 xs1 : Vec F S1x128 .f32) :
    Σ' (LS0 : List (View.Piece (Elt F) S1x128 .f32)), { LS1 : List (View.Piece (Elt F) S1x128 .f32) //
      ∀ (xi1 : Vec F S2x128 .f32) (E : Set ℕ) (K : PUnit → sProp 𝕄),
        iprop(owns (c : Thread nD τ) arg1 fullShare x0 ∗ owns (c : Thread nD τ) arg2 fullShare xi1 ∗ owns (c : Thread nD τ) arg3 fullShare xs0 ∗ owns (c : Thread nD τ) arg4 fullShare xs1
            ∗ (iprop(owns (c : Thread nD τ) arg1 fullShare x0 ∗ owns (c : Thread nD τ) arg2 fullShare xi1
                ∗ (∃ f, arg3.view.loc (c : Thread nD τ) ↦[arg3.view.set]{fullShare} arg3.view.writes (Elt F) f LS0)
                ∗ (∃ f, arg4.view.loc (c : Thread nD τ) ↦[arg4.view.set]{fullShare} arg4.view.writes (Elt F) f LS1)) -∗ K ⟨⟩))
          ⊢ wp frame (wpE (defs₀ (F := F)) Variants.none c none) E (cc1__stats_kernel i arg1 harg1 arg2 harg2 arg3 harg3 arg4 harg4) K } := by
  refine ⟨?_, ?_, fun xi1 E K => ?run⟩
  case run =>
    simp only [cc1__stats_kernel_eq_skeleton]; unfold cc1__stats_kernel_skel
    unfold owns
    iintro ⟨⟨%f0, %hf0, H0⟩, ⟨%f1, %hf1, H1⟩, ⟨%fs0, %hfs0, HS0⟩, ⟨%fs1, %hfs1, HS1⟩, Hk⟩
    obtain rfl := harg1.eq_unread hf0; obtain rfl := harg2.eq_unread hf1; obtain rfl := harg3.eq_unread hfs0; obtain rfl := harg4.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.Kernel.Hand

end
-- ==== Proof.K.Region1RunC.lean ====
/-
  The statistics body at the last grid point (the block's column sums added to the accumulators, then the mean and
  the variance written to the two rows of the output): the pieces its stores leave in the output's buffer and in
  the two accumulators, with the proof that it runs.
-/
import proofs.«181293_j22840636080817_1_alg».proof.Proof.K.Region1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last point: the input block at `x0`, the output's buffer at anything, the two accumulators at what the
    point before left (`xs0`, `xs1`). -/
noncomputable def kernelRun1_C (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : cond1_1 i)
    (x0 : Vec F S5000x128 .f32) (xs0 xs1 : Vec F S1x128 .f32) :
    Σ' (L1 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0 ∗ owns (c : Thread nD τ) arg4 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f LS0)
                ∗ (∃ f, arg4.view.loc (c : Thread nD τ) ↦[arg4.view.set]{fullShare} arg4.view.writes (Elt F) f LS1)) -∗ K ⟨⟩))
          ⊢ wp frame (wpE (defs₀ (F := F)) Variants.none c none) E (cc1__stats_kernel i arg1 harg1 arg2 harg2 arg3 harg3 arg4 harg4) K } := by
  refine ⟨?_, ?_, ?_, fun E K => ?run⟩
  case run =>
    simp only [cc1__stats_kernel_eq_skeleton]; unfold cc1__stats_kernel_skel
    unfold owns
    iintro ⟨⟨%f0, %hf0, H0⟩, ⟨%d1, %f1, -, H1⟩, ⟨%fs0, %hfs0, HS0⟩, ⟨%fs1, %hfs1, HS1⟩, Hk⟩
    obtain rfl := harg1.eq_unread hf0; obtain rfl := harg3.eq_unread hfs0; obtain rfl := harg4.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [HS0]; · iexists _; iexact HS0
    iexists _; iexact HS1

end Cert.Kernel.Hand

end
-- ==== Proof.K.Region1.lean ====
/-
  The second pallas_call (the batch statistics): what the two accumulators and the output's buffer hold after each
  grid point — the first point's, a middle point's and the last point's contents chained over the ten points —,
  the region invariant that carries the accumulators from one point to the next, the pipeline's proof data at the
  contents `V` the region is entered from, and the body obligation at every grid point.
-/
import proofs.«181293_j22840636080817_1_alg».proof.Proof.K.Region1RunA
import proofs.«181293_j22840636080817_1_alg».proof.Proof.K.Region1RunB
import proofs.«181293_j22840636080817_1_alg».proof.Proof.K.Region1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each kind of point leaves -/

/-- The first point's pieces cover each accumulator. -/
theorem scover1_A_0 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : cond1_0 i) (hc1 : ¬cond1_1 i) (x0 : Vec F S5000x128 .f32) (y : S1x128.Idx) :
    ∃ pc ∈ (kernelRun1_A c i arg1 harg1 arg2 harg2 arg3 harg3 arg4 harg4 hc0 hc1 x0).1, y ∈ pc.1.set :=
  View.cover_of_tiledL (kernelRun1_A c i arg1 harg1 arg2 harg2 arg3 harg3 arg4 harg4 hc0 hc1 x0).1 S1x128.size (by sl_kernel_rfl) y
theorem scover1_A_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : cond1_0 i) (hc1 : ¬cond1_1 i) (x0 : Vec F S5000x128 .f32) (y : S1x128.Idx) :
    ∃ pc ∈ (kernelRun1_A c i arg1 harg1 arg2 harg2 arg3 harg3 arg4 harg4 hc0 hc1 x0).2.1, y ∈ pc.1.set :=
  View.cover_of_tiledL (kernelRun1_A c i arg1 harg1 arg2 harg2 arg3 harg3 arg4 harg4 hc0 hc1 x0).2.1 S1x128.size (by sl_kernel_rfl) y
/-- What the first point leaves in the accumulators: its pieces read back. -/
def sout1_A_0 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : cond1_0 i) (hc1 : ¬cond1_1 i) (x0 : Vec F S5000x128 .f32) : Vec F S1x128 .f32 :=
  VS1_0.read (Elt F) (VS1_0.writes (Elt F) VS1_0.junk (kernelRun1_A c i arg1 harg1 arg2 harg2 arg3 harg3 arg4 harg4 hc0 hc1 x0).1)
def sout1_A_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : cond1_0 i) (hc1 : ¬cond1_1 i) (x0 : Vec F S5000x128 .f32) : Vec F S1x128 .f32 :=
  VS1_1.read (Elt F) (VS1_1.writes (Elt F) VS1_1.junk (kernelRun1_A c i arg1 harg1 arg2 harg2 arg3 harg3 arg4 harg4 hc0 hc1 x0).2.1)

/-- A middle point's pieces cover each accumulator. -/
theorem scover1_B_0 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : ¬cond1_1 i) (x0 : Vec F S5000x128 .f32) (xs0 xs1 : Vec F S1x128 .f32) (y : S1x128.Idx) :
    ∃ pc ∈ (kernelRun1_B c i arg1 harg1 arg2 harg2 arg3 harg3 arg4 harg4 hc0 hc1 x0 xs0 xs1).1, y ∈ pc.1.set :=
  View.cover_of_tiledL (kernelRun1_B c i arg1 harg1 arg2 harg2 arg3 harg3 arg4 harg4 hc0 hc1 x0 xs0 xs1).1 S1x128.size (by sl_kernel_rfl) y
theorem scover1_B_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : ¬cond1_1 i) (x0 : Vec F S5000x128 .f32) (xs0 xs1 : Vec F S1x128 .f32) (y : S1x128.Idx) :
    ∃ pc ∈ (kernelRun1_B c i arg1 harg1 arg2 harg2 arg3 harg3 arg4 harg4 hc0 hc1 x0 xs0 xs1).2.1, y ∈ pc.1.set :=
  View.cover_of_tiledL (kernelRun1_B c i arg1 harg1 arg2 harg2 arg3 harg3 arg4 harg4 hc0 hc1 x0 xs0 xs1).2.1 S1x128.size (by sl_kernel_rfl) y
def sout1_B_0 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : ¬cond1_1 i) (x0 : Vec F S5000x128 .f32) (xs0 xs1 : Vec F S1x128 .f32) : Vec F S1x128 .f32 :=
  VS1_0.read (Elt F) (VS1_0.writes (Elt F) VS1_0.junk (kernelRun1_B c i arg1 harg1 arg2 harg2 arg3 harg3 arg4 harg4 hc0 hc1 x0 xs0 xs1).1)
def sout1_B_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : ¬cond1_1 i) (x0 : Vec F S5000x128 .f32) (xs0 xs1 : Vec F S1x128 .f32) : Vec F S1x128 .f32 :=
  VS1_1.read (Elt F) (VS1_1.writes (Elt F) VS1_1.junk (kernelRun1_B c i arg1 harg1 arg2 harg2 arg3 harg3 arg4 harg4 hc0 hc1 x0 xs0 xs1).2.1)

/-- The last point's pieces cover the output's buffer (two rows) and each accumulator. -/
theorem cover1_C_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : cond1_1 i) (x0 : Vec F S5000x128 .f32) (xs0 xs1 : Vec F S1x128 .f32) (y : S2x128.Idx) :
    ∃ pc ∈ (kernelRun1_C c i arg1 harg1 arg2 harg2 arg3 harg3 arg4 harg4 hc0 hc1 x0 xs0 xs1).1, y ∈ pc.1.set :=
  View.cover_of_tiledL (kernelRun1_C c i arg1 harg1 arg2 harg2 arg3 harg3 arg4 harg4 hc0 hc1 x0 xs0 xs1).1 (S1x128.size : Fin S2x128.rank → ℕ) (by sl_kernel_rfl) y
theorem scover1_C_0 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : cond1_1 i) (x0 : Vec F S5000x128 .f32) (xs0 xs1 : Vec F S1x128 .f32) (y : S1x128.Idx) :
    ∃ pc ∈ (kernelRun1_C c i arg1 harg1 arg2 harg2 arg3 harg3 arg4 harg4 hc0 hc1 x0 xs0 xs1).2.1, y ∈ pc.1.set :=
  View.cover_of_tiledL (kernelRun1_C c i arg1 harg1 arg2 harg2 arg3 harg3 arg4 harg4 hc0 hc1 x0 xs0 xs1).2.1 S1x128.size (by sl_kernel_rfl) y
theorem scover1_C_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : cond1_1 i) (x0 : Vec F S5000x128 .f32) (xs0 xs1 : Vec F S1x128 .f32) (y : S1x128.Idx) :
    ∃ pc ∈ (kernelRun1_C c i arg1 harg1 arg2 harg2 arg3 harg3 arg4 harg4 hc0 hc1 x0 xs0 xs1).2.2.1, y ∈ pc.1.set :=
  View.cover_of_tiledL (kernelRun1_C c i arg1 harg1 arg2 harg2 arg3 harg3 arg4 harg4 hc0 hc1 x0 xs0 xs1).2.2.1 S1x128.size (by sl_kernel_rfl) y
def out1_C_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : cond1_1 i) (x0 : Vec F S5000x128 .f32) (xs0 xs1 : Vec F S1x128 .f32) : Vec F S2x128 .f32 :=
  VO1_1.read (Elt F) (VO1_1.writes (Elt F) VO1_1.junk (kernelRun1_C c i arg1 harg1 arg2 harg2 arg3 harg3 arg4 harg4 hc0 hc1 x0 xs0 xs1).1)
def sout1_C_0 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : cond1_1 i) (x0 : Vec F S5000x128 .f32) (xs0 xs1 : Vec F S1x128 .f32) : Vec F S1x128 .f32 :=
  VS1_0.read (Elt F) (VS1_0.writes (Elt F) VS1_0.junk (kernelRun1_C c i arg1 harg1 arg2 harg2 arg3 harg3 arg4 harg4 hc0 hc1 x0 xs0 xs1).2.1)
def sout1_C_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : cond1_1 i) (x0 : Vec F S5000x128 .f32) (xs0 xs1 : Vec F S1x128 .f32) : Vec F S1x128 .f32 :=
  VS1_1.read (Elt F) (VS1_1.writes (Elt F) VS1_1.junk (kernelRun1_C c i arg1 harg1 arg2 harg2 arg3 harg3 arg4 harg4 hc0 hc1 x0 xs0 xs1).2.2.1)

/-- The output's buffer where the window is idle: a placeholder nothing consults (the window is neither written back
    there nor read at the next point). -/
def outIdle1 : Vec F S2x128 .f32 := VO1_1.read (Elt F) VO1_1.junk

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem lt10 {n : ℕ} (hn : n < cfg1.N) : n < 10 := lt_of_lt_of_eq hn (show cfg1.N = 10 from N_1)

/-! ## What the buffers hold after each point -/

/-- THE ACCUMULATION: what the output's buffer and the two accumulators hold after the body at position `n`: the
    first point's contents at 0; afterwards the last point's contents (at 9) or a middle point's, over what the
    point before left in the accumulators. -/
def outsAt1 (c : Dev nD) : (n : ℕ) → n < cfg1.N → Vec F S2x128 .f32 × Vec F S1x128 .f32 × Vec F S1x128 .f32
  | 0, hn => (outIdle1,
      sout1_A_0 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩),
      sout1_A_1 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h1 : (n + 1) % 10 = 9 then
      (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => by have h0 := (hcond1_0 ⟨n + 1, hn⟩).mp h; have := lt10 hn; (try dsimp only at h0); omega) ((hcond1_1 ⟨n + 1, hn⟩).mpr h1) (iblk1 V c 0 ⟨n + 1, hn⟩) (outsAt1 c n (Nat.lt_of_succ_lt hn)).2.1 (outsAt1 c n (Nat.lt_of_succ_lt hn)).2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => by have h0 := (hcond1_0 ⟨n + 1, hn⟩).mp h; have := lt10 hn; (try dsimp only at h0); omega) ((hcond1_1 ⟨n + 1, hn⟩).mpr h1) (iblk1 V c 0 ⟨n + 1, hn⟩) (outsAt1 c n (Nat.lt_of_succ_lt hn)).2.1 (outsAt1 c n (Nat.lt_of_succ_lt hn)).2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => by have h0 := (hcond1_0 ⟨n + 1, hn⟩).mp h; have := lt10 hn; (try dsimp only at h0); omega) ((hcond1_1 ⟨n + 1, hn⟩).mpr h1) (iblk1 V c 0 ⟨n + 1, hn⟩) (outsAt1 c n (Nat.lt_of_succ_lt hn)).2.1 (outsAt1 c n (Nat.lt_of_succ_lt hn)).2.2)
    else
      (outIdle1,
       sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => by have h0 := (hcond1_0 ⟨n + 1, hn⟩).mp h; have := lt10 hn; (try dsimp only at h0); omega) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => by have h0 := (hcond1_0 ⟨n + 1, hn⟩).mp h; have := lt10 hn; (try dsimp only at h0); omega) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2)

/-- `outsAt1` at the first point. -/
theorem outsAt1_A (c : Dev nD) (t : Fin cfg1.N) (h0 : t.val = 0) (hc0 : cond1_0 (grid1.coords t)) (hc1 : ¬cond1_1 (grid1.coords t)) :
    outsAt1 V c t.val t.isLt = (outIdle1, sout1_A_0 c (grid1.coords t) (ms1_0 t) (hs1_0 t) (ms1_1 t) (hs1_1 t) scM1_0 (Memref.isWhole_whole _) scM1_1 (Memref.isWhole_whole _) hc0 hc1 (iblk1 V c 0 t), sout1_A_1 c (grid1.coords t) (ms1_0 t) (hs1_0 t) (ms1_1 t) (hs1_1 t) scM1_0 (Memref.isWhole_whole _) scM1_1 (Memref.isWhole_whole _) hc0 hc1 (iblk1 V c 0 t)) := by
  obtain ⟨n, hn⟩ := t
  cases n with
  | zero => exact rfl
  | succ n => exact absurd h0 (Nat.succ_ne_zero n)

/-- `outsAt1` at a middle point, over what the point before left. -/
theorem outsAt1_B (c : Dev nD) (t : Fin cfg1.N) (h0 : t.val ≠ 0) (h1 : ¬t.val % 10 = 9) (hc0 : ¬cond1_0 (grid1.coords t)) (hc1 : ¬cond1_1 (grid1.coords t)) :
    outsAt1 V c t.val t.isLt = (outIdle1,
      sout1_B_0 c (grid1.coords t) (ms1_0 t) (hs1_0 t) (ms1_1 t) (hs1_1 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_1 c (grid1.coords t) (ms1_0 t) (hs1_0 t) (ms1_1 t) (hs1_1 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt1` at the last point, over what the point before left. -/
theorem outsAt1_C (c : Dev nD) (t : Fin cfg1.N) (h0 : t.val ≠ 0) (h1 : t.val % 10 = 9) (hc0 : ¬cond1_0 (grid1.coords t)) (hc1 : cond1_1 (grid1.coords t)) :
    outsAt1 V c t.val t.isLt = (out1_C_1 c (grid1.coords t) (ms1_0 t) (hs1_0 t) (ms1_1 t) (hs1_1 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_0 c (grid1.coords t) (ms1_0 t) (hs1_0 t) (ms1_1 t) (hs1_1 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_1 c (grid1.coords t) (ms1_0 t) (hs1_0 t) (ms1_1 t) (hs1_1 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd rfl h0
  | succ n => exact (dif_pos h1).trans rfl

/-! ## The region invariant -/

/-- A scoped buffer held whole at some contents. -/
abbrev exb (c : Dev nD) (r : Ref sig .tc) : sProp 𝕄 := iprop(∃ f : Buf (Elt F) ((c : Thread nD τ).loc r), ((c : Thread nD τ).loc r) ↦{fullShare} f)

/-- The other kernels' staging buffers, which this region never touches, each held at some contents. -/
def rest1 (c : Dev nD) : sProp 𝕄 :=
  iprop(exb c cc0_stg0_0 ∗ exb c cc0_stg0_1 ∗ exb c cc0_stg1_0 ∗ exb c cc0_stg2_0 ∗ exb c cc0_stg2_1 ∗ exb c cc2_stg0_0 ∗ exb c cc2_stg0_1
    ∗ exb c cc2_stg1_0 ∗ exb c cc2_stg2_0 ∗ exb c cc2_stg3_0 ∗ exb c cc2_stg4_0 ∗ exb c cc2_stg4_1)

/-- The region invariant before position `n`: before the first point the two accumulators hold anything; afterwards
    what the point before left in them; beside them the untouched scoped buffers and the generator register. -/
def PhiS (c : Dev nD) : (n : ℕ) → n ≤ cfg1.N → sProp 𝕄
  | 0, _ => iprop((∃ d, owns (c : Thread nD τ) scM1_0 fullShare d) ∗ (∃ d, owns (c : Thread nD τ) scM1_1 fullShare d) ∗ rest1 c ∗ (∃ r, prngReg c r))
  | n + 1, hn => iprop(owns (c : Thread nD τ) scM1_0 fullShare ((outsAt1 V c n hn).2.1) ∗ owns (c : Thread nD τ) scM1_1 fullShare ((outsAt1 V c n hn).2.2) ∗ rest1 c ∗ (∃ r, prngReg c r))

theorem PhiS_zero (c : Dev nD) (n : ℕ) (h : n ≤ cfg1.N) (hz : n = 0) :
    PhiS V c n h = iprop((∃ d, owns (c : Thread nD τ) scM1_0 fullShare d) ∗ (∃ d, owns (c : Thread nD τ) scM1_1 fullShare d) ∗ rest1 c ∗ (∃ r, prngReg c r)) := by
  subst hz; rfl
theorem PhiS_succ (c : Dev nD) (n : ℕ) (hn : n < cfg1.N) :
    PhiS V c (n + 1) hn = iprop(owns (c : Thread nD τ) scM1_0 fullShare ((outsAt1 V c n hn).2.1) ∗ owns (c : Thread nD τ) scM1_1 fullShare ((outsAt1 V c n hn).2.2) ∗ rest1 c ∗ (∃ r, prngReg c r)) := rfl
theorem PhiS_pos (c : Dev nD) (n : ℕ) (h : n ≤ cfg1.N) (hz : n ≠ 0) :
    PhiS V c n h = iprop(owns (c : Thread nD τ) scM1_0 fullShare ((outsAt1 V c (n - 1) (by omega)).2.1) ∗ owns (c : Thread nD τ) scM1_1 fullShare ((outsAt1 V c (n - 1) (by omega)).2.2) ∗ rest1 c ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the closed forms say which kind of point it is; the invariant hands the body the two
    accumulators (at anything at the first point, at what the point before left afterwards) and takes them back at
    this point's contents; where the output window is idle its buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  have hN : t.val < 10 := lt10 t.isLt
  rw [show (dat1 V c).leavesExact 0 t = owns (c : Thread nD τ) (ms1_0 t) fullShare ((dat1 V c).after 0 t) from by
    unfold Dat.leavesExact; rw [liveAt1_0 t], after1_0]
  by_cases hz : t.val = 0
  · have hc0 : cond1_0 (grid1.coords t) := (hcond1_0 t).mpr (by rw [hz])
    have hc1 : ¬cond1_1 (grid1.coords t) := fun h => by have := (hcond1_1 t).mp h; omega
    rw [Dat.leavesExact_idle (dat1 V c) 1 t (idleAt1_1 t hc1) (noFlush1_1 t hc1)]
    rw [outsAt1_A V c t hz hc0 hc1]
    unfold sout1_A_0 sout1_A_1; (try dsimp only)
    rw [PhiS_castSucc V c t, PhiS_zero V c _ _ hz]
    iintro ⟨⟨HS0, HS1, Hrest, Hg⟩, Ho, ⟨%d0, H0⟩, ⟨%d1, H1⟩⟩
    iapply ((kernelRun1_A c (grid1.coords t) _ _ _ _ _ _ _ _ hc0 hc1 (iblk1 V c 0 t)).2.2 _ Set.univ _)
    isplitl [H0]; · iexact H0
    isplitl [H1]; · iexact H1
    isplitl [HS0]; · iexact HS0
    isplitl [HS1]; · iexact HS1
    iintro ⟨H0, H1, ⟨%es0, HS0⟩, ⟨%es1, HS1⟩⟩
    isplitl [HS0 HS1 Hrest Hg]
    · isplitl [HS0]
      · unfold owns; iexists _; isplitr
        swap; · iexact HS0
        ipureintro; exact View.read_writes_of_cover _ _ _ _ _ (scover1_A_0 c _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _)
      isplitl [Hrest]; · iexact Hrest
      iexact Hg
    isplitl [Ho]; · iexact Ho
    isplitl [H0]; · iexact H0
    iexists _; iexact H1
  · have hc0 : ¬cond1_0 (grid1.coords t) := fun h => by have := (hcond1_0 t).mp h; omega
    by_cases h1 : t.val % 10 = 9
    · have hc1 : cond1_1 (grid1.coords t) := (hcond1_1 t).mpr h1
      rw [show (dat1 V c).leavesExact 1 t = owns (c : Thread nD τ) (ms1_1 t) fullShare ((dat1 V c).after 1 t) from by
        unfold Dat.leavesExact; rw [liveAt1_1 t hc1], after1_1]
      rw [outsAt1_C V c t hz h1 hc0 hc1]
      unfold out1_C_1 sout1_C_0 sout1_C_1; (try dsimp only)
      rw [PhiS_castSucc V c t, PhiS_pos V c _ _ hz]
      iintro ⟨⟨HS0, HS1, Hrest, Hg⟩, Ho, ⟨%d0, H0⟩, ⟨%d1, H1⟩⟩
      iapply ((kernelRun1_C c (grid1.coords t) _ _ _ _ _ _ _ _ hc0 hc1 (iblk1 V c 0 t) _ _).2.2.2 Set.univ _)
      isplitl [H0]; · iexact H0
      isplitl [H1]; · iexists _; iexact H1
      isplitl [HS0]; · iexact HS0
      isplitl [HS1]; · iexact HS1
      iintro ⟨H0, ⟨%e1, H1⟩, ⟨%es0, HS0⟩, ⟨%es1, HS1⟩⟩
      isplitl [HS0 HS1 Hrest Hg]
      · isplitl [HS0]
        · unfold owns; iexists _; isplitr
          swap; · iexact HS0
          ipureintro; exact View.read_writes_of_cover _ _ _ _ _ (scover1_C_0 c _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _)
        isplitl [Hrest]; · iexact Hrest
        iexact Hg
      isplitl [Ho]; · iexact Ho
      isplitl [H0]; · iexact H0
      unfold owns; iexists _; isplitr
      swap; · iexact H1
      ipureintro; exact View.read_writes_of_cover _ _ _ _ _ (cover1_C_1 c _ _ _ _ _ _ _ _ _ _ _ _ _ _)
    · have hc1 : ¬cond1_1 (grid1.coords t) := fun h => h1 ((hcond1_1 t).mp h)
      rw [Dat.leavesExact_idle (dat1 V c) 1 t (idleAt1_1 t hc1) (noFlush1_1 t hc1)]
      rw [outsAt1_B V c t hz h1 hc0 hc1]
      unfold sout1_B_0 sout1_B_1; (try dsimp only)
      rw [PhiS_castSucc V c t, PhiS_pos V c _ _ hz]
      iintro ⟨⟨HS0, HS1, Hrest, Hg⟩, Ho, ⟨%d0, H0⟩, ⟨%d1, H1⟩⟩
      iapply ((kernelRun1_B c (grid1.coords t) _ _ _ _ _ _ _ _ hc0 hc1 (iblk1 V c 0 t) _ _).2.2 _ Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hrest Hg]
      · isplitl [HS0]
        · unfold owns; iexists _; isplitr
          swap; · iexact HS0
          ipureintro; exact View.read_writes_of_cover _ _ _ _ _ (scover1_B_0 c _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _)
        isplitl [Hrest]; · iexact Hrest
        iexact Hg
      isplitl [Ho]; · iexact Ho
      isplitl [H0]; · iexact H0
      iexists _; iexact H1

theorem body_obligation1 (c : Dev nD) : BodyObligation (dat1 (F := F) V c) (defs₀ (F := F)) Variants.none () Set.univ := fun t => by
  rw [bigSep_W1, bigSep_W1]
  exact sound_body1 V c t

/-! ## The invariant's two ends -/

/-- From the generator register and the scoped buffers no window stages, the invariant before the first point. -/
theorem hin1 (c : Dev nD) : iprop((∃ r, prngReg c r) ∗ Pipeline.scopedRest (Ix := Unit) (Name := ℕ) (U := UR sig nD τ) (Lvl := ℕ) (Val := Elt F) spec1 c) ⊢ ((dat1 V c).Φ 0 : sProp 𝕄) := by
  rw [show (dat1 V c).Φ 0 = PhiS V c 0 (Nat.zero_le _) from rfl, PhiS_zero V c 0 _ rfl, scopedRest1_eq]
  unfold rest1 exb
  simp only [scM1_0, scM1_1, owns_whole]
  iintro ⟨Hg, ⟨B0, B1, B2, B3, B4, S0, S1, C0, C1, C2, C3, C4, C5, C6⟩⟩
  isplitl [S0]; · iexact S0
  isplitl [S1]; · iexact S1
  isplitr [Hg]
  · isplitl [B0]; · iexact B0
    isplitl [B1]; · iexact B1
    isplitl [B2]; · iexact B2
    isplitl [B3]; · iexact B3
    isplitl [B4]; · iexact B4
    isplitl [C0]; · iexact C0
    isplitl [C1]; · iexact C1
    isplitl [C2]; · iexact C2
    isplitl [C3]; · iexact C3
    isplitl [C4]; · iexact C4
    isplitl [C5]; · iexact C5
    iexact C6
  iexact Hg

/-- After the last point the invariant gives the generator register and those scoped buffers back: what the
    accumulators hold is forgotten. -/
theorem hout1 (c : Dev nD) : ((dat1 V c).Φ (Fin.last cfg1.N) : sProp 𝕄) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 10 := N_1; omega), scopedRest1_eq]
  unfold rest1 exb
  iintro ⟨S0, S1, ⟨B0, B1, B2, B3, B4, C0, C1, C2, C3, C4, C5, C6⟩, Hg⟩
  isplitl [Hg]; · iexact Hg
  isplitl [B0]; · iexact B0
  isplitl [B1]; · iexact B1
  isplitl [B2]; · iexact B2
  isplitl [B3]; · iexact B3
  isplitl [B4]; · iexact B4
  isplitl [S0]; · simp only [scM1_0, owns_whole]; iexists _; iexact S0
  isplitl [S1]; · simp only [scM1_1, owns_whole]; iexists _; iexact S1
  isplitl [C0]; · iexact C0
  isplitl [C1]; · iexact C1
  isplitl [C2]; · iexact C2
  isplitl [C3]; · iexact C3
  isplitl [C4]; · iexact C4
  isplitl [C5]; · iexact C5
  iexact C6

end Cert.Kernel.Hand

end
-- ==== Proof.K.Region2.lean ====
/-
  The third pallas_call (the fused normalisation, scale, shift and ReLU, ten row blocks of 5000 rows): what its body
  leaves in the output block's buffer as a function of the four input blocks (the rows, the 2 × 128 statistics, the
  scale row and the shift row), the body's triple, the pipeline's proof data at the contents `V` the region is
  entered from, and the body obligation at every grid point.
-/
import proofs.«181293_j22840636080817_1_alg».proof.Proof.Gen.Kernel.Launch
import proofs.«181293_j22840636080817_1_alg».proof.Proof.Gen.Kernel.Skeleton
import proofs.«181293_j22840636080817_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: the whole 5000 × 128 block, the two rows of the statistics, a whole row. -/
abbrev rB : Rect S5000x128 := Rect.unit (s := S5000x128) ![0, 0] S5000x128.size inb_S5000x128_S5000x128_0_0
abbrev rS0 : Rect S2x128 := Rect.unit (s := S2x128) ![0, 0] S1x128.size inb_S2x128_S1x128_0_0
abbrev rS1 : Rect S2x128 := Rect.unit (s := S2x128) ![1, 0] S1x128.size inb_S2x128_S1x128_1_0
abbrev rV : Rect S1x128 := Rect.unit (s := S1x128) ![0, 0] S1x128.size inb_S1x128_S1x128_0_0

/-- The output block's buffer after the body: one store of the whole block. -/
def out2_4 (x0 : Vec F S5000x128 .f32) (x1 : Vec F S2x128 .f32) (x2 : Vec F S1x128 .f32) (x3 : Vec F S1x128 .f32) : Vec F S5000x128 .f32 :=
  View.canon [⟨rB, k2_pay1 (View.ld x1 rS0) (View.ld x1 rS1) (View.ld x0 rB) (View.ld x2 rV) (View.ld x3 rV)⟩]

theorem cover2_4 (p0 : Vec F S5000x128 .f32) (y : S5000x128.Idx) :
    ∃ pc ∈ ([⟨rB, p0⟩] : List (View.Piece (Elt F) S5000x128 .f32)), y ∈ pc.1.set :=
  View.cover_of_tiled [⟨rB, p0⟩] S5000x128.size (by rfl) y

set_option maxHeartbeats 1000000 in
/-- The body on whole staging buffers: the inputs' at `x0 … x3`, the output's at anything; it returns with the inputs'
    as they were and the output's at `out2_4 x0 x1 x2 x3`. -/
theorem sound_kernel2 (c : Dev nD) (E : Set ℕ) (i : grid2.Coords) (arg1 : Memref sig .tc .vmem S5000x128 .f32) (harg1 : arg1.IsWhole)
    (arg2 : Memref sig .tc .vmem S2x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 : Vec F S2x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__bn_relu_kernel i arg1 harg1 arg2 harg2 arg3 harg3 arg4 harg4 arg5 harg5) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of the third pipeline on core `c`, entered from `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The whole program as a run: the buffer contents at each boundary between a pallas_call and a stretch of host
  operations, folded from the launch memory; the three pipelines' proof data at their regions' entry contents; each
  region and each host stretch as a segment over the thread state "every unscoped buffer at the boundary's contents,
  the generator register at some state, nothing owed"; and the run itself: every weakly fair execution of the program
  terminates, without a fault, with every unscoped buffer at the last boundary's contents. The arguments are read
  back through the fold to their launch contents.
-/
import proofs.«181293_j22840636080817_1_alg».proof.Proof.K.Region0
import proofs.«181293_j22840636080817_1_alg».proof.Proof.K.Region1
import proofs.«181293_j22840636080817_1_alg».proof.Proof.K.Region2
import proofs.«181293_j22840636080817_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b

/-- At pallas_call 0's exit: its arrays at what the pipeline leaves (each output's write-backs folded), every other
    buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the first stretch of host operations (the edge gather and scatter-add). -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b

/-- At pallas_call 1's exit: its arrays at what the pipeline leaves (each output's write-backs folded), every other
    buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After the second stretch of host operations (the scale and the shift recast as rows). -/
abbrev W4 : Dev nD → Valuation τ sig (Elt F) := fun c => StableHlo.after hostOps2 (W3 m ρ c)
abbrev U4 : (c : Dev nD) → (b : Ref sig .tc) → Buf (Elt F) ((c : Thread nD τ).loc b) := fun c b => W4 m ρ c b

/-- At pallas_call 2's exit: its arrays at what the pipeline leaves (each output's write-backs folded), every other
    buffer as entered. -/
def W5 (c : Dev nD) : Valuation τ sig (Elt F) :=
  Pipeline.withArrays spec2 c (W4 m ρ c) fun w => (dat2 (U4 m ρ) c).arrAt w cfg2.N
theorem W5_arr (c : Dev nD) (w : Fin cfg2.W) :
    W5 m ρ c (Proc.devRef .tc (Pipeline.arrRef spec2 w)) = (dat2 (U4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev U5 : (c : Dev nD) → (b : Ref sig .tc) → Buf (Elt F) ((c : Thread nD τ).loc b) := fun c b => W5 m ρ c b
theorem hF2 (c : Dev nD) (w : Fin cfg2.W) : (dat2 (U4 m ρ) c).arrAt w cfg2.N = U5 m ρ c (Pipeline.arrRef spec2 w) :=
  (W5_arr m ρ c w).symm
theorem hrest2 (c : Dev nD) : ∀ b, b ∉ Finset.univ.image (Pipeline.arrRef spec2) → U5 m ρ c b = U4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (U0 m ρ) c).arrAt_in 1 rfl _).trans (A_eq0 (U0 m ρ) c 1))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

/-! ## The proof data family and the thread state -/

abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (U0 m ρ) c
  | ⟨1, _⟩ => fun c => dat1 (U2 m ρ) c
  | ⟨2, _⟩ => fun c => dat2 (U4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The pallas_call number 0 over the thread state: entered from every unscoped buffer at `W0`, left at `W1`; its
    arrays split out of the unscoped buffers and put back at the exit contents; the generator register into the
    region invariant and out; nothing owed; no semaphore of the kernel's own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 1 over the thread state: entered from every unscoped buffer at `W2`, left at `W3`; its
    arrays split out of the unscoped buffers and put back at the exit contents; the generator register into the
    region invariant and out; nothing owed; no semaphore of the kernel's own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (U2 m ρ) c).Φ 0 from rfl]
    have h := hin1 (U2 m ρ) c
    iintro ⟨Hp, -, Hr⟩
    iapply h
    isplitl [Hp]; · iexact Hp
    iexact Hr
  hout c := by
    rw [Pipeline.ownSems0_none, show (pdats m ρ 1 c).Φ (Fin.last _) = (dat1 (U2 m ρ) c).Φ (Fin.last cfg1.N) from rfl]
    have h := hout1 (U2 m ρ) c
    iintro H0
    ihave H' := h $$ H0
    icases H' with ⟨Hp, Hr⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 2 over the thread state: entered from every unscoped buffer at `W4`, left at `W5`; its
    arrays split out of the unscoped buffers and put back at the exit contents; the generator register into the
    region invariant and out; nothing owed; no semaphore of the kernel's own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (U4 m ρ c) (U5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) admH (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every final state holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.Kernel.Hand

end
-- ==== Proof.KI.Region0.lean ====
/-
  The first pallas_call (the dense product h = x · W, ten row blocks of 5000 rows): what its body leaves in the
  output block's buffer as a function of the two input blocks, the body's triple, the pipeline's proof data at
  the contents `V` the region is entered from, and the body obligation at every grid point.
-/
import proofs.«181293_j22840636080817_1_alg».proof.Proof.Gen.KernelIdeal.Launch
import proofs.«181293_j22840636080817_1_alg».proof.Proof.Gen.KernelIdeal.Skeleton
import proofs.«181293_j22840636080817_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (an unfetched window's
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 5000 × 128 block and the whole 128 × 128 block as rectangles. -/
abbrev rX : Rect S5000x128 := Rect.unit (s := S5000x128) ![0, 0] S5000x128.size inb_S5000x128_S5000x128_0_0
abbrev rW : Rect S128x128 := Rect.unit (s := S128x128) ![0, 0] S128x128.size inb_S128x128_S128x128_0_0

/-- The output block's buffer after the body: one store of the whole block, the product of the two loaded blocks. -/
def out0_2 (x0 : Vec F S5000x128 .f32) (x1 : Vec F S128x128 .f32) : Vec F S5000x128 .f32 :=
  View.canon [⟨rX, k0_pay1 (View.ld x0 rX) (View.ld x1 rW)⟩]

theorem cover0_2 (p0 : Vec F S5000x128 .f32) (y : S5000x128.Idx) :
    ∃ pc ∈ ([⟨rX, p0⟩] : List (View.Piece (Elt F) S5000x128 .f32)), y ∈ pc.1.set :=
  View.cover_of_tiled [⟨rX, p0⟩] S5000x128.size (by rfl) y

set_option maxHeartbeats 1000000 in
/-- The body on whole staging buffers: the inputs' at `x0`, `x1`, the output's at anything; it returns with the inputs'
    as they were and the output's at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`, entered from `V`: after the body at point `t` each input's
    buffer holds its block and the output's the body's result on them; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Base.lean ====
/-
  The second pallas_call (column sums and column sums of squares of the 50000 × 128 array, accumulated over ten row
  blocks in two 1 × 128 scratch buffers; at the last block the mean and the variance are written to the 2 × 128
  output): what the runs of its body share — the two branch conditions in closed form over the grid, where the
  output window is idle, the staging and scratch buffers' names.
-/
import proofs.«181293_j22840636080817_1_alg».proof.Proof.Gen.KernelIdeal.Launch
import proofs.«181293_j22840636080817_1_alg».proof.Proof.Gen.KernelIdeal.Skeleton
import proofs.«181293_j22840636080817_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch of the body (zero the two accumulators): taken at the first grid point only. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- The second branch of the body (write the mean and the variance): taken at the last grid point only. -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-- The input window is never idle; the output window is idle, and not written back, wherever the second branch is
    not taken, and live where it is. -/
theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem liveAt1_1 : ∀ t : Fin cfg1.N, cond1_1 (grid1.coords t) → cfg1.idle 1 (grid1.coords t) = false := by decide +kernel

/-- One staging buffer of the output window, through which its contents are stated. -/
abbrev VO1_1 : View sig .tc .vmem S2x128 .f32 := (Memref.whole cc1_stg1_0 : Memref sig .tc .vmem S2x128 .f32).view
/-- Each window's current staging buffer at point `t`, as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x128 .f32 := win1_1.stage (cfg1.slots t 1)
abbrev hs1_1 (t : Fin cfg1.N) : (ms1_1 t).IsWhole := hstage1_1 ((cfg1.slots t 1).cast nbuf1_1)
/-- The two accumulators: whole scoped buffers of the kernel's own, carried from one grid point to the next. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

end Cert.KernelIdeal.Hand

end
-- ==== Proof.KI.Region1RunA.lean ====
/-
  The statistics body at the first grid point (accumulators zeroed, then the block's column sums added; nothing
  written to the output): the pieces its stores leave in the two accumulators, with the proof that it runs.
-/
import proofs.«181293_j22840636080817_1_alg».proof.Proof.KI.Region1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first point: the input block at `x0`, the output's buffer at `xi1` handed back untouched, the two
    accumulators at anything; the run finds the pieces stored into each accumulator (last first). -/
noncomputable def kernelRun1_A (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : cond1_0 i) (hc1 : ¬cond1_1 i)
    (x0 : Vec F S5000x128 .f32) :
    Σ' (LS0 : List (View.Piece (Elt F) S1x128 .f32)), { LS1 : List (View.Piece (Elt F) S1x128 .f32) //
      ∀ (xi1 : Vec F S2x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare xi1
                ∗ (∃ f, arg3.view.loc (c : Thread nD τ) ↦[arg3.view.set]{fullShare} arg3.view.writes (Elt F) f LS0)
                ∗ (∃ f, arg4.view.loc (c : Thread nD τ) ↦[arg4.view.set]{fullShare} arg4.view.writes (Elt F) f LS1)) -∗ K ⟨⟩))
          ⊢ wp frame (wpE (defs₀ (F := F)) Variants.none c none) E (cc1__stats_kernel i arg1 harg1 arg2 harg2 arg3 harg3 arg4 harg4) K } := by
  refine ⟨?_, ?_, fun xi1 E K => ?run⟩
  case run =>
    simp only [cc1__stats_kernel_eq_skeleton]; unfold cc1__stats_kernel_skel
    unfold owns
    iintro ⟨⟨%f0, %hf0, H0⟩, ⟨%f1, %hf1, H1⟩, ⟨%ds0, %fs0, -, HS0⟩, ⟨%ds1, %fs1, -, HS1⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.KernelIdeal.Hand

end
-- ==== Proof.KI.Region1RunB.lean ====
/-
  The statistics body at a middle grid point (the block's column sums added to the accumulators; nothing written
  to the output): the pieces its stores leave in the two accumulators, with the proof that it runs.
-/
import proofs.«181293_j22840636080817_1_alg».proof.Proof.KI.Region1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle point: the input block at `x0`, the output's buffer at `xi1` handed back untouched, the two
    accumulators at what the point before left (`xs0`, `xs1`). -/
noncomputable def kernelRun1_B (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : ¬cond1_1 i)
    (x0 : Vec F S5000x128 .f32) (xs0 xs1 : Vec F S1x128 .f32) :
    Σ' (LS0 : List (View.Piece (Elt F) S1x128 .f32)), { LS1 : List (View.Piece (Elt F) S1x128 .f32) //
      ∀ (xi1 : Vec F S2x128 .f32) (E : Set ℕ) (K : PUnit → sProp 𝕄),
        iprop(owns (c : Thread nD τ) arg1 fullShare x0 ∗ owns (c : Thread nD τ) arg2 fullShare xi1 ∗ owns (c : Thread nD τ) arg3 fullShare xs0 ∗ owns (c : Thread nD τ) arg4 fullShare xs1
            ∗ (iprop(owns (c : Thread nD τ) arg1 fullShare x0 ∗ owns (c : Thread nD τ) arg2 fullShare xi1
                ∗ (∃ f, arg3.view.loc (c : Thread nD τ) ↦[arg3.view.set]{fullShare} arg3.view.writes (Elt F) f LS0)
                ∗ (∃ f, arg4.view.loc (c : Thread nD τ) ↦[arg4.view.set]{fullShare} arg4.view.writes (Elt F) f LS1)) -∗ K ⟨⟩))
          ⊢ wp frame (wpE (defs₀ (F := F)) Variants.none c none) E (cc1__stats_kernel i arg1 harg1 arg2 harg2 arg3 harg3 arg4 harg4) K } := by
  refine ⟨?_, ?_, fun xi1 E K => ?run⟩
  case run =>
    simp only [cc1__stats_kernel_eq_skeleton]; unfold cc1__stats_kernel_skel
    unfold owns
    iintro ⟨⟨%f0, %hf0, H0⟩, ⟨%f1, %hf1, H1⟩, ⟨%fs0, %hfs0, HS0⟩, ⟨%fs1, %hfs1, HS1⟩, Hk⟩
    obtain rfl := harg1.eq_unread hf0; obtain rfl := harg2.eq_unread hf1; obtain rfl := harg3.eq_unread hfs0; obtain rfl := harg4.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HS0]; · iexists _; iexact HS0
    iexists _; iexact HS1

end Cert.KernelIdeal.Hand

end
-- ==== Proof.KI.Region1RunC.lean ====
/-
  The statistics body at the last grid point (the block's column sums added to the accumulators, then the mean and
  the variance written to the two rows of the output): the pieces its stores leave in the output's buffer and in
  the two accumulators, with the proof that it runs.
-/
import proofs.«181293_j22840636080817_1_alg».proof.Proof.KI.Region1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last point: the input block at `x0`, the output's buffer at anything, the two accumulators at what the
    point before left (`xs0`, `xs1`). -/
noncomputable def kernelRun1_C (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : cond1_1 i)
    (x0 : Vec F S5000x128 .f32) (xs0 xs1 : Vec F S1x128 .f32) :
    Σ' (L1 : List (View.Piece (Elt F) S2x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0 ∗ owns (c : Thread nD τ) arg4 fullShare xs1
            ∗ (iprop(owns (c : Thread nD τ) arg1 fullShare x0
                ∗ (∃ f, arg2.view.loc (c : Thread nD τ) ↦[arg2.view.set]{fullShare} arg2.view.writes (Elt F) f L1)
                ∗ (∃ f, arg3.view.loc (c : Thread nD τ) ↦[arg3.view.set]{fullShare} arg3.view.writes (Elt F) f LS0)
                ∗ (∃ f, arg4.view.loc (c : Thread nD τ) ↦[arg4.view.set]{fullShare} arg4.view.writes (Elt F) f LS1)) -∗ K ⟨⟩))
          ⊢ wp frame (wpE (defs₀ (F := F)) Variants.none c none) E (cc1__stats_kernel i arg1 harg1 arg2 harg2 arg3 harg3 arg4 harg4) K } := by
  refine ⟨?_, ?_, ?_, fun E K => ?run⟩
  case run =>
    simp only [cc1__stats_kernel_eq_skeleton]; unfold cc1__stats_kernel_skel
    unfold owns
    iintro ⟨⟨%f0, %hf0, H0⟩, ⟨%d1, %f1, -, H1⟩, ⟨%fs0, %hfs0, HS0⟩, ⟨%fs1, %hfs1, HS1⟩, Hk⟩
    obtain rfl := harg1.eq_unread hf0; obtain rfl := harg3.eq_unread hfs0; obtain rfl := harg4.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [HS0]; · iexists _; iexact HS0
    iexists _; iexact HS1

end Cert.KernelIdeal.Hand

end
-- ==== Proof.KI.Region1.lean ====
/-
  The second pallas_call (the batch statistics): what the two accumulators and the output's buffer hold after each
  grid point — the first point's, a middle point's and the last point's contents chained over the ten points —,
  the region invariant that carries the accumulators from one point to the next, the pipeline's proof data at the
  contents `V` the region is entered from, and the body obligation at every grid point.
-/
import proofs.«181293_j22840636080817_1_alg».proof.Proof.KI.Region1RunA
import proofs.«181293_j22840636080817_1_alg».proof.Proof.KI.Region1RunB
import proofs.«181293_j22840636080817_1_alg».proof.Proof.KI.Region1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each kind of point leaves -/

/-- The first point's pieces cover each accumulator. -/
theorem scover1_A_0 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : cond1_0 i) (hc1 : ¬cond1_1 i) (x0 : Vec F S5000x128 .f32) (y : S1x128.Idx) :
    ∃ pc ∈ (kernelRun1_A c i arg1 harg1 arg2 harg2 arg3 harg3 arg4 harg4 hc0 hc1 x0).1, y ∈ pc.1.set :=
  View.cover_of_tiledL (kernelRun1_A c i arg1 harg1 arg2 harg2 arg3 harg3 arg4 harg4 hc0 hc1 x0).1 S1x128.size (by sl_kernel_rfl) y
theorem scover1_A_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : cond1_0 i) (hc1 : ¬cond1_1 i) (x0 : Vec F S5000x128 .f32) (y : S1x128.Idx) :
    ∃ pc ∈ (kernelRun1_A c i arg1 harg1 arg2 harg2 arg3 harg3 arg4 harg4 hc0 hc1 x0).2.1, y ∈ pc.1.set :=
  View.cover_of_tiledL (kernelRun1_A c i arg1 harg1 arg2 harg2 arg3 harg3 arg4 harg4 hc0 hc1 x0).2.1 S1x128.size (by sl_kernel_rfl) y
/-- What the first point leaves in the accumulators: its pieces read back. -/
def sout1_A_0 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : cond1_0 i) (hc1 : ¬cond1_1 i) (x0 : Vec F S5000x128 .f32) : Vec F S1x128 .f32 :=
  VS1_0.read (Elt F) (VS1_0.writes (Elt F) VS1_0.junk (kernelRun1_A c i arg1 harg1 arg2 harg2 arg3 harg3 arg4 harg4 hc0 hc1 x0).1)
def sout1_A_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : cond1_0 i) (hc1 : ¬cond1_1 i) (x0 : Vec F S5000x128 .f32) : Vec F S1x128 .f32 :=
  VS1_1.read (Elt F) (VS1_1.writes (Elt F) VS1_1.junk (kernelRun1_A c i arg1 harg1 arg2 harg2 arg3 harg3 arg4 harg4 hc0 hc1 x0).2.1)

/-- A middle point's pieces cover each accumulator. -/
theorem scover1_B_0 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : ¬cond1_1 i) (x0 : Vec F S5000x128 .f32) (xs0 xs1 : Vec F S1x128 .f32) (y : S1x128.Idx) :
    ∃ pc ∈ (kernelRun1_B c i arg1 harg1 arg2 harg2 arg3 harg3 arg4 harg4 hc0 hc1 x0 xs0 xs1).1, y ∈ pc.1.set :=
  View.cover_of_tiledL (kernelRun1_B c i arg1 harg1 arg2 harg2 arg3 harg3 arg4 harg4 hc0 hc1 x0 xs0 xs1).1 S1x128.size (by sl_kernel_rfl) y
theorem scover1_B_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : ¬cond1_1 i) (x0 : Vec F S5000x128 .f32) (xs0 xs1 : Vec F S1x128 .f32) (y : S1x128.Idx) :
    ∃ pc ∈ (kernelRun1_B c i arg1 harg1 arg2 harg2 arg3 harg3 arg4 harg4 hc0 hc1 x0 xs0 xs1).2.1, y ∈ pc.1.set :=
  View.cover_of_tiledL (kernelRun1_B c i arg1 harg1 arg2 harg2 arg3 harg3 arg4 harg4 hc0 hc1 x0 xs0 xs1).2.1 S1x128.size (by sl_kernel_rfl) y
def sout1_B_0 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : ¬cond1_1 i) (x0 : Vec F S5000x128 .f32) (xs0 xs1 : Vec F S1x128 .f32) : Vec F S1x128 .f32 :=
  VS1_0.read (Elt F) (VS1_0.writes (Elt F) VS1_0.junk (kernelRun1_B c i arg1 harg1 arg2 harg2 arg3 harg3 arg4 harg4 hc0 hc1 x0 xs0 xs1).1)
def sout1_B_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : ¬cond1_1 i) (x0 : Vec F S5000x128 .f32) (xs0 xs1 : Vec F S1x128 .f32) : Vec F S1x128 .f32 :=
  VS1_1.read (Elt F) (VS1_1.writes (Elt F) VS1_1.junk (kernelRun1_B c i arg1 harg1 arg2 harg2 arg3 harg3 arg4 harg4 hc0 hc1 x0 xs0 xs1).2.1)

/-- The last point's pieces cover the output's buffer (two rows) and each accumulator. -/
theorem cover1_C_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : cond1_1 i) (x0 : Vec F S5000x128 .f32) (xs0 xs1 : Vec F S1x128 .f32) (y : S2x128.Idx) :
    ∃ pc ∈ (kernelRun1_C c i arg1 harg1 arg2 harg2 arg3 harg3 arg4 harg4 hc0 hc1 x0 xs0 xs1).1, y ∈ pc.1.set :=
  View.cover_of_tiledL (kernelRun1_C c i arg1 harg1 arg2 harg2 arg3 harg3 arg4 harg4 hc0 hc1 x0 xs0 xs1).1 (S1x128.size : Fin S2x128.rank → ℕ) (by sl_kernel_rfl) y
theorem scover1_C_0 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : cond1_1 i) (x0 : Vec F S5000x128 .f32) (xs0 xs1 : Vec F S1x128 .f32) (y : S1x128.Idx) :
    ∃ pc ∈ (kernelRun1_C c i arg1 harg1 arg2 harg2 arg3 harg3 arg4 harg4 hc0 hc1 x0 xs0 xs1).2.1, y ∈ pc.1.set :=
  View.cover_of_tiledL (kernelRun1_C c i arg1 harg1 arg2 harg2 arg3 harg3 arg4 harg4 hc0 hc1 x0 xs0 xs1).2.1 S1x128.size (by sl_kernel_rfl) y
theorem scover1_C_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : cond1_1 i) (x0 : Vec F S5000x128 .f32) (xs0 xs1 : Vec F S1x128 .f32) (y : S1x128.Idx) :
    ∃ pc ∈ (kernelRun1_C c i arg1 harg1 arg2 harg2 arg3 harg3 arg4 harg4 hc0 hc1 x0 xs0 xs1).2.2.1, y ∈ pc.1.set :=
  View.cover_of_tiledL (kernelRun1_C c i arg1 harg1 arg2 harg2 arg3 harg3 arg4 harg4 hc0 hc1 x0 xs0 xs1).2.2.1 S1x128.size (by sl_kernel_rfl) y
def out1_C_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : cond1_1 i) (x0 : Vec F S5000x128 .f32) (xs0 xs1 : Vec F S1x128 .f32) : Vec F S2x128 .f32 :=
  VO1_1.read (Elt F) (VO1_1.writes (Elt F) VO1_1.junk (kernelRun1_C c i arg1 harg1 arg2 harg2 arg3 harg3 arg4 harg4 hc0 hc1 x0 xs0 xs1).1)
def sout1_C_0 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : cond1_1 i) (x0 : Vec F S5000x128 .f32) (xs0 xs1 : Vec F S1x128 .f32) : Vec F S1x128 .f32 :=
  VS1_0.read (Elt F) (VS1_0.writes (Elt F) VS1_0.junk (kernelRun1_C c i arg1 harg1 arg2 harg2 arg3 harg3 arg4 harg4 hc0 hc1 x0 xs0 xs1).2.1)
def sout1_C_1 (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (hc0 : ¬cond1_0 i) (hc1 : cond1_1 i) (x0 : Vec F S5000x128 .f32) (xs0 xs1 : Vec F S1x128 .f32) : Vec F S1x128 .f32 :=
  VS1_1.read (Elt F) (VS1_1.writes (Elt F) VS1_1.junk (kernelRun1_C c i arg1 harg1 arg2 harg2 arg3 harg3 arg4 harg4 hc0 hc1 x0 xs0 xs1).2.2.1)

/-- The output's buffer where the window is idle: a placeholder nothing consults (the window is neither written back
    there nor read at the next point). -/
def outIdle1 : Vec F S2x128 .f32 := VO1_1.read (Elt F) VO1_1.junk

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem lt10 {n : ℕ} (hn : n < cfg1.N) : n < 10 := lt_of_lt_of_eq hn (show cfg1.N = 10 from N_1)

/-! ## What the buffers hold after each point -/

/-- THE ACCUMULATION: what the output's buffer and the two accumulators hold after the body at position `n`: the
    first point's contents at 0; afterwards the last point's contents (at 9) or a middle point's, over what the
    point before left in the accumulators. -/
def outsAt1 (c : Dev nD) : (n : ℕ) → n < cfg1.N → Vec F S2x128 .f32 × Vec F S1x128 .f32 × Vec F S1x128 .f32
  | 0, hn => (outIdle1,
      sout1_A_0 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩),
      sout1_A_1 c (grid1.coords ⟨0, hn⟩) (ms1_0 ⟨0, hn⟩) (hs1_0 ⟨0, hn⟩) (ms1_1 ⟨0, hn⟩) (hs1_1 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h1 : (n + 1) % 10 = 9 then
      (out1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => by have h0 := (hcond1_0 ⟨n + 1, hn⟩).mp h; have := lt10 hn; (try dsimp only at h0); omega) ((hcond1_1 ⟨n + 1, hn⟩).mpr h1) (iblk1 V c 0 ⟨n + 1, hn⟩) (outsAt1 c n (Nat.lt_of_succ_lt hn)).2.1 (outsAt1 c n (Nat.lt_of_succ_lt hn)).2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => by have h0 := (hcond1_0 ⟨n + 1, hn⟩).mp h; have := lt10 hn; (try dsimp only at h0); omega) ((hcond1_1 ⟨n + 1, hn⟩).mpr h1) (iblk1 V c 0 ⟨n + 1, hn⟩) (outsAt1 c n (Nat.lt_of_succ_lt hn)).2.1 (outsAt1 c n (Nat.lt_of_succ_lt hn)).2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => by have h0 := (hcond1_0 ⟨n + 1, hn⟩).mp h; have := lt10 hn; (try dsimp only at h0); omega) ((hcond1_1 ⟨n + 1, hn⟩).mpr h1) (iblk1 V c 0 ⟨n + 1, hn⟩) (outsAt1 c n (Nat.lt_of_succ_lt hn)).2.1 (outsAt1 c n (Nat.lt_of_succ_lt hn)).2.2)
    else
      (outIdle1,
       sout1_B_0 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => by have h0 := (hcond1_0 ⟨n + 1, hn⟩).mp h; have := lt10 hn; (try dsimp only at h0); omega) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) scM1_0 (Memref.isWhole_whole _) scM1_1 (Memref.isWhole_whole _) (fun h => by have h0 := (hcond1_0 ⟨n + 1, hn⟩).mp h; have := lt10 hn; (try dsimp only at h0); omega) (fun h => h1 ((hcond1_1 ⟨n + 1, hn⟩).mp h)) (iblk1 V c 0 ⟨n + 1, hn⟩) (outsAt1 c n (Nat.lt_of_succ_lt hn)).2.1 (outsAt1 c n (Nat.lt_of_succ_lt hn)).2.2)

/-- `outsAt1` at the first point. -/
theorem outsAt1_A (c : Dev nD) (t : Fin cfg1.N) (h0 : t.val = 0) (hc0 : cond1_0 (grid1.coords t)) (hc1 : ¬cond1_1 (grid1.coords t)) :
    outsAt1 V c t.val t.isLt = (outIdle1, sout1_A_0 c (grid1.coords t) (ms1_0 t) (hs1_0 t) (ms1_1 t) (hs1_1 t) scM1_0 (Memref.isWhole_whole _) scM1_1 (Memref.isWhole_whole _) hc0 hc1 (iblk1 V c 0 t), sout1_A_1 c (grid1.coords t) (ms1_0 t) (hs1_0 t) (ms1_1 t) (hs1_1 t) scM1_0 (Memref.isWhole_whole _) scM1_1 (Memref.isWhole_whole _) hc0 hc1 (iblk1 V c 0 t)) := by
  obtain ⟨n, hn⟩ := t
  cases n with
  | zero => exact rfl
  | succ n => exact absurd h0 (Nat.succ_ne_zero n)

/-- `outsAt1` at a middle point, over what the point before left. -/
theorem outsAt1_B (c : Dev nD) (t : Fin cfg1.N) (h0 : t.val ≠ 0) (h1 : ¬t.val % 10 = 9) (hc0 : ¬cond1_0 (grid1.coords t)) (hc1 : ¬cond1_1 (grid1.coords t)) :
    outsAt1 V c t.val t.isLt = (outIdle1,
      sout1_B_0 c (grid1.coords t) (ms1_0 t) (hs1_0 t) (ms1_1 t) (hs1_1 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_1 c (grid1.coords t) (ms1_0 t) (hs1_0 t) (ms1_1 t) (hs1_1 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd rfl h0
  | succ n => exact (dif_neg h1).trans rfl

/-- `outsAt1` at the last point, over what the point before left. -/
theorem outsAt1_C (c : Dev nD) (t : Fin cfg1.N) (h0 : t.val ≠ 0) (h1 : t.val % 10 = 9) (hc0 : ¬cond1_0 (grid1.coords t)) (hc1 : cond1_1 (grid1.coords t)) :
    outsAt1 V c t.val t.isLt = (out1_C_1 c (grid1.coords t) (ms1_0 t) (hs1_0 t) (ms1_1 t) (hs1_1 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_0 c (grid1.coords t) (ms1_0 t) (hs1_0 t) (ms1_1 t) (hs1_1 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_1 c (grid1.coords t) (ms1_0 t) (hs1_0 t) (ms1_1 t) (hs1_1 t) scM1_0 (Memref.isWhole_whole _) scM1_1 (Memref.isWhole_whole _) hc0 hc1 (iblk1 V c 0 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd rfl h0
  | succ n => exact (dif_pos h1).trans rfl

/-! ## The region invariant -/

/-- A scoped buffer held whole at some contents. -/
abbrev exb (c : Dev nD) (r : Ref sig .tc) : sProp 𝕄 := iprop(∃ f : Buf (Elt F) ((c : Thread nD τ).loc r), ((c : Thread nD τ).loc r) ↦{fullShare} f)

/-- The other kernels' staging buffers, which this region never touches, each held at some contents. -/
def rest1 (c : Dev nD) : sProp 𝕄 :=
  iprop(exb c cc0_stg0_0 ∗ exb c cc0_stg0_1 ∗ exb c cc0_stg1_0 ∗ exb c cc0_stg2_0 ∗ exb c cc0_stg2_1 ∗ exb c cc2_stg0_0 ∗ exb c cc2_stg0_1
    ∗ exb c cc2_stg1_0 ∗ exb c cc2_stg2_0 ∗ exb c cc2_stg3_0 ∗ exb c cc2_stg4_0 ∗ exb c cc2_stg4_1)

/-- The region invariant before position `n`: before the first point the two accumulators hold anything; afterwards
    what the point before left in them; beside them the untouched scoped buffers and the generator register. -/
def PhiS (c : Dev nD) : (n : ℕ) → n ≤ cfg1.N → sProp 𝕄
  | 0, _ => iprop((∃ d, owns (c : Thread nD τ) scM1_0 fullShare d) ∗ (∃ d, owns (c : Thread nD τ) scM1_1 fullShare d) ∗ rest1 c ∗ (∃ r, prngReg c r))
  | n + 1, hn => iprop(owns (c : Thread nD τ) scM1_0 fullShare ((outsAt1 V c n hn).2.1) ∗ owns (c : Thread nD τ) scM1_1 fullShare ((outsAt1 V c n hn).2.2) ∗ rest1 c ∗ (∃ r, prngReg c r))

theorem PhiS_zero (c : Dev nD) (n : ℕ) (h : n ≤ cfg1.N) (hz : n = 0) :
    PhiS V c n h = iprop((∃ d, owns (c : Thread nD τ) scM1_0 fullShare d) ∗ (∃ d, owns (c : Thread nD τ) scM1_1 fullShare d) ∗ rest1 c ∗ (∃ r, prngReg c r)) := by
  subst hz; rfl
theorem PhiS_succ (c : Dev nD) (n : ℕ) (hn : n < cfg1.N) :
    PhiS V c (n + 1) hn = iprop(owns (c : Thread nD τ) scM1_0 fullShare ((outsAt1 V c n hn).2.1) ∗ owns (c : Thread nD τ) scM1_1 fullShare ((outsAt1 V c n hn).2.2) ∗ rest1 c ∗ (∃ r, prngReg c r)) := rfl
theorem PhiS_pos (c : Dev nD) (n : ℕ) (h : n ≤ cfg1.N) (hz : n ≠ 0) :
    PhiS V c n h = iprop(owns (c : Thread nD τ) scM1_0 fullShare ((outsAt1 V c (n - 1) (by omega)).2.1) ∗ owns (c : Thread nD τ) scM1_1 fullShare ((outsAt1 V c (n - 1) (by omega)).2.2) ∗ rest1 c ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t)

set_option maxHeartbeats 4800000 in
/-- The body at any point: the closed forms say which kind of point it is; the invariant hands the body the two
    accumulators (at anything at the first point, at what the point before left afterwards) and takes them back at
    this point's contents; where the output window is idle its buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS V c (t.val + 1) t.isLt from rfl, PhiS_succ]
  have hN : t.val < 10 := lt10 t.isLt
  rw [show (dat1 V c).leavesExact 0 t = owns (c : Thread nD τ) (ms1_0 t) fullShare ((dat1 V c).after 0 t) from by
    unfold Dat.leavesExact; rw [liveAt1_0 t], after1_0]
  by_cases hz : t.val = 0
  · have hc0 : cond1_0 (grid1.coords t) := (hcond1_0 t).mpr (by rw [hz])
    have hc1 : ¬cond1_1 (grid1.coords t) := fun h => by have := (hcond1_1 t).mp h; omega
    rw [Dat.leavesExact_idle (dat1 V c) 1 t (idleAt1_1 t hc1) (noFlush1_1 t hc1)]
    rw [outsAt1_A V c t hz hc0 hc1]
    unfold sout1_A_0 sout1_A_1; (try dsimp only)
    rw [PhiS_castSucc V c t, PhiS_zero V c _ _ hz]
    iintro ⟨⟨HS0, HS1, Hrest, Hg⟩, Ho, ⟨%d0, H0⟩, ⟨%d1, H1⟩⟩
    iapply ((kernelRun1_A c (grid1.coords t) _ _ _ _ _ _ _ _ hc0 hc1 (iblk1 V c 0 t)).2.2 _ Set.univ _)
    isplitl [H0]; · iexact H0
    isplitl [H1]; · iexact H1
    isplitl [HS0]; · iexact HS0
    isplitl [HS1]; · iexact HS1
    iintro ⟨H0, H1, ⟨%es0, HS0⟩, ⟨%es1, HS1⟩⟩
    isplitl [HS0 HS1 Hrest Hg]
    · isplitl [HS0]
      · unfold owns; iexists _; isplitr
        swap; · iexact HS0
        ipureintro; exact View.read_writes_of_cover _ _ _ _ _ (scover1_A_0 c _ _ _ _ _ _ _ _ _ _ _ _)
      isplitl [HS1]
      · unfold owns; iexists _; isplitr
        swap; · iexact HS1
        ipureintro; exact View.read_writes_of_cover _ _ _ _ _ (scover1_A_1 c _ _ _ _ _ _ _ _ _ _ _ _)
      isplitl [Hrest]; · iexact Hrest
      iexact Hg
    isplitl [Ho]; · iexact Ho
    isplitl [H0]; · iexact H0
    iexists _; iexact H1
  · have hc0 : ¬cond1_0 (grid1.coords t) := fun h => by have := (hcond1_0 t).mp h; omega
    by_cases h1 : t.val % 10 = 9
    · have hc1 : cond1_1 (grid1.coords t) := (hcond1_1 t).mpr h1
      rw [show (dat1 V c).leavesExact 1 t = owns (c : Thread nD τ) (ms1_1 t) fullShare ((dat1 V c).after 1 t) from by
        unfold Dat.leavesExact; rw [liveAt1_1 t hc1], after1_1]
      rw [outsAt1_C V c t hz h1 hc0 hc1]
      unfold out1_C_1 sout1_C_0 sout1_C_1; (try dsimp only)
      rw [PhiS_castSucc V c t, PhiS_pos V c _ _ hz]
      iintro ⟨⟨HS0, HS1, Hrest, Hg⟩, Ho, ⟨%d0, H0⟩, ⟨%d1, H1⟩⟩
      iapply ((kernelRun1_C c (grid1.coords t) _ _ _ _ _ _ _ _ hc0 hc1 (iblk1 V c 0 t) _ _).2.2.2 Set.univ _)
      isplitl [H0]; · iexact H0
      isplitl [H1]; · iexists _; iexact H1
      isplitl [HS0]; · iexact HS0
      isplitl [HS1]; · iexact HS1
      iintro ⟨H0, ⟨%e1, H1⟩, ⟨%es0, HS0⟩, ⟨%es1, HS1⟩⟩
      isplitl [HS0 HS1 Hrest Hg]
      · isplitl [HS0]
        · unfold owns; iexists _; isplitr
          swap; · iexact HS0
          ipureintro; exact View.read_writes_of_cover _ _ _ _ _ (scover1_C_0 c _ _ _ _ _ _ _ _ _ _ _ _ _ _)
        isplitl [HS1]
        · unfold owns; iexists _; isplitr
          swap; · iexact HS1
          ipureintro; exact View.read_writes_of_cover _ _ _ _ _ (scover1_C_1 c _ _ _ _ _ _ _ _ _ _ _ _ _ _)
        isplitl [Hrest]; · iexact Hrest
        iexact Hg
      isplitl [Ho]; · iexact Ho
      isplitl [H0]; · iexact H0
      unfold owns; iexists _; isplitr
      swap; · iexact H1
      ipureintro; exact View.read_writes_of_cover _ _ _ _ _ (cover1_C_1 c _ _ _ _ _ _ _ _ _ _ _ _ _ _)
    · have hc1 : ¬cond1_1 (grid1.coords t) := fun h => h1 ((hcond1_1 t).mp h)
      rw [Dat.leavesExact_idle (dat1 V c) 1 t (idleAt1_1 t hc1) (noFlush1_1 t hc1)]
      rw [outsAt1_B V c t hz h1 hc0 hc1]
      unfold sout1_B_0 sout1_B_1; (try dsimp only)
      rw [PhiS_castSucc V c t, PhiS_pos V c _ _ hz]
      iintro ⟨⟨HS0, HS1, Hrest, Hg⟩, Ho, ⟨%d0, H0⟩, ⟨%d1, H1⟩⟩
      iapply ((kernelRun1_B c (grid1.coords t) _ _ _ _ _ _ _ _ hc0 hc1 (iblk1 V c 0 t) _ _).2.2 _ Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hrest Hg]
      · isplitl [HS0]
        · unfold owns; iexists _; isplitr
          swap; · iexact HS0
          ipureintro; exact View.read_writes_of_cover _ _ _ _ _ (scover1_B_0 c _ _ _ _ _ _ _ _ _ _ _ _ _ _)
        isplitl [HS1]
        · unfold owns; iexists _; isplitr
          swap; · iexact HS1
          ipureintro; exact View.read_writes_of_cover _ _ _ _ _ (scover1_B_1 c _ _ _ _ _ _ _ _ _ _ _ _ _ _)
        isplitl [Hrest]; · iexact Hrest
        iexact Hg
      isplitl [Ho]; · iexact Ho
      isplitl [H0]; · iexact H0
      iexists _; iexact H1

theorem body_obligation1 (c : Dev nD) : BodyObligation (dat1 (F := F) V c) (defs₀ (F := F)) Variants.none () Set.univ := fun t => by
  rw [bigSep_W1, bigSep_W1]
  exact sound_body1 V c t

/-! ## The invariant's two ends -/

/-- From the generator register and the scoped buffers no window stages, the invariant before the first point. -/
theorem hin1 (c : Dev nD) : iprop((∃ r, prngReg c r) ∗ Pipeline.scopedRest (Ix := Unit) (Name := ℕ) (U := UR sig nD τ) (Lvl := ℕ) (Val := Elt F) spec1 c) ⊢ ((dat1 V c).Φ 0 : sProp 𝕄) := by
  rw [show (dat1 V c).Φ 0 = PhiS V c 0 (Nat.zero_le _) from rfl, PhiS_zero V c 0 _ rfl, scopedRest1_eq]
  unfold rest1 exb
  simp only [scM1_0, scM1_1, owns_whole]
  iintro ⟨Hg, ⟨B0, B1, B2, B3, B4, S0, S1, C0, C1, C2, C3, C4, C5, C6⟩⟩
  isplitl [S0]; · iexact S0
  isplitl [S1]; · iexact S1
  isplitr [Hg]
  · isplitl [B0]; · iexact B0
    isplitl [B1]; · iexact B1
    isplitl [B2]; · iexact B2
    isplitl [B3]; · iexact B3
    isplitl [B4]; · iexact B4
    isplitl [C0]; · iexact C0
    isplitl [C1]; · iexact C1
    isplitl [C2]; · iexact C2
    isplitl [C3]; · iexact C3
    isplitl [C4]; · iexact C4
    isplitl [C5]; · iexact C5
    iexact C6
  iexact Hg

/-- After the last point the invariant gives the generator register and those scoped buffers back: what the
    accumulators hold is forgotten. -/
theorem hout1 (c : Dev nD) : ((dat1 V c).Φ (Fin.last cfg1.N) : sProp 𝕄) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 10 := N_1; omega), scopedRest1_eq]
  unfold rest1 exb
  iintro ⟨S0, S1, ⟨B0, B1, B2, B3, B4, C0, C1, C2, C3, C4, C5, C6⟩, Hg⟩
  isplitl [Hg]; · iexact Hg
  isplitl [B0]; · iexact B0
  isplitl [B1]; · iexact B1
  isplitl [B2]; · iexact B2
  isplitl [B3]; · iexact B3
  isplitl [B4]; · iexact B4
  isplitl [S0]; · simp only [scM1_0, owns_whole]; iexists _; iexact S0
  isplitl [S1]; · simp only [scM1_1, owns_whole]; iexists _; iexact S1
  isplitl [C0]; · iexact C0
  isplitl [C1]; · iexact C1
  isplitl [C2]; · iexact C2
  isplitl [C3]; · iexact C3
  isplitl [C4]; · iexact C4
  isplitl [C5]; · iexact C5
  iexact C6

end Cert.KernelIdeal.Hand

end
-- ==== Proof.KI.Region2.lean ====
/-
  The third pallas_call (the fused normalisation, scale, shift and ReLU, ten row blocks of 5000 rows): what its body
  leaves in the output block's buffer as a function of the four input blocks (the rows, the 2 × 128 statistics, the
  scale row and the shift row), the body's triple, the pipeline's proof data at the contents `V` the region is
  entered from, and the body obligation at every grid point.
-/
import proofs.«181293_j22840636080817_1_alg».proof.Proof.Gen.KernelIdeal.Launch
import proofs.«181293_j22840636080817_1_alg».proof.Proof.Gen.KernelIdeal.Skeleton
import proofs.«181293_j22840636080817_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: the whole 5000 × 128 block, the two rows of the statistics, a whole row. -/
abbrev rB : Rect S5000x128 := Rect.unit (s := S5000x128) ![0, 0] S5000x128.size inb_S5000x128_S5000x128_0_0
abbrev rS0 : Rect S2x128 := Rect.unit (s := S2x128) ![0, 0] S1x128.size inb_S2x128_S1x128_0_0
abbrev rS1 : Rect S2x128 := Rect.unit (s := S2x128) ![1, 0] S1x128.size inb_S2x128_S1x128_1_0
abbrev rV : Rect S1x128 := Rect.unit (s := S1x128) ![0, 0] S1x128.size inb_S1x128_S1x128_0_0

/-- The output block's buffer after the body: one store of the whole block. -/
def out2_4 (x0 : Vec F S5000x128 .f32) (x1 : Vec F S2x128 .f32) (x2 : Vec F S1x128 .f32) (x3 : Vec F S1x128 .f32) : Vec F S5000x128 .f32 :=
  View.canon [⟨rB, k2_pay1 (View.ld x1 rS0) (View.ld x1 rS1) (View.ld x0 rB) (View.ld x2 rV) (View.ld x3 rV)⟩]

theorem cover2_4 (p0 : Vec F S5000x128 .f32) (y : S5000x128.Idx) :
    ∃ pc ∈ ([⟨rB, p0⟩] : List (View.Piece (Elt F) S5000x128 .f32)), y ∈ pc.1.set :=
  View.cover_of_tiled [⟨rB, p0⟩] S5000x128.size (by rfl) y

set_option maxHeartbeats 1000000 in
/-- The body on whole staging buffers: the inputs' at `x0 … x3`, the output's at anything; it returns with the inputs'
    as they were and the output's at `out2_4 x0 x1 x2 x3`. -/
theorem sound_kernel2 (c : Dev nD) (E : Set ℕ) (i : grid2.Coords) (arg1 : Memref sig .tc .vmem S5000x128 .f32) (harg1 : arg1.IsWhole)
    (arg2 : Memref sig .tc .vmem S2x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 : Vec F S2x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__bn_relu_kernel i arg1 harg1 arg2 harg2 arg3 harg3 arg4 harg4 arg5 harg5) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of the third pipeline on core `c`, entered from `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The whole program as a run: the buffer contents at each boundary between a pallas_call and a stretch of host
  operations, folded from the launch memory; the three pipelines' proof data at their regions' entry contents; each
  region and each host stretch as a segment over the thread state "every unscoped buffer at the boundary's contents,
  the generator register at some state, nothing owed"; and the run itself: every weakly fair execution of the program
  terminates, without a fault, with every unscoped buffer at the last boundary's contents. The arguments are read
  back through the fold to their launch contents.
-/
import proofs.«181293_j22840636080817_1_alg».proof.Proof.KI.Region0
import proofs.«181293_j22840636080817_1_alg».proof.Proof.KI.Region1
import proofs.«181293_j22840636080817_1_alg».proof.Proof.KI.Region2
import proofs.«181293_j22840636080817_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b

/-- At pallas_call 0's exit: its arrays at what the pipeline leaves (each output's write-backs folded), every other
    buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the first stretch of host operations (the edge gather and scatter-add). -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b

/-- At pallas_call 1's exit: its arrays at what the pipeline leaves (each output's write-backs folded), every other
    buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After the second stretch of host operations (the scale and the shift recast as rows). -/
abbrev W4 : Dev nD → Valuation τ sig (Elt F) := fun c => StableHlo.after hostOps2 (W3 m ρ c)
abbrev U4 : (c : Dev nD) → (b : Ref sig .tc) → Buf (Elt F) ((c : Thread nD τ).loc b) := fun c b => W4 m ρ c b

/-- At pallas_call 2's exit: its arrays at what the pipeline leaves (each output's write-backs folded), every other
    buffer as entered. -/
def W5 (c : Dev nD) : Valuation τ sig (Elt F) :=
  Pipeline.withArrays spec2 c (W4 m ρ c) fun w => (dat2 (U4 m ρ) c).arrAt w cfg2.N
theorem W5_arr (c : Dev nD) (w : Fin cfg2.W) :
    W5 m ρ c (Proc.devRef .tc (Pipeline.arrRef spec2 w)) = (dat2 (U4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev U5 : (c : Dev nD) → (b : Ref sig .tc) → Buf (Elt F) ((c : Thread nD τ).loc b) := fun c b => W5 m ρ c b
theorem hF2 (c : Dev nD) (w : Fin cfg2.W) : (dat2 (U4 m ρ) c).arrAt w cfg2.N = U5 m ρ c (Pipeline.arrRef spec2 w) :=
  (W5_arr m ρ c w).symm
theorem hrest2 (c : Dev nD) : ∀ b, b ∉ Finset.univ.image (Pipeline.arrRef spec2) → U5 m ρ c b = U4 m ρ c b :=
  fun b hb => W5_of_ne m ρ c b fun w e => hb (Finset.mem_image.mpr ⟨w, Finset.mem_univ _, e⟩)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (U0 m ρ) c).arrAt_in 1 rfl _).trans (A_eq0 (U0 m ρ) c 1))
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := W1_of_ne m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

/-! ## The proof data family and the thread state -/

abbrev admH : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) admH p) c
  | ⟨0, _⟩ => fun c => dat0 (U0 m ρ) c
  | ⟨1, _⟩ => fun c => dat1 (U2 m ρ) c
  | ⟨2, _⟩ => fun c => dat2 (U4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The pallas_call number 0 over the thread state: entered from every unscoped buffer at `W0`, left at `W1`; its
    arrays split out of the unscoped buffers and put back at the exit contents; the generator register into the
    region invariant and out; nothing owed; no semaphore of the kernel's own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 1 over the thread state: entered from every unscoped buffer at `W2`, left at `W3`; its
    arrays split out of the unscoped buffers and put back at the exit contents; the generator register into the
    region invariant and out; nothing owed; no semaphore of the kernel's own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (U2 m ρ) c).Φ 0 from rfl]
    have h := hin1 (U2 m ρ) c
    iintro ⟨Hp, -, Hr⟩
    iapply h
    isplitl [Hp]; · iexact Hp
    iexact Hr
  hout c := by
    rw [Pipeline.ownSems0_none, show (pdats m ρ 1 c).Φ (Fin.last _) = (dat1 (U2 m ρ) c).Φ (Fin.last cfg1.N) from rfl]
    have h := hout1 (U2 m ρ) c
    iintro H0
    ihave H' := h $$ H0
    icases H' with ⟨Hp, Hr⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call number 2 over the thread state: entered from every unscoped buffer at `W4`, left at `W5`; its
    arrays split out of the unscoped buffers and put back at the exit contents; the generator register into the
    region invariant and out; nothing owed; no semaphore of the kernel's own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (U4 m ρ c) (U5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) admH (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and every final state holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c)⟩) (run_all m ρ)

end Cert.KernelIdeal.Hand

end
-- ==== Proof.R.Spec.lean ====
import proofs.«181293_j22840636080817_1_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference's result as a composition of three named layers: the dense product `h = x · W`; the
    normalized neighbourhood aggregation `agg` (degree count by a scatter-add of ones over the target column with
    the self-loops appended, `deg^(-1/2)` gathered at both ends of every edge, the messages `h[row] · norm`
    scatter-added at the targets, the bias added to every row); and the batch normalization over the node axis
    followed by the rectifier. Each layer is the operations' composition in program order. -/

/-- `h = x · W`: the contraction of `x`'s second axis with `W`'s first. -/
def dotT (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

/-- The aggregation layer as a function of `h`, the bias and the edge index: the composition, in program order, of the
    operations from the node iota to the bias addition. -/
def aggT (h : (⟨S50000x128, .f32⟩ : BufTy).Contents (Elt F)) (bias : (⟨S128, .f32⟩ : BufTy).Contents (Elt F)) (ei : (⟨S2x800000, .i32⟩ : BufTy).Contents (Elt F)) : (⟨S50000x128, .f32⟩ : BufTy).Contents (Elt F) :=
  let v1 : (⟨S50000, .i32⟩ : BufTy).Contents (Elt F) := (iotaInDim S50000 32 0)
  let v2 : (⟨S1x800000, .i32⟩ : BufTy).Contents (Elt F) := ((extractStridedSlice S1x800000 ![0, 0] · slices_S2x800000_S1x800000_0_0) : (⟨S2x800000, .i32⟩ : BufTy).Contents (Elt F) → (⟨S1x800000, .i32⟩ : BufTy).Contents (Elt F)) ei
  let v3 : (⟨S800000, .i32⟩ : BufTy).Contents (Elt F) := shapeCast S800000 v2 shapeCasts_S1x800000_S800000
  let v4 : (⟨S850000, .i32⟩ : BufTy).Contents (Elt F) := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) v3 v1
  let v5 : (⟨S1x800000, .i32⟩ : BufTy).Contents (Elt F) := ((extractStridedSlice S1x800000 ![1, 0] · slices_S2x800000_S1x800000_1_0) : (⟨S2x800000, .i32⟩ : BufTy).Contents (Elt F) → (⟨S1x800000, .i32⟩ : BufTy).Contents (Elt F)) ei
  let v6 : (⟨S800000, .i32⟩ : BufTy).Contents (Elt F) := shapeCast S800000 v5 shapeCasts_S1x800000_S800000
  let v7 : (⟨S850000, .i32⟩ : BufTy).Contents (Elt F) := ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) v6 v1
  let cst : (⟨S_, .f32⟩ : BufTy).Contents (Elt F) := (constant S_ .f32 0x00000000#32)
  let v8 : (⟨S50000, .f32⟩ : BufTy).Contents (Elt F) := (broadcastInDim S50000 ![] bcast_S_S50000 : (⟨S_, .f32⟩ : BufTy).Contents (Elt F) → (⟨S50000, .f32⟩ : BufTy).Contents (Elt F)) cst
  let c : (⟨S_, .i32⟩ : BufTy).Contents (Elt F) := (constantI S_ 32 0#32)
  let v9 : (⟨S850000, .i32⟩ : BufTy).Contents (Elt F) := (broadcastInDim S850000 ![] bcast_S_S850000 : (⟨S_, .i32⟩ : BufTy).Contents (Elt F) → (⟨S850000, .i32⟩ : BufTy).Contents (Elt F)) c
  let v10 : (⟨S850000, .i1⟩ : BufTy).Contents (Elt F) := (cmpi .slt : (⟨S850000, .i32⟩ : BufTy).Contents (Elt F) → (⟨S850000, .i32⟩ : BufTy).Contents (Elt F) → (⟨S850000, .i1⟩ : BufTy).Contents (Elt F)) v7 v9
  let c_0 : (⟨S_, .i32⟩ : BufTy).Contents (Elt F) := (constantI S_ 32 50000#32)
  let v11 : (⟨S850000, .i32⟩ : BufTy).Contents (Elt F) := (broadcastInDim S850000 ![] bcast_S_S850000 : (⟨S_, .i32⟩ : BufTy).Contents (Elt F) → (⟨S850000, .i32⟩ : BufTy).Contents (Elt F)) c_0
  let v12 : (⟨S850000, .i32⟩ : BufTy).Contents (Elt F) := (addi : (⟨S850000, .i32⟩ : BufTy).Contents (Elt F) → (⟨S850000, .i32⟩ : BufTy).Contents (Elt F) → (⟨S850000, .i32⟩ : BufTy).Contents (Elt F)) v7 v11
  let v13 : (⟨S850000, .i32⟩ : BufTy).Contents (Elt F) := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) v10 v12 v7
  let v14 : (⟨S850000x1, .i32⟩ : BufTy).Contents (Elt F) := (broadcastInDim S850000x1 ![0] bcast_S850000_S850000x1_0 : (⟨S850000, .i32⟩ : BufTy).Contents (Elt F) → (⟨S850000x1, .i32⟩ : BufTy).Contents (Elt F)) v13
  let cst_1 : (⟨S_, .f32⟩ : BufTy).Contents (Elt F) := (constant S_ .f32 0x3F800000#32)
  let v15 : (⟨S850000, .f32⟩ : BufTy).Contents (Elt F) := (broadcastInDim S850000 ![] bcast_S_S850000 : (⟨S_, .f32⟩ : BufTy).Contents (Elt F) → (⟨S850000, .f32⟩ : BufTy).Contents (Elt F)) cst_1
  let v16 : (⟨S50000, .f32⟩ : BufTy).Contents (Elt F) := ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) v8 v14 v15
  let v17 : (⟨S50000, .f32⟩ : BufTy).Contents (Elt F) := (Host.rsqrt : (⟨S50000, .f32⟩ : BufTy).Contents (Elt F) → (⟨S50000, .f32⟩ : BufTy).Contents (Elt F)) v16
  let c_2 : (⟨S_, .i32⟩ : BufTy).Contents (Elt F) := (constantI S_ 32 0#32)
  let v18 : (⟨S850000, .i32⟩ : BufTy).Contents (Elt F) := (broadcastInDim S850000 ![] bcast_S_S850000 : (⟨S_, .i32⟩ : BufTy).Contents (Elt F) → (⟨S850000, .i32⟩ : BufTy).Contents (Elt F)) c_2
  let v19 : (⟨S850000, .i1⟩ : BufTy).Contents (Elt F) := (cmpi .slt : (⟨S850000, .i32⟩ : BufTy).Contents (Elt F) → (⟨S850000, .i32⟩ : BufTy).Contents (Elt F) → (⟨S850000, .i1⟩ : BufTy).Contents (Elt F)) v4 v18
  let c_3 : (⟨S_, .i32⟩ : BufTy).Contents (Elt F) := (constantI S_ 32 50000#32)
  let v20 : (⟨S850000, .i32⟩ : BufTy).Contents (Elt F) := (broadcastInDim S850000 ![] bcast_S_S850000 : (⟨S_, .i32⟩ : BufTy).Contents (Elt F) → (⟨S850000, .i32⟩ : BufTy).Contents (Elt F)) c_3
  let v21 : (⟨S850000, .i32⟩ : BufTy).Contents (Elt F) := (addi : (⟨S850000, .i32⟩ : BufTy).Contents (Elt F) → (⟨S850000, .i32⟩ : BufTy).Contents (Elt F) → (⟨S850000, .i32⟩ : BufTy).Contents (Elt F)) v4 v20
  let v22 : (⟨S850000, .i32⟩ : BufTy).Contents (Elt F) := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) v19 v21 v4
  let v23 : (⟨S850000x1, .i32⟩ : BufTy).Contents (Elt F) := (broadcastInDim S850000x1 ![0] bcast_S850000_S850000x1_0 : (⟨S850000, .i32⟩ : BufTy).Contents (Elt F) → (⟨S850000x1, .i32⟩ : BufTy).Contents (Elt F)) v22
  let v24 : (⟨S850000, .f32⟩ : BufTy).Contents (Elt F) := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) v17 v23
  let c_4 : (⟨S_, .i32⟩ : BufTy).Contents (Elt F) := (constantI S_ 32 0#32)
  let v25 : (⟨S850000, .i32⟩ : BufTy).Contents (Elt F) := (broadcastInDim S850000 ![] bcast_S_S850000 : (⟨S_, .i32⟩ : BufTy).Contents (Elt F) → (⟨S850000, .i32⟩ : BufTy).Contents (Elt F)) c_4
  let v26 : (⟨S850000, .i1⟩ : BufTy).Contents (Elt F) := (cmpi .slt : (⟨S850000, .i32⟩ : BufTy).Contents (Elt F) → (⟨S850000, .i32⟩ : BufTy).Contents (Elt F) → (⟨S850000, .i1⟩ : BufTy).Contents (Elt F)) v7 v25
  let c_5 : (⟨S_, .i32⟩ : BufTy).Contents (Elt F) := (constantI S_ 32 50000#32)
  let v27 : (⟨S850000, .i32⟩ : BufTy).Contents (Elt F) := (broadcastInDim S850000 ![] bcast_S_S850000 : (⟨S_, .i32⟩ : BufTy).Contents (Elt F) → (⟨S850000, .i32⟩ : BufTy).Contents (Elt F)) c_5
  let v28 : (⟨S850000, .i32⟩ : BufTy).Contents (Elt F) := (addi : (⟨S850000, .i32⟩ : BufTy).Contents (Elt F) → (⟨S850000, .i32⟩ : BufTy).Contents (Elt F) → (⟨S850000, .i32⟩ : BufTy).Contents (Elt F)) v7 v27
  let v29 : (⟨S850000, .i32⟩ : BufTy).Contents (Elt F) := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) v26 v28 v7
  let v30 : (⟨S850000x1, .i32⟩ : BufTy).Contents (Elt F) := (broadcastInDim S850000x1 ![0] bcast_S850000_S850000x1_0 : (⟨S850000, .i32⟩ : BufTy).Contents (Elt F) → (⟨S850000x1, .i32⟩ : BufTy).Contents (Elt F)) v29
  let v31 : (⟨S850000, .f32⟩ : BufTy).Contents (Elt F) := ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) v17 v30
  let v32 : (⟨S850000, .f32⟩ : BufTy).Contents (Elt F) := (mulf : (⟨S850000, .f32⟩ : BufTy).Contents (Elt F) → (⟨S850000, .f32⟩ : BufTy).Contents (Elt F) → (⟨S850000, .f32⟩ : BufTy).Contents (Elt F)) v24 v31
  let c_6 : (⟨S_, .i32⟩ : BufTy).Contents (Elt F) := (constantI S_ 32 0#32)
  let v33 : (⟨S850000, .i32⟩ : BufTy).Contents (Elt F) := (broadcastInDim S850000 ![] bcast_S_S850000 : (⟨S_, .i32⟩ : BufTy).Contents (Elt F) → (⟨S850000, .i32⟩ : BufTy).Contents (Elt F)) c_6
  let v34 : (⟨S850000, .i1⟩ : BufTy).Contents (Elt F) := (cmpi .slt : (⟨S850000, .i32⟩ : BufTy).Contents (Elt F) → (⟨S850000, .i32⟩ : BufTy).Contents (Elt F) → (⟨S850000, .i1⟩ : BufTy).Contents (Elt F)) v4 v33
  let c_7 : (⟨S_, .i32⟩ : BufTy).Contents (Elt F) := (constantI S_ 32 50000#32)
  let v35 : (⟨S850000, .i32⟩ : BufTy).Contents (Elt F) := (broadcastInDim S850000 ![] bcast_S_S850000 : (⟨S_, .i32⟩ : BufTy).Contents (Elt F) → (⟨S850000, .i32⟩ : BufTy).Contents (Elt F)) c_7
  let v36 : (⟨S850000, .i32⟩ : BufTy).Contents (Elt F) := (addi : (⟨S850000, .i32⟩ : BufTy).Contents (Elt F) → (⟨S850000, .i32⟩ : BufTy).Contents (Elt F) → (⟨S850000, .i32⟩ : BufTy).Contents (Elt F)) v4 v35
  let v37 : (⟨S850000, .i32⟩ : BufTy).Contents (Elt F) := (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) v34 v36 v4
  let v38 : (⟨S850000x1, .i32⟩ : BufTy).Contents (Elt F) := (broadcastInDim S850000x1 ![0] bcast_S850000_S850000x1_0 : (⟨S850000, .i32⟩ : BufTy).Contents (Elt F) → (⟨S850000x1, .i32⟩ : BufTy).Contents (Elt F)) v37
  let v39 : (⟨S850000x128, .f32⟩ : BufTy).Contents (Elt F) := ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) h v38
  let v40 : (⟨S850000x1, .f32⟩ : BufTy).Contents (Elt F) := (broadcastInDim S850000x1 ![0] bcast_S850000_S850000x1_0 : (⟨S850000, .f32⟩ : BufTy).Contents (Elt F) → (⟨S850000x1, .f32⟩ : BufTy).Contents (Elt F)) v32
  let v41 : (⟨S850000x128, .f32⟩ : BufTy).Contents (Elt F) := (broadcastInDim S850000x128 ![0, 1] bcast_S850000x1_S850000x128_0_1 : (⟨S850000x1, .f32⟩ : BufTy).Contents (Elt F) → (⟨S850000x128, .f32⟩ : BufTy).Contents (Elt F)) v40
  let v42 : (⟨S850000x128, .f32⟩ : BufTy).Contents (Elt F) := (mulf : (⟨S850000x128, .f32⟩ : BufTy).Contents (Elt F) → (⟨S850000x128, .f32⟩ : BufTy).Contents (Elt F) → (⟨S850000x128, .f32⟩ : BufTy).Contents (Elt F)) v39 v41
  let cst_8 : (⟨S_, .f32⟩ : BufTy).Contents (Elt F) := (constant S_ .f32 0x00000000#32)
  let v43 : (⟨S50000x128, .f32⟩ : BufTy).Contents (Elt F) := (broadcastInDim S50000x128 ![] bcast_S_S50000x128 : (⟨S_, .f32⟩ : BufTy).Contents (Elt F) → (⟨S50000x128, .f32⟩ : BufTy).Contents (Elt F)) cst_8
  let v44 : (⟨S850000x1, .i32⟩ : BufTy).Contents (Elt F) := (broadcastInDim S850000x1 ![0] bcast_S850000_S850000x1_0 : (⟨S850000, .i32⟩ : BufTy).Contents (Elt F) → (⟨S850000x1, .i32⟩ : BufTy).Contents (Elt F)) v7
  let v45 : (⟨S50000x128, .f32⟩ : BufTy).Contents (Elt F) := ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) v43 v44 v42
  let v46 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) bias
  let v47 : (⟨S50000x128, .f32⟩ : BufTy).Contents (Elt F) := (broadcastInDim S50000x128 ![0, 1] bcast_S1x128_S50000x128_0_1 : (⟨S1x128, .f32⟩ : BufTy).Contents (Elt F) → (⟨S50000x128, .f32⟩ : BufTy).Contents (Elt F)) v46
  let v48 : (⟨S50000x128, .f32⟩ : BufTy).Contents (Elt F) := (addf : (⟨S50000x128, .f32⟩ : BufTy).Contents (Elt F) → (⟨S50000x128, .f32⟩ : BufTy).Contents (Elt F) → (⟨S50000x128, .f32⟩ : BufTy).Contents (Elt F)) v45 v47
  v48

/-- The normalization layer as a function of the aggregate, the scale and the shift: column means, column variances (the
    mean of the squared deviations, selected against the not-a-number word when the divisor `50000 - 0` is not positive),
    `(agg - mean) · rsqrt(var + ε) · gamma + beta`, and the maximum with zero. -/
def tailT (agg : (⟨S50000x128, .f32⟩ : BufTy).Contents (Elt F)) (gamma : (⟨S128, .f32⟩ : BufTy).Contents (Elt F)) (beta : (⟨S128, .f32⟩ : BufTy).Contents (Elt F)) : (⟨S50000x128, .f32⟩ : BufTy).Contents (Elt F) :=
  let cst_9 : (⟨S_, .f32⟩ : BufTy).Contents (Elt F) := (constant S_ .f32 0x00000000#32)
  let v49 : (⟨S128, .f32⟩ : BufTy).Contents (Elt F) := ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) agg cst_9
  let cst_10 : (⟨S_, .f32⟩ : BufTy).Contents (Elt F) := (constant S_ .f32 0x47435000#32)
  let v50 : (⟨S128, .f32⟩ : BufTy).Contents (Elt F) := (broadcastInDim S128 ![] bcast_S_S128 : (⟨S_, .f32⟩ : BufTy).Contents (Elt F) → (⟨S128, .f32⟩ : BufTy).Contents (Elt F)) cst_10
  let v51 : (⟨S128, .f32⟩ : BufTy).Contents (Elt F) := (Host.divf : (⟨S128, .f32⟩ : BufTy).Contents (Elt F) → (⟨S128, .f32⟩ : BufTy).Contents (Elt F) → (⟨S128, .f32⟩ : BufTy).Contents (Elt F)) v49 v50
  let c_11 : (⟨S_, .i32⟩ : BufTy).Contents (Elt F) := (constantI S_ 32 0#32)
  let call0_cst : (⟨S_, .f32⟩ : BufTy).Contents (Elt F) := (constant S_ .f32 0x00000000#32)
  let call0_v0 : (⟨S128, .f32⟩ : BufTy).Contents (Elt F) := ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) agg call0_cst
  let call0_v1 : (⟨S1x128, .f32⟩ : BufTy).Contents (Elt F) := ((broadcastInDim S1x128 ![1] bcast_S128_S1x128_1) : (⟨S128, .f32⟩ : BufTy).Contents (Elt F) → (⟨S1x128, .f32⟩ : BufTy).Contents (Elt F)) call0_v0
  let call0_cst_0 : (⟨S_, .f32⟩ : BufTy).Contents (Elt F) := (constant S_ .f32 0x47435000#32)
  let call0_v2 : (⟨S1x128, .f32⟩ : BufTy).Contents (Elt F) := ((broadcastInDim S1x128 ![] bcast_S_S1x128) : (⟨S_, .f32⟩ : BufTy).Contents (Elt F) → (⟨S1x128, .f32⟩ : BufTy).Contents (Elt F)) call0_cst_0
  let call0_v3 : (⟨S1x128, .f32⟩ : BufTy).Contents (Elt F) := (Host.divf : (⟨S1x128, .f32⟩ : BufTy).Contents (Elt F) → (⟨S1x128, .f32⟩ : BufTy).Contents (Elt F) → (⟨S1x128, .f32⟩ : BufTy).Contents (Elt F)) call0_v1 call0_v2
  let call0_v4 : (⟨S50000x128, .f32⟩ : BufTy).Contents (Elt F) := ((broadcastInDim S50000x128 ![0, 1] bcast_S1x128_S50000x128_0_1) : (⟨S1x128, .f32⟩ : BufTy).Contents (Elt F) → (⟨S50000x128, .f32⟩ : BufTy).Contents (Elt F)) call0_v3
  let call0_v5 : (⟨S50000x128, .f32⟩ : BufTy).Contents (Elt F) := (subf : (⟨S50000x128, .f32⟩ : BufTy).Contents (Elt F) → (⟨S50000x128, .f32⟩ : BufTy).Contents (Elt F) → (⟨S50000x128, .f32⟩ : BufTy).Contents (Elt F)) agg call0_v4
  let call0_v6 : (⟨S50000x128, .f32⟩ : BufTy).Contents (Elt F) := (mulf : (⟨S50000x128, .f32⟩ : BufTy).Contents (Elt F) → (⟨S50000x128, .f32⟩ : BufTy).Contents (Elt F) → (⟨S50000x128, .f32⟩ : BufTy).Contents (Elt F)) call0_v5 call0_v5
  let call0_v7 : (⟨S_, .f32⟩ : BufTy).Contents (Elt F) := ((sitofp .f32) : (⟨S_, .i32⟩ : BufTy).Contents (Elt F) → (⟨S_, .f32⟩ : BufTy).Contents (Elt F)) c_11
  let call0_cst_1 : (⟨S_, .f32⟩ : BufTy).Contents (Elt F) := (constant S_ .f32 0x47435000#32)
  let call0_v8 : (⟨S_, .f32⟩ : BufTy).Contents (Elt F) := (subf : (⟨S_, .f32⟩ : BufTy).Contents (Elt F) → (⟨S_, .f32⟩ : BufTy).Contents (Elt F) → (⟨S_, .f32⟩ : BufTy).Contents (Elt F)) call0_cst_1 call0_v7
  let call0_cst_2 : (⟨S_, .f32⟩ : BufTy).Contents (Elt F) := (constant S_ .f32 0x00000000#32)
  let call0_v9 : (⟨S128, .f32⟩ : BufTy).Contents (Elt F) := ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) call0_v6 call0_cst_2
  let call0_v10 : (⟨S128, .f32⟩ : BufTy).Contents (Elt F) := ((broadcastInDim S128 ![] bcast_S_S128) : (⟨S_, .f32⟩ : BufTy).Contents (Elt F) → (⟨S128, .f32⟩ : BufTy).Contents (Elt F)) call0_v8
  let call0_v11 : (⟨S128, .f32⟩ : BufTy).Contents (Elt F) := (Host.divf : (⟨S128, .f32⟩ : BufTy).Contents (Elt F) → (⟨S128, .f32⟩ : BufTy).Contents (Elt F) → (⟨S128, .f32⟩ : BufTy).Contents (Elt F)) call0_v9 call0_v10
  let call0_cst_3 : (⟨S_, .f32⟩ : BufTy).Contents (Elt F) := (constant S_ .f32 0x00000000#32)
  let call0_v12 : (⟨S_, .i1⟩ : BufTy).Contents (Elt F) := ((cmpf .ogt) : (⟨S_, .f32⟩ : BufTy).Contents (Elt F) → (⟨S_, .f32⟩ : BufTy).Contents (Elt F) → (⟨S_, .i1⟩ : BufTy).Contents (Elt F)) call0_v8 call0_cst_3
  let call0_cst_4 : (⟨S_, .f32⟩ : BufTy).Contents (Elt F) := (constant S_ .f32 0x7FC00000#32)
  let call0_call0_v0 : (⟨S_, .f32⟩ : BufTy).Contents (Elt F) := (id : (⟨S_, .f32⟩ : BufTy).Contents (Elt F) → (⟨S_, .f32⟩ : BufTy).Contents (Elt F)) call0_cst_4
  let call0_call0_v1 : (⟨S128, .f32⟩ : BufTy).Contents (Elt F) := ((broadcastInDim S128 ![] bcast_S_S128) : (⟨S_, .f32⟩ : BufTy).Contents (Elt F) → (⟨S128, .f32⟩ : BufTy).Contents (Elt F)) call0_call0_v0
  let v52 : (⟨S128, .f32⟩ : BufTy).Contents (Elt F) := ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) call0_v12 call0_v11 call0_call0_v1
  let v53 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) v51
  let v54 : (⟨S50000x128, .f32⟩ : BufTy).Contents (Elt F) := (broadcastInDim S50000x128 ![0, 1] bcast_S1x128_S50000x128_0_1 : (⟨S1x128, .f32⟩ : BufTy).Contents (Elt F) → (⟨S50000x128, .f32⟩ : BufTy).Contents (Elt F)) v53
  let v55 : (⟨S50000x128, .f32⟩ : BufTy).Contents (Elt F) := (subf : (⟨S50000x128, .f32⟩ : BufTy).Contents (Elt F) → (⟨S50000x128, .f32⟩ : BufTy).Contents (Elt F) → (⟨S50000x128, .f32⟩ : BufTy).Contents (Elt F)) agg v54
  let cst_12 : (⟨S_, .f32⟩ : BufTy).Contents (Elt F) := (constant S_ .f32 0x3727C5AC#32)
  let v56 : (⟨S128, .f32⟩ : BufTy).Contents (Elt F) := (broadcastInDim S128 ![] bcast_S_S128 : (⟨S_, .f32⟩ : BufTy).Contents (Elt F) → (⟨S128, .f32⟩ : BufTy).Contents (Elt F)) cst_12
  let v57 : (⟨S128, .f32⟩ : BufTy).Contents (Elt F) := (addf : (⟨S128, .f32⟩ : BufTy).Contents (Elt F) → (⟨S128, .f32⟩ : BufTy).Contents (Elt F) → (⟨S128, .f32⟩ : BufTy).Contents (Elt F)) v52 v56
  let v58 : (⟨S128, .f32⟩ : BufTy).Contents (Elt F) := (Host.rsqrt : (⟨S128, .f32⟩ : BufTy).Contents (Elt F) → (⟨S128, .f32⟩ : BufTy).Contents (Elt F)) v57
  let v59 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) v58
  let v60 : (⟨S50000x128, .f32⟩ : BufTy).Contents (Elt F) := (broadcastInDim S50000x128 ![0, 1] bcast_S1x128_S50000x128_0_1 : (⟨S1x128, .f32⟩ : BufTy).Contents (Elt F) → (⟨S50000x128, .f32⟩ : BufTy).Contents (Elt F)) v59
  let v61 : (⟨S50000x128, .f32⟩ : BufTy).Contents (Elt F) := (mulf : (⟨S50000x128, .f32⟩ : BufTy).Contents (Elt F) → (⟨S50000x128, .f32⟩ : BufTy).Contents (Elt F) → (⟨S50000x128, .f32⟩ : BufTy).Contents (Elt F)) v55 v60
  let v62 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) gamma
  let v63 : (⟨S50000x128, .f32⟩ : BufTy).Contents (Elt F) := (broadcastInDim S50000x128 ![0, 1] bcast_S1x128_S50000x128_0_1 : (⟨S1x128, .f32⟩ : BufTy).Contents (Elt F) → (⟨S50000x128, .f32⟩ : BufTy).Contents (Elt F)) v62
  let v64 : (⟨S50000x128, .f32⟩ : BufTy).Contents (Elt F) := (mulf : (⟨S50000x128, .f32⟩ : BufTy).Contents (Elt F) → (⟨S50000x128, .f32⟩ : BufTy).Contents (Elt F) → (⟨S50000x128, .f32⟩ : BufTy).Contents (Elt F)) v61 v63
  let v65 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) beta
  let v66 : (⟨S50000x128, .f32⟩ : BufTy).Contents (Elt F) := (broadcastInDim S50000x128 ![0, 1] bcast_S1x128_S50000x128_0_1 : (⟨S1x128, .f32⟩ : BufTy).Contents (Elt F) → (⟨S50000x128, .f32⟩ : BufTy).Contents (Elt F)) v65
  let v67 : (⟨S50000x128, .f32⟩ : BufTy).Contents (Elt F) := (addf : (⟨S50000x128, .f32⟩ : BufTy).Contents (Elt F) → (⟨S50000x128, .f32⟩ : BufTy).Contents (Elt F) → (⟨S50000x128, .f32⟩ : BufTy).Contents (Elt F)) v64 v66
  let call1_cst : (⟨S_, .f32⟩ : BufTy).Contents (Elt F) := (constant S_ .f32 0x00000000#32)
  let call1_v0 : (⟨S50000x128, .f32⟩ : BufTy).Contents (Elt F) := ((broadcastInDim S50000x128 ![] bcast_S_S50000x128) : (⟨S_, .f32⟩ : BufTy).Contents (Elt F) → (⟨S50000x128, .f32⟩ : BufTy).Contents (Elt F)) call1_cst
  let v68 : (⟨S50000x128, .f32⟩ : BufTy).Contents (Elt F) := (maximumf : (⟨S50000x128, .f32⟩ : BufTy).Contents (Elt F) → (⟨S50000x128, .f32⟩ : BufTy).Contents (Elt F) → (⟨S50000x128, .f32⟩ : BufTy).Contents (Elt F)) v67 call1_v0
  v68

/-- The reference's result as a function of its six arguments. -/
def resT (x : (⟨S50000x128, .f32⟩ : BufTy).Contents (Elt F)) (w : (⟨S128x128, .f32⟩ : BufTy).Contents (Elt F)) (bias : (⟨S128, .f32⟩ : BufTy).Contents (Elt F)) (gamma : (⟨S128, .f32⟩ : BufTy).Contents (Elt F))
    (beta : (⟨S128, .f32⟩ : BufTy).Contents (Elt F)) (ei : (⟨S2x800000, .i32⟩ : BufTy).Contents (Elt F)) : (⟨S50000x128, .f32⟩ : BufTy).Contents (Elt F) :=
  tailT (aggT (dotT x w) bias ei) gamma beta

end Cert.ReferenceIdeal.RefRun

end
-- ==== Proof.R.Ops.lean ====
import proofs.«181293_j22840636080817_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference program as a straight line of host operations: the dense product, the aggregation's operations, and the
    normalization's with the three outlined functions (the variance, its select, the rectifier) written out at their calls
    over the calls' own buffers. -/

/-- The dense product. -/
abbrev opsA : List (HloOp τ sig (Elt F)) :=
  [ StableHlo.binary main_arg0 main_arg1 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The aggregation's 59 operations, in order. -/
abbrev opsB : List (HloOp τ sig (Elt F)) :=
  [ StableHlo.nullary main_v1 (iotaInDim S50000 32 0),
    StableHlo.unary main_arg5 main_v2 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v2 main_v3 rfl shapeCasts_S1x800000_S800000,
    StableHlo.binary main_v3 main_v1 main_v4 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg5 main_v5 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v5 main_v6 rfl shapeCasts_S1x800000_S800000,
    StableHlo.binary main_v6 main_v1 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x00000000#32),
    StableHlo.unary main_cst main_v8 (broadcastInDim S50000 ![] bcast_S_S50000 : (⟨S_, .f32⟩ : BufTy).Contents (Elt F) → (⟨S50000, .f32⟩ : BufTy).Contents (Elt F)),
    StableHlo.nullary main_c (constantI S_ 32 0#32),
    StableHlo.unary main_c main_v9 (broadcastInDim S850000 ![] bcast_S_S850000 : (⟨S_, .i32⟩ : BufTy).Contents (Elt F) → (⟨S850000, .i32⟩ : BufTy).Contents (Elt F)),
    StableHlo.binary main_v7 main_v9 main_v10 (cmpi .slt : (⟨S850000, .i32⟩ : BufTy).Contents (Elt F) → (⟨S850000, .i32⟩ : BufTy).Contents (Elt F) → (⟨S850000, .i1⟩ : BufTy).Contents (Elt F)),
    StableHlo.nullary main_c_0 (constantI S_ 32 50000#32),
    StableHlo.unary main_c_0 main_v11 (broadcastInDim S850000 ![] bcast_S_S850000 : (⟨S_, .i32⟩ : BufTy).Contents (Elt F) → (⟨S850000, .i32⟩ : BufTy).Contents (Elt F)),
    StableHlo.binary main_v7 main_v11 main_v12 (addi : (⟨S850000, .i32⟩ : BufTy).Contents (Elt F) → (⟨S850000, .i32⟩ : BufTy).Contents (Elt F) → (⟨S850000, .i32⟩ : BufTy).Contents (Elt F)),
    StableHlo.ternary main_v10 main_v12 main_v7 main_v13 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v13 main_v14 (broadcastInDim S850000x1 ![0] bcast_S850000_S850000x1_0 : (⟨S850000, .i32⟩ : BufTy).Contents (Elt F) → (⟨S850000x1, .i32⟩ : BufTy).Contents (Elt F)),
    StableHlo.nullary main_cst_1 (constant S_ .f32 0x3F800000#32),
    StableHlo.unary main_cst_1 main_v15 (broadcastInDim S850000 ![] bcast_S_S850000 : (⟨S_, .f32⟩ : BufTy).Contents (Elt F) → (⟨S850000, .f32⟩ : BufTy).Contents (Elt F)),
    StableHlo.ternary main_v8 main_v14 main_v15 main_v16 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.unary main_v16 main_v17 (Host.rsqrt : (⟨S50000, .f32⟩ : BufTy).Contents (Elt F) → (⟨S50000, .f32⟩ : BufTy).Contents (Elt F)),
    StableHlo.nullary main_c_2 (constantI S_ 32 0#32),
    StableHlo.unary main_c_2 main_v18 (broadcastInDim S850000 ![] bcast_S_S850000 : (⟨S_, .i32⟩ : BufTy).Contents (Elt F) → (⟨S850000, .i32⟩ : BufTy).Contents (Elt F)),
    StableHlo.binary main_v4 main_v18 main_v19 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v20 (broadcastInDim S850000 ![] bcast_S_S850000 : (⟨S_, .i32⟩ : BufTy).Contents (Elt F) → (⟨S850000, .i32⟩ : BufTy).Contents (Elt F)),
    StableHlo.binary main_v4 main_v20 main_v21 (addi : (⟨S850000, .i32⟩ : BufTy).Contents (Elt F) → (⟨S850000, .i32⟩ : BufTy).Contents (Elt F) → (⟨S850000, .i32⟩ : BufTy).Contents (Elt F)),
    StableHlo.ternary main_v19 main_v21 main_v4 main_v22 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v22 main_v23 (broadcastInDim S850000x1 ![0] bcast_S850000_S850000x1_0 : (⟨S850000, .i32⟩ : BufTy).Contents (Elt F) → (⟨S850000x1, .i32⟩ : BufTy).Contents (Elt F)),
    StableHlo.binary main_v17 main_v23 main_v24 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v25 (broadcastInDim S850000 ![] bcast_S_S850000 : (⟨S_, .i32⟩ : BufTy).Contents (Elt F) → (⟨S850000, .i32⟩ : BufTy).Contents (Elt F)),
    StableHlo.binary main_v7 main_v25 main_v26 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v27 (broadcastInDim S850000 ![] bcast_S_S850000 : (⟨S_, .i32⟩ : BufTy).Contents (Elt F) → (⟨S850000, .i32⟩ : BufTy).Contents (Elt F)),
    StableHlo.binary main_v7 main_v27 main_v28 (addi : (⟨S850000, .i32⟩ : BufTy).Contents (Elt F) → (⟨S850000, .i32⟩ : BufTy).Contents (Elt F) → (⟨S850000, .i32⟩ : BufTy).Contents (Elt F)),
    StableHlo.ternary main_v26 main_v28 main_v7 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v29 main_v30 (broadcastInDim S850000x1 ![0] bcast_S850000_S850000x1_0 : (⟨S850000, .i32⟩ : BufTy).Contents (Elt F) → (⟨S850000x1, .i32⟩ : BufTy).Contents (Elt F)),
    StableHlo.binary main_v17 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v24 main_v31 main_v32 (mulf : (⟨S850000, .f32⟩ : BufTy).Contents (Elt F) → (⟨S850000, .f32⟩ : BufTy).Contents (Elt F) → (⟨S850000, .f32⟩ : BufTy).Contents (Elt F)),
    StableHlo.nullary main_c_6 (constantI S_ 32 0#32),
    StableHlo.unary main_c_6 main_v33 (broadcastInDim S850000 ![] bcast_S_S850000 : (⟨S_, .i32⟩ : BufTy).Contents (Elt F) → (⟨S850000, .i32⟩ : BufTy).Contents (Elt F)),
    StableHlo.binary main_v4 main_v33 main_v34 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v35 (broadcastInDim S850000 ![] bcast_S_S850000 : (⟨S_, .i32⟩ : BufTy).Contents (Elt F) → (⟨S850000, .i32⟩ : BufTy).Contents (Elt F)),
    StableHlo.binary main_v4 main_v35 main_v36 (addi : (⟨S850000, .i32⟩ : BufTy).Contents (Elt F) → (⟨S850000, .i32⟩ : BufTy).Contents (Elt F) → (⟨S850000, .i32⟩ : BufTy).Contents (Elt F)),
    StableHlo.ternary main_v34 main_v36 main_v4 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v37 main_v38 (broadcastInDim S850000x1 ![0] bcast_S850000_S850000x1_0 : (⟨S850000, .i32⟩ : BufTy).Contents (Elt F) → (⟨S850000x1, .i32⟩ : BufTy).Contents (Elt F)),
    StableHlo.binary main_v0 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v32 main_v40 (broadcastInDim S850000x1 ![0] bcast_S850000_S850000x1_0 : (⟨S850000, .f32⟩ : BufTy).Contents (Elt F) → (⟨S850000x1, .f32⟩ : BufTy).Contents (Elt F)),
    StableHlo.unary main_v40 main_v41 (broadcastInDim S850000x128 ![0, 1] bcast_S850000x1_S850000x128_0_1 : (⟨S850000x1, .f32⟩ : BufTy).Contents (Elt F) → (⟨S850000x128, .f32⟩ : BufTy).Contents (Elt F)),
    StableHlo.binary main_v39 main_v41 main_v42 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v43 (broadcastInDim S50000x128 ![] bcast_S_S50000x128 : (⟨S_, .f32⟩ : BufTy).Contents (Elt F) → (⟨S50000x128, .f32⟩ : BufTy).Contents (Elt F)),
    StableHlo.unary main_v7 main_v44 (broadcastInDim S850000x1 ![0] bcast_S850000_S850000x1_0 : (⟨S850000, .i32⟩ : BufTy).Contents (Elt F) → (⟨S850000x1, .i32⟩ : BufTy).Contents (Elt F)),
    StableHlo.ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg2 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)) ]

/-- The normalization's 47 operations, in order, the calls written out. -/
abbrev opsC : List (HloOp τ sig (Elt F)) :=
  [ StableHlo.nullary main_cst_9 (constant S_ .f32 0x00000000#32),
    StableHlo.binary main_v48 main_cst_9 main_v49 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    TRef.nullary (TRef.of (T := ⟨S_, .f32⟩) main_call0_cst) (constant S_ .f32 0x00000000#32),
    TRef.binary (TRef.of (T := ⟨S50000x128, .f32⟩) main_v48) (TRef.of (T := ⟨S_, .f32⟩) main_call0_cst) (TRef.of (T := ⟨S128, .f32⟩) main_call0_v0) (fun x v => Host.reduceAdd x v reducesTo_S50000x128_S128_d0 h_S_),
    TRef.unary (TRef.of (T := ⟨S128, .f32⟩) main_call0_v0) (TRef.of (T := ⟨S1x128, .f32⟩) main_call0_v1) (broadcastInDim S1x128 ![1] bcast_S128_S1x128_1),
    TRef.nullary (TRef.of (T := ⟨S_, .f32⟩) main_call0_cst_0) (constant S_ .f32 0x47435000#32),
    TRef.unary (TRef.of (T := ⟨S_, .f32⟩) main_call0_cst_0) (TRef.of (T := ⟨S1x128, .f32⟩) main_call0_v2) (broadcastInDim S1x128 ![] bcast_S_S1x128),
    TRef.binary (TRef.of (T := ⟨S1x128, .f32⟩) main_call0_v1) (TRef.of (T := ⟨S1x128, .f32⟩) main_call0_v2) (TRef.of (T := ⟨S1x128, .f32⟩) main_call0_v3) Host.divf,
    TRef.unary (TRef.of (T := ⟨S1x128, .f32⟩) main_call0_v3) (TRef.of (T := ⟨S50000x128, .f32⟩) main_call0_v4) (broadcastInDim S50000x128 ![0, 1] bcast_S1x128_S50000x128_0_1),
    TRef.binary (TRef.of (T := ⟨S50000x128, .f32⟩) main_v48) (TRef.of (T := ⟨S50000x128, .f32⟩) main_call0_v4) (TRef.of (T := ⟨S50000x128, .f32⟩) main_call0_v5) subf,
    TRef.binary (TRef.of (T := ⟨S50000x128, .f32⟩) main_call0_v5) (TRef.of (T := ⟨S50000x128, .f32⟩) main_call0_v5) (TRef.of (T := ⟨S50000x128, .f32⟩) main_call0_v6) mulf,
    TRef.unary (TRef.of (T := ⟨S_, .i32⟩) main_c_11) (TRef.of (T := ⟨S_, .f32⟩) main_call0_v7) (sitofp .f32),
    TRef.nullary (TRef.of (T := ⟨S_, .f32⟩) main_call0_cst_1) (constant S_ .f32 0x47435000#32),
    TRef.binary (TRef.of (T := ⟨S_, .f32⟩) main_call0_cst_1) (TRef.of (T := ⟨S_, .f32⟩) main_call0_v7) (TRef.of (T := ⟨S_, .f32⟩) main_call0_v8) subf,
    TRef.nullary (TRef.of (T := ⟨S_, .f32⟩) main_call0_cst_2) (constant S_ .f32 0x00000000#32),
    TRef.binary (TRef.of (T := ⟨S50000x128, .f32⟩) main_call0_v6) (TRef.of (T := ⟨S_, .f32⟩) main_call0_cst_2) (TRef.of (T := ⟨S128, .f32⟩) main_call0_v9) (fun x v => Host.reduceAdd x v reducesTo_S50000x128_S128_d0 h_S_),
    TRef.unary (TRef.of (T := ⟨S_, .f32⟩) main_call0_v8) (TRef.of (T := ⟨S128, .f32⟩) main_call0_v10) (broadcastInDim S128 ![] bcast_S_S128),
    TRef.binary (TRef.of (T := ⟨S128, .f32⟩) main_call0_v9) (TRef.of (T := ⟨S128, .f32⟩) main_call0_v10) (TRef.of (T := ⟨S128, .f32⟩) main_call0_v11) Host.divf,
    TRef.nullary (TRef.of (T := ⟨S_, .f32⟩) main_call0_cst_3) (constant S_ .f32 0x00000000#32),
    TRef.binary (TRef.of (T := ⟨S_, .f32⟩) main_call0_v8) (TRef.of (T := ⟨S_, .f32⟩) main_call0_cst_3) (TRef.of (T := ⟨S_, .i1⟩) main_call0_v12) (cmpf .ogt),
    TRef.nullary (TRef.of (T := ⟨S_, .f32⟩) main_call0_cst_4) (constant S_ .f32 0x7FC00000#32),
    TRef.unary (TRef.of (T := ⟨S_, .f32⟩) main_call0_cst_4) (TRef.of (T := ⟨S_, .f32⟩) main_call0_call0_v0) id,
    TRef.unary (TRef.of (T := ⟨S_, .f32⟩) main_call0_call0_v0) (TRef.of (T := ⟨S128, .f32⟩) main_call0_call0_v1) (broadcastInDim S128 ![] bcast_S_S128),
    TRef.ternary (TRef.of (T := ⟨S_, .i1⟩) main_call0_v12) (TRef.of (T := ⟨S128, .f32⟩) main_call0_v11) (TRef.of (T := ⟨S128, .f32⟩) main_call0_call0_v1) (TRef.of (T := ⟨S128, .f32⟩) main_v52) (fun p a b => select (broadcastInDim S128 ![] bcast_S_S128 p) a b),
    StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v54 main_v55 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v56 (broadcastInDim S128 ![] bcast_S_S128 : (⟨S_, .f32⟩ : BufTy).Contents (Elt F) → (⟨S128, .f32⟩ : BufTy).Contents (Elt F)),
    StableHlo.binary main_v52 main_v56 main_v57 (addf : (⟨S128, .f32⟩ : BufTy).Contents (Elt F) → (⟨S128, .f32⟩ : BufTy).Contents (Elt F) → (⟨S128, .f32⟩ : BufTy).Contents (Elt F)),
    StableHlo.unary main_v57 main_v58 (Host.rsqrt : (⟨S128, .f32⟩ : BufTy).Contents (Elt F) → (⟨S128, .f32⟩ : BufTy).Contents (Elt F)),
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v60 main_v61 (mulf : (⟨S50000x128, .f32⟩ : BufTy).Contents (Elt F) → (⟨S50000x128, .f32⟩ : BufTy).Contents (Elt F) → (⟨S50000x128, .f32⟩ : BufTy).Contents (Elt F)),
    StableHlo.unary main_arg3 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v63 main_v64 (mulf : (⟨S50000x128, .f32⟩ : BufTy).Contents (Elt F) → (⟨S50000x128, .f32⟩ : BufTy).Contents (Elt F) → (⟨S50000x128, .f32⟩ : BufTy).Contents (Elt F)),
    StableHlo.unary main_arg4 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v67) (TRef.of (T := ⟨S50000x128, .f32⟩) main_call1_v0) (TRef.of (T := ⟨S50000x128, .f32⟩) main_v68) maximumf ]

/-- @main's 107 operations, in order. -/
abbrev ops : List (HloOp τ sig (Elt F)) := (opsA ++ opsB) ++ opsC

set_option maxRecDepth 8192 in
set_option maxHeartbeats 4000000 in
theorem main_part0_eq (c : Dev nD) : main_part0 (F := F) c = seq (opsA ++ opsB) := rfl

set_option maxRecDepth 8192 in
set_option maxHeartbeats 4000000 in
theorem main_part1_eq (c : Dev nD) : main_part1 (F := F) c = seq opsC := rfl

theorem main_eq (c : Dev nD) : main (F := F) c = seq ops := by
  show main (F := F) c = seq ((opsA ++ opsB) ++ opsC)
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  binary_bufs_sub ..
set_option maxRecDepth 8192 in
theorem opsB_sub : (opsB : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
set_option maxRecDepth 8192 in
theorem opsC_sub : (opsC : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with (h | h) | h
    exacts [List.forall_iff_forall_mem.mp opsA_sub op h, List.forall_iff_forall_mem.mp opsB_sub op h, List.forall_iff_forall_mem.mp opsC_sub op h]

/-- The contents after two lines in a row. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

theorem after_ops (V : Valuation τ sig (Elt F)) : after ops V = after opsC (after opsB (after opsA V)) := by
  show after ((opsA ++ opsB) ++ opsC) V = _
  rw [after_append', after_append']

end Cert.ReferenceIdeal.RefRun

end
-- ==== Proof.R.ValB.lean ====
import proofs.«181293_j22840636080817_1_alg».proof.Proof.R.Spec
import proofs.«181293_j22840636080817_1_alg».proof.Proof.R.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! What the aggregation's operations leave: the aggregate buffer holds the aggregation layer of the product buffer, the
    bias and the edge index; the six argument buffers are not written. -/

set_option maxRecDepth 8192 in
set_option maxHeartbeats 2000000 in
theorem valB (V : Valuation τ sig (Elt F)) :
    after opsB V (Proc.devRef .tc main_v48) = aggT (V (Proc.devRef .tc main_v0)) (V (Proc.devRef .tc main_arg2)) (V (Proc.devRef .tc main_arg5)) := by
  after_results_simp
  rfl

set_option maxRecDepth 8192 in
set_option maxHeartbeats 2000000 in
theorem keepB_0 (V : Valuation τ sig (Elt F)) : after opsB V (Proc.devRef .tc main_arg0) = V (Proc.devRef .tc main_arg0) := by
  after_results_simp
set_option maxRecDepth 8192 in
set_option maxHeartbeats 2000000 in
theorem keepB_1 (V : Valuation τ sig (Elt F)) : after opsB V (Proc.devRef .tc main_arg1) = V (Proc.devRef .tc main_arg1) := by
  after_results_simp
set_option maxRecDepth 8192 in
set_option maxHeartbeats 2000000 in
theorem keepB_2 (V : Valuation τ sig (Elt F)) : after opsB V (Proc.devRef .tc main_arg2) = V (Proc.devRef .tc main_arg2) := by
  after_results_simp
set_option maxRecDepth 8192 in
set_option maxHeartbeats 2000000 in
theorem keepB_3 (V : Valuation τ sig (Elt F)) : after opsB V (Proc.devRef .tc main_arg3) = V (Proc.devRef .tc main_arg3) := by
  after_results_simp
set_option maxRecDepth 8192 in
set_option maxHeartbeats 2000000 in
theorem keepB_4 (V : Valuation τ sig (Elt F)) : after opsB V (Proc.devRef .tc main_arg4) = V (Proc.devRef .tc main_arg4) := by
  after_results_simp
set_option maxRecDepth 8192 in
set_option maxHeartbeats 2000000 in
theorem keepB_5 (V : Valuation τ sig (Elt F)) : after opsB V (Proc.devRef .tc main_arg5) = V (Proc.devRef .tc main_arg5) := by
  after_results_simp

end Cert.ReferenceIdeal.RefRun

end
-- ==== Proof.R.ValC.lean ====
import proofs.«181293_j22840636080817_1_alg».proof.Proof.R.Spec
import proofs.«181293_j22840636080817_1_alg».proof.Proof.R.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! What the normalization's operations leave: the result buffer holds the normalization layer of the aggregate buffer, the
    scale and the shift; the six argument buffers are not written. -/

set_option maxRecDepth 8192 in
set_option maxHeartbeats 2000000 in
theorem valC (V : Valuation τ sig (Elt F)) :
    after opsC V (Proc.devRef .tc main_v68) = tailT (V (Proc.devRef .tc main_v48)) (V (Proc.devRef .tc main_arg3)) (V (Proc.devRef .tc main_arg4)) := by
  after_results_simp
  rfl

set_option maxRecDepth 8192 in
set_option maxHeartbeats 2000000 in
theorem keepC_0 (V : Valuation τ sig (Elt F)) : after opsC V (Proc.devRef .tc main_arg0) = V (Proc.devRef .tc main_arg0) := by
  after_results_simp
set_option maxRecDepth 8192 in
set_option maxHeartbeats 2000000 in
theorem keepC_1 (V : Valuation τ sig (Elt F)) : after opsC V (Proc.devRef .tc main_arg1) = V (Proc.devRef .tc main_arg1) := by
  after_results_simp
set_option maxRecDepth 8192 in
set_option maxHeartbeats 2000000 in
theorem keepC_2 (V : Valuation τ sig (Elt F)) : after opsC V (Proc.devRef .tc main_arg2) = V (Proc.devRef .tc main_arg2) := by
  after_results_simp
set_option maxRecDepth 8192 in
set_option maxHeartbeats 2000000 in
theorem keepC_3 (V : Valuation τ sig (Elt F)) : after opsC V (Proc.devRef .tc main_arg3) = V (Proc.devRef .tc main_arg3) := by
  after_results_simp
set_option maxRecDepth 8192 in
set_option maxHeartbeats 2000000 in
theorem keepC_4 (V : Valuation τ sig (Elt F)) : after opsC V (Proc.devRef .tc main_arg4) = V (Proc.devRef .tc main_arg4) := by
  after_results_simp
set_option maxRecDepth 8192 in
set_option maxHeartbeats 2000000 in
theorem keepC_5 (V : Valuation τ sig (Elt F)) : after opsC V (Proc.devRef .tc main_arg5) = V (Proc.devRef .tc main_arg5) := by
  after_results_simp

end Cert.ReferenceIdeal.RefRun

end
-- ==== Proof.R.Run.lean ====
import proofs.«181293_j22840636080817_1_alg».proof.Proof.R.Spec
import proofs.«181293_j22840636080817_1_alg».proof.Proof.R.Ops
import proofs.«181293_j22840636080817_1_alg».proof.Proof.R.ValB
import proofs.«181293_j22840636080817_1_alg».proof.Proof.R.ValC

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference's run: every weakly fair execution of @main terminates with the result buffer at the three layers'
    composition of the arguments' launch contents, and the arguments unchanged. -/

theorem valA (V : Valuation τ sig (Elt F)) :
    after opsA V (Proc.devRef .tc main_v0) = dotT (V (Proc.devRef .tc main_arg0)) (V (Proc.devRef .tc main_arg1)) := by
  after_results
  rfl

theorem keepA_0 (V : Valuation τ sig (Elt F)) : after opsA V (Proc.devRef .tc main_arg0) = V (Proc.devRef .tc main_arg0) := by
  after_results
theorem keepA_1 (V : Valuation τ sig (Elt F)) : after opsA V (Proc.devRef .tc main_arg1) = V (Proc.devRef .tc main_arg1) := by
  after_results
theorem keepA_2 (V : Valuation τ sig (Elt F)) : after opsA V (Proc.devRef .tc main_arg2) = V (Proc.devRef .tc main_arg2) := by
  after_results
theorem keepA_3 (V : Valuation τ sig (Elt F)) : after opsA V (Proc.devRef .tc main_arg3) = V (Proc.devRef .tc main_arg3) := by
  after_results
theorem keepA_4 (V : Valuation τ sig (Elt F)) : after opsA V (Proc.devRef .tc main_arg4) = V (Proc.devRef .tc main_arg4) := by
  after_results
theorem keepA_5 (V : Valuation τ sig (Elt F)) : after opsA V (Proc.devRef .tc main_arg5) = V (Proc.devRef .tc main_arg5) := by
  after_results

theorem arg0_eq (V : Valuation τ sig (Elt F)) : after ops V (Proc.devRef .tc main_arg0) = V (Proc.devRef .tc main_arg0) := by
  rw [after_ops, keepC_0, keepB_0, keepA_0]
theorem arg1_eq (V : Valuation τ sig (Elt F)) : after ops V (Proc.devRef .tc main_arg1) = V (Proc.devRef .tc main_arg1) := by
  rw [after_ops, keepC_1, keepB_1, keepA_1]
theorem arg2_eq (V : Valuation τ sig (Elt F)) : after ops V (Proc.devRef .tc main_arg2) = V (Proc.devRef .tc main_arg2) := by
  rw [after_ops, keepC_2, keepB_2, keepA_2]
theorem arg3_eq (V : Valuation τ sig (Elt F)) : after ops V (Proc.devRef .tc main_arg3) = V (Proc.devRef .tc main_arg3) := by
  rw [after_ops, keepC_3, keepB_3, keepA_3]
theorem arg4_eq (V : Valuation τ sig (Elt F)) : after ops V (Proc.devRef .tc main_arg4) = V (Proc.devRef .tc main_arg4) := by
  rw [after_ops, keepC_4, keepB_4, keepA_4]
theorem arg5_eq (V : Valuation τ sig (Elt F)) : after ops V (Proc.devRef .tc main_arg5) = V (Proc.devRef .tc main_arg5) := by
  rw [after_ops, keepC_5, keepB_5, keepA_5]

/-- The result buffer after the whole line: the three layers composed. -/
theorem res_eq (V : Valuation τ sig (Elt F)) :
    after ops V (Proc.devRef .tc main_v68)
      = resT (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops, valC, valB, keepB_3, keepB_4, valA, keepA_2, keepA_5, keepA_3, keepA_4]
  rfl

/-- On every device, for any float values, from any memory with zero counters: every weakly fair execution of @main
    terminates with the result at the layers' composition of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v68) = resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v68).trans (res_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ)

end Cert.ReferenceIdeal.RefRun

end
-- ==== Proof.R.Frame.lean ====
import proofs.«181293_j22840636080817_1_alg».proof.Defs
import proofs.«181293_j22840636080817_1_alg».proof.Proof.Gen.ReferenceIdeal
import proofs.«181293_j22840636080817_1_alg».proof.Proof.Gen.Pre_finite_inputs
import proofs.«181293_j22840636080817_1_alg».proof.Proof.R.Run

noncomputable section

open Idealize.ShloMosaic Idealize.SL.Sem

namespace Cert.Proof.Ref

/-- The reference runs and leaves its six argument arrays unchanged: its run, the result's value dropped. -/
theorem frame_ri : Cert.frame_ReferenceIdeal := fun m ρ _ =>
  (θ_run Cert.ReferenceIdeal.defs _ _).mono (fun _ h c => (h c).2) (Cert.ReferenceIdeal.RefRun.run (F := Ideal) m ρ)

end Cert.Proof.Ref

end
-- ==== Proof.M.Chain.lean ====
/- The host chain of the graph-convolution layer as one function of its three inputs: the projected
   features h (50000 x 128), the bias (128) and the edge list (2 x 800000).  Every node gets a self loop
   (the edge list is extended by the 50000 pairs (n, n)); negative indices are wrapped by adding 50000;
   deg counts, per node, the extended edges whose (wrapped) target is that node; dinv = 1/sqrt(deg);
   each extended edge e carries the weight dinv(source e) * dinv(target e); the message of e is the source's
   feature row times that weight; messages are summed per target node; the bias is added to every row. -/
import proofs.«181293_j22840636080817_1_alg».proof.Proof.Gen.KernelIdeal.Launch
import Idealize.ShloMosaic.Lib.StableHlo.Run

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]

/-- The 50000 node numbers 0, 1, ..., 49999 (the self loops' endpoints). -/
def loopsK : (⟨S50000, .i32⟩ : BufTy).Contents (Elt F) := iotaInDim S50000 32 0

/-- Row 0 of the edge list (the sources) followed by the self loops: 850000 entries. -/
def rowK (ei : (⟨S2x800000, .i32⟩ : BufTy).Contents (Elt F)) : (⟨S850000, .i32⟩ : BufTy).Contents (Elt F) :=
  have main_v2 : (⟨S1x800000, .i32⟩ : BufTy).Contents (Elt F) := extractStridedSlice S1x800000 ![0, 0] ei slices_S2x800000_S1x800000_0_0
  have main_v3 : (⟨S800000, .i32⟩ : BufTy).Contents (Elt F) := fun i => shapeCast S800000 main_v2 shapeCasts_S1x800000_S800000 i
  concatenate S850000 0 [⟨S800000, main_v3⟩, ⟨S50000, loopsK⟩] concatenates_S800000_S50000_S850000_d0

/-- Row 1 of the edge list (the targets) followed by the self loops: 850000 entries. -/
def colK (ei : (⟨S2x800000, .i32⟩ : BufTy).Contents (Elt F)) : (⟨S850000, .i32⟩ : BufTy).Contents (Elt F) :=
  have main_v5 : (⟨S1x800000, .i32⟩ : BufTy).Contents (Elt F) := extractStridedSlice S1x800000 ![1, 0] ei slices_S2x800000_S1x800000_1_0
  have main_v6 : (⟨S800000, .i32⟩ : BufTy).Contents (Elt F) := fun i => shapeCast S800000 main_v5 shapeCasts_S1x800000_S800000 i
  concatenate S850000 0 [⟨S800000, main_v6⟩, ⟨S50000, loopsK⟩] concatenates_S800000_S50000_S850000_d0

/-- A negative index counts from the end: v < 0 ? v + 50000 : v, entry by entry. -/
def wrapK (v : (⟨S850000, .i32⟩ : BufTy).Contents (Elt F)) : (⟨S850000, .i32⟩ : BufTy).Contents (Elt F) :=
  select (cmpi .slt v (broadcastInDim S850000 ![] bcast_S_S850000 (constantI S_ 32 0#32)))
    (addi v (broadcastInDim S850000 ![] bcast_S_S850000 (constantI S_ 32 50000#32))) v

/-- An index vector as the 850000 x 1 column the gathers and scatters read. -/
def colOf (v : (⟨S850000, .i32⟩ : BufTy).Contents (Elt F)) : (⟨S850000x1, .i32⟩ : BufTy).Contents (Elt F) :=
  broadcastInDim S850000x1 ![0] bcast_S850000_S850000x1_0 v

/-- deg n = the number of extended edges whose wrapped target is n (1.0 added per edge onto zeros). -/
def degK (ei : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (colOf (wrapK (colK ei)))
    (broadcastInDim S850000 ![] bcast_S_S850000 (constant S_ .f32 0x3F800000#32))

/-- dinv n = 1 / sqrt (deg n). -/
def dinvK (ei : (⟨S2x800000, .i32⟩ : BufTy).Contents (Elt F)) : (⟨S50000, .f32⟩ : BufTy).Contents (Elt F) :=
  Host.rsqrt (degK ei)

/-- The weight of the extended edge e: dinv (source e) * dinv (target e). -/
def normK (ei : (⟨S2x800000, .i32⟩ : BufTy).Contents (Elt F)) : (⟨S850000, .f32⟩ : BufTy).Contents (Elt F) :=
  mulf (Host.gather gather_S50000_S850000x1_S850000_n_0_n_n_0_1_1 (dinvK ei) (colOf (wrapK (rowK ei))))
       (Host.gather gather_S50000_S850000x1_S850000_n_0_n_n_0_1_1 (dinvK ei) (colOf (wrapK (colK ei))))

/-- The message of the extended edge e: the source's feature row times the edge's weight. -/
def msgK (h : (⟨S50000x128, .f32⟩ : BufTy).Contents (Elt F)) (ei : (⟨S2x800000, .i32⟩ : BufTy).Contents (Elt F)) :
    (⟨S850000x128, .f32⟩ : BufTy).Contents (Elt F) :=
  mulf (Host.gather gather_S50000x128_S850000x1_S850000x128_1_0_n_n_0_1_1128 h (colOf (wrapK (rowK ei))))
       (broadcastInDim S850000x128 ![0, 1] bcast_S850000x1_S850000x128_0_1
         (broadcastInDim S850000x1 ![0] bcast_S850000_S850000x1_0 (normK ei)))

/-- The messages summed per target node, onto zeros. -/
def sumK (h : (⟨S50000x128, .f32⟩ : BufTy).Contents (Elt F)) (ei : (⟨S2x800000, .i32⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (colOf (colK ei))
    (msgK h ei)

/-- The bias as a row repeated down the 50000 rows. -/
def biasRowsK (bias : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 bias)

/-- The aggregated features: per-node sums of the messages, plus the bias. -/
def aggK (h : (⟨S50000x128, .f32⟩ : BufTy).Contents (Elt F)) (bias : (⟨S128, .f32⟩ : BufTy).Contents (Elt F))
    (ei : (⟨S2x800000, .i32⟩ : BufTy).Contents (Elt F)) : (⟨S50000x128, .f32⟩ : BufTy).Contents (Elt F) :=
  addf (sumK h ei) (biasRowsK bias)

/-- What the 59 host operations leave in the buffer of the aggregated features is aggK of what the
    three input buffers held. -/
theorem after_hostOps1_v48 (V : Valuation τ sig (Elt F)) :
    StableHlo.after hostOps1 V (Proc.devRef .tc main_v48)
      = aggK (V (Proc.devRef .tc main_v0)) (V (Proc.devRef .tc main_arg2)) (V (Proc.devRef .tc main_arg5)) := by
  dsimp only [hostOps1]
  after_results_simp
  rfl

end Cert.KernelIdeal.Chain

end
-- ==== Proof.P.Pay0.lean ====
import proofs.«181293_j22840636080817_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-! # The matrix-product body at an index

The body of the first kernel multiplies a 5000 × 128 block of rows by the 128 × 128 weight matrix.
At the extended reals the change of float format before the product is the identity and the product
accumulates into the zero array, so the entry at row `p`, column `q` is the plain sum over the
contracted coordinate `k` of `x[p, k] * w[k, q]`. -/

/-- The dimension numbers of the product: the left operand's axis 1 against the right operand's axis 0. -/
abbrev dotD : DotDims S5000x128 S128x128 S5000x128 := dot_S5000x128_S128x128_S5000x128_1_0_0_1_n_n

/-- The left operand's row coordinate is the output's row coordinate. -/
theorem lhs_row (i : S5000x128.Idx) (c : dotD.contr.Idx) : (dotD.lhsIdx i c 0).val = (i 0).val := by
  unfold DotDims.lhsIdx
  rw [dif_neg (show ¬(0 : Fin S5000x128.rank) ∈ dotD.lhsBatch by decide),
    dif_pos (show (0 : Fin S5000x128.rank) ∈ dotD.lhsNonContracting by decide)]
  rfl

/-- The left operand's column coordinate is the contracted coordinate. -/
theorem lhs_col (i : S5000x128.Idx) (c : dotD.contr.Idx) : (dotD.lhsIdx i c 1).val = (c ⟨0, by decide⟩).val :=
  dotD.lhsIdx_val_of_single rfl i c

/-- The right operand's row coordinate is the contracted coordinate. -/
theorem rhs_row (i : S5000x128.Idx) (c : dotD.contr.Idx) : (dotD.rhsIdx i c 0).val = (c ⟨0, by decide⟩).val :=
  dotD.rhsIdx_val_of_single rfl i c

/-- The right operand's column coordinate is the output's column coordinate. -/
theorem rhs_col (i : S5000x128.Idx) (c : dotD.contr.Idx) : (dotD.rhsIdx i c 1).val = (i 1).val := by
  unfold DotDims.rhsIdx
  rw [dif_neg (show ¬(1 : Fin S128x128.rank) ∈ dotD.rhsBatch by decide),
    dif_pos (show (1 : Fin S128x128.rank) ∈ dotD.rhsNonContracting by decide)]
  rfl

/-- The product body at row `p`, column `q`. -/
theorem k0_pay1_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  refine (Ideal.matmul_constant_zero_apply dotD none _ _ (ix2 p q)).trans ?_
  rw [← Equiv.sum_comp (contrEquiv1 dotD 128 rfl rfl).symm]
  refine Finset.sum_congr rfl fun k _ => ?_
  have hk := contrEquiv1_symm_val dotD 128 rfl rfl k
  have el : dotD.lhsIdx (ix2 p q) ((contrEquiv1 dotD 128 rfl rfl).symm k) = ix2 p k := funext fun a => Fin.ext (by
    match a with
    | ⟨0, _⟩ => exact lhs_row _ _
    | ⟨1, _⟩ => exact (lhs_col _ _).trans hk)
  have er : dotD.rhsIdx (ix2 p q) ((contrEquiv1 dotD 128 rfl rfl).symm k) = ix2 k q := funext fun a => Fin.ext (by
    match a with
    | ⟨0, _⟩ => exact (rhs_row _ _).trans hk
    | ⟨1, _⟩ => exact rhs_col _ _)
  rw [el, er]
  rfl

end Cert.KernelIdeal.Pay

end
-- ==== Proof.P.Val0.lean ====
import proofs.«181293_j22840636080817_1_alg».proof.Proof.KI.Region0
import proofs.«181293_j22840636080817_1_alg».proof.Proof.P.Pay0
import Idealize.ShloMosaic.Lib.ValueIdx
import Idealize.ShloMosaic.Lib.Pipeline.Value
import Idealize.ShloMosaic.Lib.Tactic

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! # The product, from blocks to the whole array

The first kernel writes, at each of its ten grid points `t`, rows `5000 t … 5000 t + 4999` of the result.
The block written at point `t` is the product of rows `5000 t …` of the left array with the whole right
array, so every block is the restriction of one function of the two arrays, and the ten blocks tile
the 50000 rows. -/

theorem hz : (![0, 0] : Fin 2 → Nat) = fun _ => 0 := funext fun a => by fin_cases a <;> rfl

/-- The block indices of the three windows at every grid point: the left operand and the result move
    down one block of rows per point, the right operand stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `n`, column `q` of the product of the whole arrays. -/
def prodAt (A : S50000x128.Idx → EReal) (W : S128x128.Idx → EReal) (n : Fin 50000) (q : Fin 128) : EReal :=
  ∑ k : Fin 128, A (ix2 n k) * W (ix2 k q)

/-- The product of the whole arrays, as one function of the index. -/
def prodArr (A : S50000x128.Idx → EReal) (W : S128x128.Idx → EReal) : S50000x128.Idx → EReal :=
  fun i => prodAt A W ⟨(i 0).val, idx2_lt0 i⟩ ⟨(i 1).val, idx2_lt1 i⟩

/-- The left operand's block at point `t` is rows `5000 t …` of the left array. -/
theorem iblk0_0_apply (c : Dev nD) (t : Fin cfg0.N) (p : Fin 5000) (k : Fin 128) (n : Fin 50000)
    (hn : n.val = t.val * 5000 + p.val) :
    (iblk0 V c 0 t : S5000x128.Idx → EReal) (ix2 p k) = (V c main_arg0 : S50000x128.Idx → EReal) (ix2 n k) := by
  obtain ⟨e0, e1, -⟩ := idx0 t
  unfold iblk0
  rw [View.read_apply]
  show (V c main_arg0 : S50000x128.Idx → EReal) _ = (V c main_arg0 : S50000x128.Idx → EReal) _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- The right operand's block at every point is the whole right array. -/
theorem iblk0_1_apply (c : Dev nD) (t : Fin cfg0.N) (k q : Fin 128) :
    (iblk0 V c 1 t : S128x128.Idx → EReal) (ix2 k q) = (V c main_arg1 : S128x128.Idx → EReal) (ix2 k q) := by
  obtain ⟨-, -, e0, e1, -⟩ := idx0 t
  unfold iblk0
  rw [View.read_apply]
  show (V c main_arg1 : S128x128.Idx → EReal) _ = (V c main_arg1 : S128x128.Idx → EReal) _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- What point `t` writes back is block `t` of the product of the whole arrays. -/
theorem flushed0_eq (c : Dev nD) (t : Fin cfg0.N) :
    (dat0 (F := Ideal) V c).flushed 2 t
      = ((cfg0.win 2).blk t).view.read (Elt Ideal) (prodArr (V c main_arg0) (V c main_arg1)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  obtain ⟨-, -, -, -, e0, e1⟩ := idx0 t
  have ht : t.val < 10 := by have := t.isLt; have h10 : cfg0.N = 10 := N_0; omega
  obtain ⟨n, hn⟩ : ∃ n : Fin 50000, n.val = t.val * 5000 + p.val :=
    ⟨⟨t.val * 5000 + p.val, by have := p.isLt; omega⟩, rfl⟩
  have hemb : ((cfg0.win 2).blk t).view.emb (ix2 p q) = (ix2 n q : S50000x128.Idx) := by
    funext a
    apply Fin.ext
    match a with
    | ⟨0, _⟩ => show win0_2.index t (0 : Fin 2) * 5000 + 1 * p.val = n.val; rw [e0, hn]; omega
    | ⟨1, _⟩ => show win0_2.index t (1 : Fin 2) * 128 + 1 * q.val = q.val; rw [e1]; omega
  rw [View.read_apply, hemb]
  show k0_pay1 (F := Ideal) (iblk0 V c 0 t) (iblk0 V c 1 t) (ix2 p q) = prodAt _ _ n q
  refine (Pay.k0_pay1_apply _ _ p q).trans ?_
  unfold prodAt
  refine Finset.sum_congr rfl fun k _ => ?_
  rw [iblk0_0_apply V c t p k n hn, iblk0_1_apply V c t k q]

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- Every row of the result is in the block of the point that the row's number divided by 5000 names. -/
theorem cover0 (i : S50000x128.Idx) :
    ∃ t : Fin cfg0.N, (cfg0.win 2).flush t = true ∧ i ∈ ((cfg0.win 2).blk t).view.set := by
  have h0 : (i 0).val < 50000 := idx2_lt0 i
  have h1 : (i 1).val < 128 := idx2_lt1 i
  have h10 : cfg0.N = 10 := N_0
  obtain ⟨t, ht⟩ : ∃ t : Fin cfg0.N, t.val = (i 0).val / 5000 := ⟨⟨(i 0).val / 5000, by omega⟩, rfl⟩
  obtain ⟨-, -, -, -, e0, e1⟩ := idx0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The result array after the ten points is the product of the whole arrays. -/
theorem final0 (c : Dev nD) :
    (dat0 (F := Ideal) V c).arrAt 2 cfg0.N = prodArr (V c main_arg0) (V c main_arg1) :=
  (dat0 (F := Ideal) V c).arrAt_eq_of_cover 2 (prodArr (V c main_arg0) (V c main_arg1))
    (fun t _ => flushed0_eq V c t) cover0

/-- The product of the whole arrays at row `n`, column `q` is the sum over the contracted coordinate. -/
theorem prodArr_apply (A : S50000x128.Idx → EReal) (W : S128x128.Idx → EReal) (n : Fin 50000) (q : Fin 128) :
    prodArr A W (ix2 n q) = ∑ k : Fin 128, A (ix2 n k) * W (ix2 k q) := rfl

/-- Row `n`, column `q` of the result array after the run. -/
theorem arr0 (c : Dev nD) (n : Fin 50000) (q : Fin 128) :
    @Eq EReal ((dat0 (F := Ideal) V c).arrAt 2 cfg0.N (ix2 n q))
      (∑ k : Fin 128, @HMul.hMul EReal EReal EReal instHMul
        ((V c main_arg0 : S50000x128.Idx → EReal) (ix2 n k)) ((V c main_arg1 : S128x128.Idx → EReal) (ix2 k q))) := by
  rw [final0]
  rfl

end Cert.KernelIdeal.Val

end
-- ==== Proof.Bridge1.lean ====
/-
  The buffer contents at the boundaries of the idealized kernel program, read back to the arguments: the product
  array the first pallas_call leaves; the aggregated features the host chain builds from it; the 2 × 128 statistics
  the second pallas_call leaves; the scale and the shift recast as rows. At the exact values.
-/
import proofs.«181293_j22840636080817_1_alg».proof.Proof.KI.Run
import proofs.«181293_j22840636080817_1_alg».proof.Proof.M.Chain
import proofs.«181293_j22840636080817_1_alg».proof.Proof.P.Val0
import Idealize.ShloMosaic.Lib.StableHlo.Run
import Idealize.ShloMosaic.Lib.ValueLayout

noncomputable section

namespace Cert.Proof.Bridge

open Cert.KernelIdeal Cert.KernelIdeal.Gen Cert.KernelIdeal.Hand Cert.KernelIdeal.Chain Cert.KernelIdeal.Val
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- After the first pallas_call the product buffer holds the product of the two argument arrays. -/
theorem w1_v0 (c : Dev nD) :
    W1 (F := Ideal) m ρ c (Proc.devRef .tc main_v0)
      = prodArr (m ((c : Thread nD τ).loc main_arg0)) (m ((c : Thread nD τ).loc main_arg1)) :=
  (W1_arr m ρ c 2).trans (final0 (U0 m ρ) c)

/-- After the host chain the aggregate's buffer holds the chain's function of the product, the bias and the edges. -/
theorem w2_v48 (c : Dev nD) :
    W2 (F := Ideal) m ρ c (Proc.devRef .tc main_v48)
      = aggK (F := Ideal) (prodArr (m ((c : Thread nD τ).loc main_arg0)) (m ((c : Thread nD τ).loc main_arg1)))
          (m ((c : Thread nD τ).loc main_arg2)) (m ((c : Thread nD τ).loc main_arg5)) := by
  refine (after_hostOps1_v48 (W1 m ρ c)).trans ?_
  rw [w1_v0, W1_of_ne m ρ c main_arg2 (by decide), W1_of_ne m ρ c main_arg5 (by decide)]

/-- The second pallas_call and the second host stretch leave the aggregate's buffer as it was. -/
theorem w4_v48 (c : Dev nD) :
    W4 (F := Ideal) m ρ c (Proc.devRef .tc main_v48) = W2 m ρ c (Proc.devRef .tc main_v48) :=
  (StableHlo.after_of_writes_sub hostOps2 _ hostOps2_writes (by decide)).trans
    ((W3_arr m ρ c 0).trans (((dat1 (U2 m ρ) c).arrAt_in 0 rfl _).trans (A_eq1 (U2 m ρ) c 0)))

/-- The statistics buffer when the third pallas_call is entered: what the second pipeline's write-backs leave. -/
theorem w4_v49 (c : Dev nD) :
    W4 (F := Ideal) m ρ c (Proc.devRef .tc main_v49) = (dat1 (U2 m ρ) c).arrAt 1 cfg1.N :=
  (StableHlo.after_of_writes_sub hostOps2 _ hostOps2_writes (by decide)).trans (W3_arr m ρ c 1)

/-- The scale and the shift reach the second host stretch as launched. -/
theorem w3_arg3 (c : Dev nD) : W3 (F := Ideal) m ρ c (Proc.devRef .tc main_arg3) = m ((c : Thread nD τ).loc main_arg3) :=
  (W3_of_ne m ρ c main_arg3 (by decide)).trans ((StableHlo.after_of_writes_sub hostOps1 _ hostOps1_writes (by decide)).trans
    (W1_of_ne m ρ c main_arg3 (by decide)))
theorem w3_arg4 (c : Dev nD) : W3 (F := Ideal) m ρ c (Proc.devRef .tc main_arg4) = m ((c : Thread nD τ).loc main_arg4) :=
  (W3_of_ne m ρ c main_arg4 (by decide)).trans ((StableHlo.after_of_writes_sub hostOps1 _ hostOps1_writes (by decide)).trans
    (W1_of_ne m ρ c main_arg4 (by decide)))

/-- The scale recast as a 1 × 128 row, read at column `q`. -/
theorem w4_v50 (c : Dev nD) (q : Fin 128) :
    (W4 (F := Ideal) m ρ c (Proc.devRef .tc main_v50) : S1x128.Idx → EReal) (ix2 (0 : Fin 1) q)
      = (m ((c : Thread nD τ).loc main_arg3) : S128.Idx → EReal) (ix1 q) := by
  have e : (W4 (F := Ideal) m ρ c (Proc.devRef .tc main_v50) : S1x128.Idx → EReal)
      = shapeCast S1x128 (W3 (F := Ideal) m ρ c (Proc.devRef .tc main_arg3) : S128.Idx → EReal) shapeCasts_S128_S1x128 := by
    show StableHlo.after hostOps2 _ (Proc.devRef .tc main_v50) = _
    after_results
    rfl
  rw [e, shapeCast_a_1a_apply, w3_arg3]

/-- The shift recast as a 1 × 128 row, read at column `q`. -/
theorem w4_v51 (c : Dev nD) (q : Fin 128) :
    (W4 (F := Ideal) m ρ c (Proc.devRef .tc main_v51) : S1x128.Idx → EReal) (ix2 (0 : Fin 1) q)
      = (m ((c : Thread nD τ).loc main_arg4) : S128.Idx → EReal) (ix1 q) := by
  have e : (W4 (F := Ideal) m ρ c (Proc.devRef .tc main_v51) : S1x128.Idx → EReal)
      = shapeCast S1x128 (W3 (F := Ideal) m ρ c (Proc.devRef .tc main_arg4) : S128.Idx → EReal) shapeCasts_S128_S1x128 := by
    show StableHlo.after hostOps2 _ (Proc.devRef .tc main_v51) = _
    after_results
    rfl
  rw [e, shapeCast_a_1a_apply, w3_arg4]

/-- The result buffer after the run: what the third pipeline's write-backs leave. -/
theorem w5_v52 (c : Dev nD) :
    W5 (F := Ideal) m ρ c (Proc.devRef .tc main_v52) = (dat2 (U4 m ρ) c).arrAt 4 cfg2.N :=
  W5_arr m ρ c 4

end Cert.Proof.Bridge

end
-- ==== Proof.P.Pay2.lean ====
import proofs.«181293_j22840636080817_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-! # The normalisation body at an index

The third kernel takes a 5000 × 128 block `a`, the 1 × 128 rows of means `m` and variances `s`, and the
1 × 128 scale and shift rows `g`, `b`; every row is spread over the 5000 rows of the block, and the
entry at row `p`, column `q` is `max (((a[p,q] - m[q]) * rsqrt (s[q] + ε)) * g[q] + b[q]) 0`. -/

/-- The normalised, scaled, shifted and clipped entry at row `p`, column `q`. -/
theorem k2_pay1_apply (v0 v2 : Vec Ideal S1x128 .f32) (v7 : Vec Ideal S5000x128 .f32)
    (v13 v17 : Vec Ideal S1x128 .f32) (p : Fin 5000) (q : Fin 128) :
    k2_pay1 (F := Ideal) v0 v2 v7 v13 v17 (ix2 p q)
      = max (((v7 (ix2 p q) - v0 (ix2 0 q)) * Ideal.rsqrt (v2 (ix2 0 q) + Ideal.ofBits .f32 0x3727C5AC#32))
              * v13 (ix2 0 q) + v17 (ix2 0 q)) 0 := by
  unfold k2_pay1
  simp only [shapeCast_self]
  rw [maximumf_apply, addf_apply, mulf_apply, mulf_apply, subf_apply,
    broadcastTo_1b_ab_apply, broadcastTo_1b_ab_apply, broadcastTo_1b_ab_apply, broadcastTo_1b_ab_apply,
    broadcast_apply]
  show max _ (Ideal.ofBits .f32 0x00000000#32) = _
  rw [Ideal.ofBits_zero_f32]
  rfl

end Cert.KernelIdeal.Pay

end
-- ==== Proof.P.Val2.lean ====
import proofs.«181293_j22840636080817_1_alg».proof.Proof.KI.Region2
import proofs.«181293_j22840636080817_1_alg».proof.Proof.P.Pay2
import Idealize.ShloMosaic.Lib.ValueIdx
import Idealize.ShloMosaic.Lib.Pipeline.Value
import Idealize.ShloMosaic.Lib.Tactic

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! # The normalisation, from blocks to the whole array

The third kernel writes, at each of its ten grid points `t`, rows `5000 t … 5000 t + 4999` of its result:
the same rows of the input array, normalised column by column with the 2 × 128 array of means (row 0)
and variances (row 1), then scaled and shifted by two 1 × 128 rows and clipped below at zero. The three
small arrays are read whole at every point, so every block written is the restriction of one function
of the four arrays, and the ten blocks tile the 50000 rows. -/

theorem hzB : (![0, 0] : Fin 2 → Nat) = fun _ => 0 := funext fun a => by fin_cases a <;> rfl

/-- The block indices of the five windows at every grid point: the input and the result move down one
    block of rows per point, the statistics, the scale and the shift stay. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `n`, column `q` of the normalised, scaled, shifted and clipped array. -/
def bnAt (A : S50000x128.Idx → EReal) (S : S2x128.Idx → EReal) (g b : S1x128.Idx → EReal)
    (n : Fin 50000) (q : Fin 128) : EReal :=
  max (((A (ix2 n q) - S (ix2 (0 : Fin 2) q)) * Ideal.rsqrt (S (ix2 (1 : Fin 2) q) + Ideal.ofBits .f32 0x3727C5AC#32))
        * g (ix2 (0 : Fin 1) q) + b (ix2 (0 : Fin 1) q)) 0

/-- The same as one function of the index. -/
def bnArr (A : S50000x128.Idx → EReal) (S : S2x128.Idx → EReal) (g b : S1x128.Idx → EReal) :
    S50000x128.Idx → EReal :=
  fun i => bnAt A S g b ⟨(i 0).val, idx2_lt0 i⟩ ⟨(i 1).val, idx2_lt1 i⟩

theorem bnArr_apply (A : S50000x128.Idx → EReal) (S : S2x128.Idx → EReal) (g b : S1x128.Idx → EReal)
    (n : Fin 50000) (q : Fin 128) :
    bnArr A S g b (ix2 n q)
      = max (((A (ix2 n q) - S (ix2 (0 : Fin 2) q)) * Ideal.rsqrt (S (ix2 (1 : Fin 2) q) + Ideal.ofBits .f32 0x3727C5AC#32))
          * g (ix2 (0 : Fin 1) q) + b (ix2 (0 : Fin 1) q)) 0 := rfl

/-- Row 0 of the 2 × 128 statistics block, read as a 1 × 128 row. -/
theorem ld_row0 (x1 : Vec Ideal S2x128 .f32) (q : Fin 128) :
    (View.ld (Val := Elt Ideal) x1 rS0 : Vec Ideal S1x128 .f32) (ix2 (0 : Fin 1) q) = x1 (ix2 (0 : Fin 2) q) := by
  show x1 (rS0.idx (ix2 (0 : Fin 1) q)) = x1 (ix2 (0 : Fin 2) q)
  congr 1
  funext a
  apply Fin.ext
  match a with
  | ⟨0, _⟩ => show 0 + 1 * 0 = 0; omega
  | ⟨1, _⟩ => show 0 + 1 * q.val = q.val; omega

/-- Row 1 of the 2 × 128 statistics block, read as a 1 × 128 row. -/
theorem ld_row1 (x1 : Vec Ideal S2x128 .f32) (q : Fin 128) :
    (View.ld (Val := Elt Ideal) x1 rS1 : Vec Ideal S1x128 .f32) (ix2 (0 : Fin 1) q) = x1 (ix2 (1 : Fin 2) q) := by
  show x1 (rS1.idx (ix2 (0 : Fin 1) q)) = x1 (ix2 (1 : Fin 2) q)
  congr 1
  funext a
  apply Fin.ext
  match a with
  | ⟨0, _⟩ => show 1 + 1 * 0 = 1; omega
  | ⟨1, _⟩ => show 0 + 1 * q.val = q.val; omega

/-- The input's block at point `t` is rows `5000 t …` of the input array. -/
theorem iblk2_0_apply (c : Dev nD) (t : Fin cfg2.N) (p : Fin 5000) (q : Fin 128) (n : Fin 50000)
    (hn : n.val = t.val * 5000 + p.val) :
    (iblk2 V c 0 t : S5000x128.Idx → EReal) (ix2 p q) = (V c main_v48 : S50000x128.Idx → EReal) (ix2 n q) := by
  obtain ⟨e0, e1, -⟩ := blockIdx2 t
  unfold iblk2
  rw [View.read_apply]
  show (V c main_v48 : S50000x128.Idx → EReal) _ = (V c main_v48 : S50000x128.Idx → EReal) _
  congr 1
  funext a
  apply Fin.ext
  match a with
  | ⟨0, _⟩ => show win2_0.index t (0 : Fin 2) * 5000 + 1 * p.val = n.val; rw [e0, hn]; omega
  | ⟨1, _⟩ => show win2_0.index t (1 : Fin 2) * 128 + 1 * q.val = q.val; rw [e1]; omega

/-- The statistics' block at every point is the whole 2 × 128 array. -/
theorem iblk2_1_apply (c : Dev nD) (t : Fin cfg2.N) (r : Fin 2) (q : Fin 128) :
    (iblk2 V c 1 t : S2x128.Idx → EReal) (ix2 r q) = (V c main_v49 : S2x128.Idx → EReal) (ix2 r q) := by
  obtain ⟨-, -, e0, e1, -⟩ := blockIdx2 t
  unfold iblk2
  rw [View.read_apply]
  show (V c main_v49 : S2x128.Idx → EReal) _ = (V c main_v49 : S2x128.Idx → EReal) _
  congr 1
  funext a
  apply Fin.ext
  match a with
  | ⟨0, _⟩ => show win2_1.index t (0 : Fin 2) * 2 + 1 * r.val = r.val; rw [e0]; omega
  | ⟨1, _⟩ => show win2_1.index t (1 : Fin 2) * 128 + 1 * q.val = q.val; rw [e1]; omega

/-- The scale's block at every point is the whole 1 × 128 row. -/
theorem iblk2_2_apply (c : Dev nD) (t : Fin cfg2.N) (r : Fin 1) (q : Fin 128) :
    (iblk2 V c 2 t : S1x128.Idx → EReal) (ix2 r q) = (V c main_v50 : S1x128.Idx → EReal) (ix2 r q) := by
  obtain ⟨-, -, -, -, e0, e1, -⟩ := blockIdx2 t
  unfold iblk2
  rw [View.read_apply]
  show (V c main_v50 : S1x128.Idx → EReal) _ = (V c main_v50 : S1x128.Idx → EReal) _
  congr 1
  funext a
  apply Fin.ext
  match a with
  | ⟨0, _⟩ => show win2_2.index t (0 : Fin 2) * 1 + 1 * r.val = r.val; rw [e0]; omega
  | ⟨1, _⟩ => show win2_2.index t (1 : Fin 2) * 128 + 1 * q.val = q.val; rw [e1]; omega

/-- The shift's block at every point is the whole 1 × 128 row. -/
theorem iblk2_3_apply (c : Dev nD) (t : Fin cfg2.N) (r : Fin 1) (q : Fin 128) :
    (iblk2 V c 3 t : S1x128.Idx → EReal) (ix2 r q) = (V c main_v51 : S1x128.Idx → EReal) (ix2 r q) := by
  obtain ⟨-, -, -, -, -, -, e0, e1, -⟩ := blockIdx2 t
  unfold iblk2
  rw [View.read_apply]
  show (V c main_v51 : S1x128.Idx → EReal) _ = (V c main_v51 : S1x128.Idx → EReal) _
  congr 1
  funext a
  apply Fin.ext
  match a with
  | ⟨0, _⟩ => show win2_3.index t (0 : Fin 2) * 1 + 1 * r.val = r.val; rw [e0]; omega
  | ⟨1, _⟩ => show win2_3.index t (1 : Fin 2) * 128 + 1 * q.val = q.val; rw [e1]; omega

/-- What point `t` writes back is block `t` of the normalised array. -/
theorem flushed2_eq (c : Dev nD) (t : Fin cfg2.N) :
    (dat2 (F := Ideal) V c).flushed 4 t
      = ((cfg2.win 4).blk t).view.read (Elt Ideal)
          (bnArr (V c main_v48) (V c main_v49) (V c main_v50) (V c main_v51)) := by
  show (cfg2.win 4).cut (grid2.coords t) ((dat2 (F := Ideal) V c).after 4 t) = _
  rw [after2_4]
  unfold out2_4
  rw [View.canon_unit_zero hzB]
  simp only [View.ld_unit_zero (S := S5000x128) hzB, View.ld_unit_zero (S := S1x128) hzB]
  funext j
  obtain ⟨p, q, rfl⟩ : ∃ (p : Fin 5000) (q : Fin 128), j = ix2 p q := ⟨j 0, j 1, eq_ix2 j⟩
  obtain ⟨-, -, -, -, -, -, -, -, e0, e1⟩ := blockIdx2 t
  have ht : t.val < 10 := by have := t.isLt; have h10 : cfg2.N = 10 := N_2; omega
  obtain ⟨n, hn⟩ : ∃ n : Fin 50000, n.val = t.val * 5000 + p.val :=
    ⟨⟨t.val * 5000 + p.val, by have := p.isLt; omega⟩, rfl⟩
  have hemb : ((cfg2.win 4).blk t).view.emb (ix2 p q) = (ix2 n q : S50000x128.Idx) := by
    funext a
    apply Fin.ext
    match a with
    | ⟨0, _⟩ => show win2_4.index t (0 : Fin 2) * 5000 + 1 * p.val = n.val; rw [e0, hn]; omega
    | ⟨1, _⟩ => show win2_4.index t (1 : Fin 2) * 128 + 1 * q.val = q.val; rw [e1]; omega
  rw [View.read_apply, hemb]
  show k2_pay1 (F := Ideal) (View.ld (iblk2 V c 1 t) rS0) (View.ld (iblk2 V c 1 t) rS1) (iblk2 V c 0 t)
      (iblk2 V c 2 t) (iblk2 V c 3 t) (ix2 p q) = bnAt _ _ _ _ n q
  refine (Pay.k2_pay1_apply _ _ _ _ _ p q).trans ?_
  unfold bnAt
  have a0 := iblk2_0_apply V c t p q n hn
  have a1 := (ld_row0 (iblk2 V c 1 t) q).trans (iblk2_1_apply V c t 0 q)
  have a2 := (ld_row1 (iblk2 V c 1 t) q).trans (iblk2_1_apply V c t 1 q)
  have a3 := iblk2_2_apply V c t 0 q
  have a4 := iblk2_3_apply V c t 0 q
  rw [a0, a1, a2, a3, a4]

/-- An index of the array is in point `t`'s block iff each coordinate is in the block's range on its axis. -/
theorem mem_blk2 (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v52).slice (win2_4.rect t)).set ↔ _
  rw [View.set_slice_whole, Rect.mem_set_unit]
  exact Iff.rfl

/-- Every row of the result is in the block of the point that the row's number divided by 5000 names. -/
theorem cover2 (i : S50000x128.Idx) :
    ∃ t : Fin cfg2.N, (cfg2.win 4).flush t = true ∧ i ∈ ((cfg2.win 4).blk t).view.set := by
  have h0 : (i 0).val < 50000 := idx2_lt0 i
  have h1 : (i 1).val < 128 := idx2_lt1 i
  have h10 : cfg2.N = 10 := N_2
  obtain ⟨t, ht⟩ : ∃ t : Fin cfg2.N, t.val = (i 0).val / 5000 := ⟨⟨(i 0).val / 5000, by omega⟩, rfl⟩
  obtain ⟨-, -, -, -, -, -, -, -, e0, e1⟩ := blockIdx2 t
  refine ⟨t, flush2_4 t, ?_⟩
  rw [mem_blk2]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 128 ≤ (i 1).val ∧ (i 1).val < win2_4.index t (1 : Fin 2) * 128 + 128
    omega

/-- The result array after the ten points is the normalised array. -/
theorem final2 (c : Dev nD) :
    (dat2 (F := Ideal) V c).arrAt 4 cfg2.N
      = bnArr (V c main_v48) (V c main_v49) (V c main_v50) (V c main_v51) :=
  (dat2 (F := Ideal) V c).arrAt_eq_of_cover 4 (bnArr (V c main_v48) (V c main_v49) (V c main_v50) (V c main_v51))
    (fun t _ => flushed2_eq V c t) cover2

/-- Row `n`, column `q` of the result array after the run, through the named formula. -/
theorem arr2_bnAt (c : Dev nD) (n : Fin 50000) (q : Fin 128) :
    @Eq EReal ((dat2 (F := Ideal) V c).arrAt 4 cfg2.N (ix2 n q))
      (bnAt (V c main_v48) (V c main_v49) (V c main_v50) (V c main_v51) n q) := by
  rw [final2]
  rfl

/-- Row `n`, column `q` of the result array after the run, spelt out over the extended reals. -/
theorem arr2 (c : Dev nD) (n : Fin 50000) (q : Fin 128) :
    @Eq EReal ((dat2 (F := Ideal) V c).arrAt 4 cfg2.N (ix2 n q))
      (@max EReal _
        (@HAdd.hAdd EReal EReal EReal instHAdd
          (@HMul.hMul EReal EReal EReal instHMul
            (@HMul.hMul EReal EReal EReal instHMul
              (@HSub.hSub EReal EReal EReal instHSub
                ((V c main_v48 : S50000x128.Idx → EReal) (ix2 n q))
                ((V c main_v49 : S2x128.Idx → EReal) (ix2 (0 : Fin 2) q)))
              (Ideal.rsqrt (@HAdd.hAdd EReal EReal EReal instHAdd
                ((V c main_v49 : S2x128.Idx → EReal) (ix2 (1 : Fin 2) q))
                (Ideal.ofBits .f32 0x3727C5AC#32))))
            ((V c main_v50 : S1x128.Idx → EReal) (ix2 (0 : Fin 1) q)))
          ((V c main_v51 : S1x128.Idx → EReal) (ix2 (0 : Fin 1) q)))
        0) :=
  arr2_bnAt V c n q

end Cert.KernelIdeal.Val

end
-- ==== Proof.P.Variance.lean ====
import Idealize.ShloMosaic.PureOps.Ideal
import Mathlib.Tactic.FieldSimp
import Mathlib.Tactic.Ring
import Mathlib.Tactic.NormNum

noncomputable section

namespace Cert.Spec

open Idealize.ShloMosaic
open scoped BigOperators

/-! # The two variance formulas agree

For 50000 real numbers `a i`, the mean of the squares less the square of the mean equals the mean of
the squared deviations from the mean. The statements are over the extended reals with the division
and the divisor spelt as the programs spell them; every quantity is shown to be the image of a real
number, and the identity is then one of real algebra. -/

/-- The single-precision word `0x47435000` denotes the real number 50000. -/
theorem nN_eq : Ideal.ofBits .f32 0x47435000#32 = ((50000 : ℝ) : EReal) := by
  simp [Ideal.ofBits, Ideal.ieee, -EReal.coe_mul]; norm_num

/-- A finite sum of images of reals is the image of the sum. -/
theorem ereal_sum_coe {ι : Type*} [Fintype ι] (f : ι → ℝ) :
    (∑ i, ((f i : ℝ) : EReal)) = ((∑ i, f i : ℝ) : EReal) := by
  classical
  refine Finset.induction_on (Finset.univ : Finset ι) (by simp) ?_
  intro i s hi ih
  rw [Finset.sum_insert hi, Finset.sum_insert hi, ih, EReal.coe_add]

/-- A real divided by the divisor word is the real quotient by 50000. -/
theorem div_N_coe (x : ℝ) :
    Ideal.div (x : EReal) (Ideal.ofBits .f32 0x47435000#32) = ((x / 50000 : ℝ) : EReal) := by
  rw [nN_eq, Ideal.div_coe (by norm_num), ← EReal.coe_mul, mul_one_div]

section
variable {ι : Type*} [Fintype ι]

/-- The mean is the image of the real mean. -/
theorem mean_coe (a : ι → ℝ) :
    Ideal.div (∑ i, (a i : EReal)) (Ideal.ofBits .f32 0x47435000#32)
      = (((∑ i, a i) / 50000 : ℝ) : EReal) := by
  rw [ereal_sum_coe, div_N_coe]

/-- The mean of the squares is the image of the real mean of the squares. -/
theorem meansq_coe (a : ι → ℝ) :
    Ideal.div (∑ i, ((a i : ℝ) : EReal) * (a i : EReal)) (Ideal.ofBits .f32 0x47435000#32)
      = (((∑ i, a i * a i) / 50000 : ℝ) : EReal) := by
  simp only [← EReal.coe_mul]
  rw [ereal_sum_coe, div_N_coe]

/-- The mean of the squares less the squared mean is the image of the same real expression. -/
theorem var_moments_coe (a : ι → ℝ) :
    Ideal.div (∑ i, ((a i : ℝ) : EReal) * (a i : EReal)) (Ideal.ofBits .f32 0x47435000#32)
        - Ideal.div (∑ i, (a i : EReal)) (Ideal.ofBits .f32 0x47435000#32)
          * Ideal.div (∑ i, (a i : EReal)) (Ideal.ofBits .f32 0x47435000#32)
      = (((∑ i, a i * a i) / 50000 - (∑ i, a i) / 50000 * ((∑ i, a i) / 50000) : ℝ) : EReal) := by
  rw [meansq_coe, mean_coe, ← EReal.coe_mul, ← EReal.coe_sub]

/-- The mean of the squared deviations from the mean is the image of the same real expression. -/
theorem var_deviations_coe (a : ι → ℝ) :
    Ideal.div (∑ i, ((a i : EReal) - Ideal.div (∑ j, (a j : EReal)) (Ideal.ofBits .f32 0x47435000#32))
        * ((a i : EReal) - Ideal.div (∑ j, (a j : EReal)) (Ideal.ofBits .f32 0x47435000#32)))
        (Ideal.ofBits .f32 0x47435000#32)
      = (((∑ i, (a i - (∑ j, a j) / 50000) * (a i - (∑ j, a j) / 50000)) / 50000 : ℝ) : EReal) := by
  rw [mean_coe]
  simp only [← EReal.coe_sub, ← EReal.coe_mul]
  rw [ereal_sum_coe, div_N_coe]

/-- The identity over the reals, for any finite family of 50000 numbers. -/
theorem variance_real (a : ι → ℝ) (hcard : (Fintype.card ι : ℝ) = 50000) :
    (∑ i, a i * a i) / 50000 - (∑ i, a i) / 50000 * ((∑ i, a i) / 50000)
      = (∑ i, (a i - (∑ j, a j) / 50000) * (a i - (∑ j, a j) / 50000)) / 50000 := by
  generalize hμ : (∑ j, a j) / 50000 = μ
  have hS : ∑ j, a j = 50000 * μ := by rw [← hμ]; ring
  have hexp : ∀ i, (a i - μ) * (a i - μ) = a i * a i - 2 * μ * a i + μ * μ := fun i => by ring
  have hsum : ∑ i, (a i - μ) * (a i - μ)
      = (∑ i, a i * a i) - 2 * μ * (∑ i, a i) + (Fintype.card ι : ℝ) * (μ * μ) := by
    simp only [hexp, Finset.sum_add_distrib, Finset.sum_sub_distrib, ← Finset.mul_sum, Finset.sum_const,
      Finset.card_univ, nsmul_eq_mul]
    ring
  rw [hsum, hcard, hS]
  ring

/-- The two variance formulas agree, as the programs spell them. -/
theorem variance_eq (a : ι → ℝ) (hcard : (Fintype.card ι : ℝ) = 50000) :
    Ideal.div (∑ i, ((a i : ℝ) : EReal) * (a i : EReal)) (Ideal.ofBits .f32 0x47435000#32)
        - Ideal.div (∑ i, (a i : EReal)) (Ideal.ofBits .f32 0x47435000#32)
          * Ideal.div (∑ i, (a i : EReal)) (Ideal.ofBits .f32 0x47435000#32)
      = Ideal.div (∑ i, ((a i : EReal) - Ideal.div (∑ j, (a j : EReal)) (Ideal.ofBits .f32 0x47435000#32))
          * ((a i : EReal) - Ideal.div (∑ j, (a j : EReal)) (Ideal.ofBits .f32 0x47435000#32)))
          (Ideal.ofBits .f32 0x47435000#32) := by
  rw [var_moments_coe, var_deviations_coe, variance_real a hcard]

/-- The same for a family of extended reals each of which is the image of a real. -/
theorem variance_eq_of_real (x : ι → EReal) (hx : ∀ i, ∃ r : ℝ, x i = (r : EReal))
    (hcard : (Fintype.card ι : ℝ) = 50000) :
    Ideal.div (∑ i, x i * x i) (Ideal.ofBits .f32 0x47435000#32)
        - Ideal.div (∑ i, x i) (Ideal.ofBits .f32 0x47435000#32)
          * Ideal.div (∑ i, x i) (Ideal.ofBits .f32 0x47435000#32)
      = Ideal.div (∑ i, (x i - Ideal.div (∑ j, x j) (Ideal.ofBits .f32 0x47435000#32))
          * (x i - Ideal.div (∑ j, x j) (Ideal.ofBits .f32 0x47435000#32)))
          (Ideal.ofBits .f32 0x47435000#32) := by
  choose a ha using hx
  obtain rfl : x = fun i => ((a i : ℝ) : EReal) := funext ha
  exact variance_eq a hcard

end

end Cert.Spec

end
-- ==== Proof.M.Ints.lean ====
/- The integer side of the host chain: position 800000 + n of the extended target list is the self loop of node n.
   It holds the number n, which is not negative and so is left alone by the wrap; read as a signed integer it is n. -/
import proofs.«181293_j22840636080817_1_alg».proof.Proof.M.Chain
import Idealize.ShloMosaic.Lib.IdealHost
import Idealize.ShloMosaic.Lib.Pipeline.Value

noncomputable section

namespace Cert.KernelIdeal.Chain

open Cert.KernelIdeal Cert.KernelIdeal.Gen Idealize.ShloMosaic Idealize.ShloMosaic.ValueIdx
open scoped BigOperators

/-! ## The integers -/

/-- A word that is not negative is left alone by the wrap. -/
theorem wrap_word_nonneg (x : BitVec 32) (h : 0 ≤ x.toInt) :
    Scalar.select (IntOp.cmpi .slt x 0#32) (IntOp.addi x 50000#32) x = x := by
  have hs : x.slt 0#32 = false := by
    rw [BitVec.slt, BitVec.toInt_zero]
    exact decide_eq_false (by omega)
  unfold IntOp.cmpi Scalar.select
  simp only [hs]
  exact if_neg (by decide)

/-- The word of a number below 50000 reads, signed, as that number. -/
theorem toInt_ofNat_small (n : Nat) (h : n < 50000) : (BitVec.ofNat 32 n).toInt = (n : Int) := by
  rw [BitVec.toInt_eq_toNat_cond, BitVec.toNat_ofNat]
  have : n % 2 ^ 32 = n := Nat.mod_eq_of_lt (by omega)
  rw [this]
  split
  · rfl
  · omega

variable {F : FTy → Type} [FloatOps F]

/-- Position 800000 + n of the extended target list is the self loop of node n. -/
theorem colK_loop (ei : (⟨S2x800000, .i32⟩ : BufTy).Contents (Elt F)) (n : Fin 50000) :
    colK ei (ix1 (⟨800000 + n.val, by omega⟩ : Fin 850000)) = BitVec.ofNat 32 n.val := by
  unfold colK
  refine (concatenate_pair_apply_right (t := S850000) (s₁ := S800000) (s₂ := S50000) (0 : Fin 1) _ (loopsK (F := F))
    concatenates_S800000_S50000_S850000_d0 (ix1 (⟨800000 + n.val, by omega⟩ : Fin 850000)) rfl rfl (ix1 n) ?_ ?_).trans ?_
  · intro b hb
    match b with
    | ⟨0, _⟩ => exact absurd rfl hb
  · show n.val + 800000 = 800000 + n.val
    omega
  · rfl

/-- The wrap at a position, as a function of the word there. -/
theorem wrapK_apply (v : (⟨S850000, .i32⟩ : BufTy).Contents (Elt F)) (i : S850000.Idx) :
    wrapK v i = Scalar.select (IntOp.cmpi .slt (v i) 0#32) (IntOp.addi (v i) 50000#32) (v i) := rfl

/-- An index vector laid down a column reads, at (e, 0), its entry e. -/
theorem colOf_apply (v : (⟨S850000, .i32⟩ : BufTy).Contents (Elt F)) (e : Fin 850000) (u : Fin 1) :
    colOf v (ix2 e u) = v (ix1 e) := by
  unfold colOf
  have hn : (850000 : ℕ) ≠ 1 := by decide
  exact broadcastInDim_apply ![0] bcast_S850000_S850000x1_0 v (ix2 e u) (ix1 e) (fun a => by
    match a with
    | ⟨0, _⟩ => exact (if_neg hn).symm)

/-- The self loop of node n, wrapped, still names node n. -/
theorem target_loop (ei : (⟨S2x800000, .i32⟩ : BufTy).Contents (Elt F)) (n : Fin 50000) :
    (colOf (wrapK (colK ei)) (ix2 (⟨800000 + n.val, by omega⟩ : Fin 850000) (0 : Fin 1))).toInt = (n.val : Int) := by
  rw [colOf_apply, wrapK_apply, colK_loop, wrap_word_nonneg _ (by rw [toInt_ofNat_small _ n.isLt]; omega),
    toInt_ofNat_small _ n.isLt]

end Cert.KernelIdeal.Chain

end
-- ==== Proof.LibEdgeVec.lean ====
/-
  A vector gathered by an index column, and a vector of updates added into a vector at an index column, read at an
  entry: a general module. The lemmas are general in the two extents and, for the gather, in the element type.

  The vector has length N, the index column is E × 1 and the values handed around form a vector of length E.

  • Gather (what reading a flat array at an array of indices lowers to): entry e of the result is the vector's entry at
    index e, the index read as a signed integer and clamped into [0, N − 1] (`gather_vec_apply`).
  • Scatter-add (what a segment sum of scalars lowers to): update e lands on the entry that index e names, read as a
    signed integer and NOT clamped; an update whose index is outside [0, N) is dropped. So update e lands on entry n
    exactly when idx e = n (`vec_land_iff`), and over the extended reals entry n of the result is the vector's entry
    plus the sum, over the updates e whose index is n, of update e (`scatterAdd_vec_apply`).
  • A sum over a rank-1 index set is the sum over its one coordinate (`sum_idx1`).
-/
import Idealize.ShloMosaic.Lib.ValueIdx
import Idealize.ShloMosaic.PureOps.Ideal.Laws

noncomputable section

namespace Cert.LibEdgeVec

open Idealize.ShloMosaic Idealize.ShloMosaic.ValueIdx
open scoped BigOperators

/-! ## Sums over a rank-1 index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Entries gathered -/

/-- The dimension numbers of a gather of single entries: the result has no offset axis, the vector's one axis is
    collapsed and indexed by the one component of each start index. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT e: the vector at index e, read signed and clamped into [0, N − 1]. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Entries added in -/

/-- The dimension numbers of a scatter of single entries: the updates have no window axis, the vector's one axis is
    the inserted one, indexed by the one component of each scatter index. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)
  (idx : IVec ⟨2, ![E, 1]⟩ w) (e : Fin E)

theorem start_vec_zero : (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem window_vec_zero : (vecScatterDims N E wf).window (ix1 e) 0 = 0 := by
  unfold ScatterDims.window
  rw [dif_neg (by show ¬ (0 : Fin 1) ∈ (List.finRange 1).filter (fun a => a ∉ ([0] : List (Fin 1))); decide)]

/-- Update e lands on entry n exactly when index e, read signed, is n. -/
theorem vec_land_iff (n : Fin N) :
    (vecScatterDims N E wf).resultIdx? (ix1 e) idx = some (ix1 n)
      ↔ (idx (ix2 e (0 : Fin 1))).toInt = (n.val : Int) := by
  unfold ScatterDims.resultIdx?
  split
  · rename_i h
    rw [Option.some.injEq]
    constructor
    · intro hf
      have h0 := congrArg (fun f => (f 0).val) hf
      simp only [start_vec_zero, window_vec_zero] at h0
      have g0 := (h 0).1
      rw [start_vec_zero, window_vec_zero] at g0
      have : ((idx (ix2 e (0 : Fin 1))).toInt + ((0 : Nat) : Int)).toNat = n.val := h0
      omega
    · intro hn
      funext a
      obtain rfl : a = 0 := Subsingleton.elim _ _
      refine Fin.ext ?_
      show ((vecScatterDims N E wf).start (ix1 e) idx 0 + ((vecScatterDims N E wf).window (ix1 e) 0 : Int)).toNat = n.val
      rw [start_vec_zero, window_vec_zero, hn]; omega
  · rename_i h
    constructor
    · intro hf; exact absurd hf (by simp)
    · intro hn
      exfalso
      apply h
      intro a
      obtain rfl : a = 0 := Subsingleton.elim _ _
      show 0 ≤ (vecScatterDims N E wf).start (ix1 e) idx 0 + ((vecScatterDims N E wf).window (ix1 e) 0 : Int)
        ∧ (vecScatterDims N E wf).start (ix1 e) idx 0 + ((vecScatterDims N E wf).window (ix1 e) 0 : Int) < (N : Int)
      rw [start_vec_zero, window_vec_zero, hn]
      have := n.isLt
      omega

/-- THE SCATTER-ADD READ AT n, over the extended reals: the vector's entry plus the sum, over the updates whose index
    is n, of those updates. -/
theorem scatterAdd_vec_apply (x : (⟨1, ![N]⟩ : Shape).Idx → EReal) (upd : (⟨1, ![E]⟩ : Shape).Idx → EReal)
    (n : Fin N) :
    Ideal.hostScatterAdd (vecScatterDims N E wf) x idx upd (ix1 n)
      = x (ix1 n) + ∑ e : Fin E, if (idx (ix2 e (0 : Fin 1))).toInt = (n.val : Int) then upd (ix1 e) else 0 := by
  unfold Ideal.hostScatterAdd
  congr 1
  rw [Finset.sum_filter, sum_idx1]
  refine Finset.sum_congr rfl fun e _ => ?_
  simp only [vec_land_iff]

end Scatter

end Cert.LibEdgeVec

end
-- ==== Proof.LibEdgeRows.lean ====
/-
  A table's rows gathered by an index column, and rows added into a table at an index column, read at an entry — a
  general module: the lemmas are general in the three extents and, for the gather, in the element type.

  The table is N × C, the index column is E × 1 and the rows handed around are E × C.

  • Gather (what `table[idx]` along the first axis lowers to): entry (e, c) of the result is the table's entry
    (row, c), the row being index e read as a signed integer and clamped into [0, N − 1] (`gather_rows_apply`).
  • Scatter-add (what a segment sum lowers to): update row e lands on table row idx e, read as a signed integer and
    NOT clamped; a row whose index is outside [0, N) is dropped. So update entry (e, c') lands on table entry (n, c)
    exactly when idx e = n and c' = c (`rows_land_iff`), and over the extended reals entry (n, c) of the result is the
    table's entry plus the sum, over the rows e whose index is n, of update entry (e, c) (`scatterAdd_rows_apply`).
-/
import Idealize.ShloMosaic.Lib.ValueIdx
import Idealize.ShloMosaic.PureOps.Ideal.Laws

noncomputable section

namespace Cert.LibEdgeRows

open Idealize.ShloMosaic Idealize.ShloMosaic.ValueIdx

/-! ## Rows gathered -/

/-- The dimension numbers of a gather of whole rows: the result's second axis is the row's, the table's first axis is
    collapsed and indexed by the one component of each start index. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that index e selects: the index read signed and clamped into [0, N − 1]. -/
def rowOf {E w : Nat} (N : Nat) (hN : 0 < N) (idx : IVec ⟨2, ![E, 1]⟩ w) (e : Fin E) : Fin N :=
  ⟨min (idx (ix2 e (0 : Fin 1))).toInt.toNat (N - 1), by omega⟩

/-- THE GATHER READ AT (e, c): the table at (row selected by index e, c). -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf N hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (by show ¬ (1 : Fin 2) ∈ ([0] : List (Fin 2)); decide)]
    rw [hst]
    simp only [Nat.add_zero, Nat.zero_add]
    unfold GatherDims.offCoord
    rw [dif_pos (by show (1 : Fin 2) ∈ (List.finRange 2).filter (fun a => a ∉ (([0] : List (Fin 2)) ++ [])); decide)]
    rfl

/-! ## Rows added in -/

/-- The dimension numbers of a scatter of whole rows: the updates' second axis is the row's, the table's first axis
    is the inserted one, indexed by the one component of each scatter index. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

theorem start_rows_zero : (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_rows_one : (rowScatterDims N E C wf).start (ix2 e c) idx 1 = 0 := by
  unfold ScatterDims.start
  rw [dif_neg (by show ¬ (1 : Fin 2) ∈ ([0] : List (Fin 2)); decide)]

theorem window_rows_zero : (rowScatterDims N E C wf).window (ix2 e c) 0 = 0 := by
  unfold ScatterDims.window
  rw [dif_neg (by show ¬ (0 : Fin 2) ∈ (List.finRange 2).filter (fun a => a ∉ ([0] : List (Fin 2))); decide)]

theorem window_rows_one : (rowScatterDims N E C wf).window (ix2 e c) 1 = c.val := by
  unfold ScatterDims.window
  rw [dif_pos (by show (1 : Fin 2) ∈ (List.finRange 2).filter (fun a => a ∉ ([0] : List (Fin 2))); decide)]
  rfl

/-- Update entry (e, c) lands on table entry (n, q) exactly when index e, read signed, is n, and c = q. -/
theorem rows_land_iff (n : Fin N) (q : Fin C) :
    (rowScatterDims N E C wf).resultIdx? (ix2 e c) idx = some (ix2 n q)
      ↔ (idx (ix2 e (0 : Fin 1))).toInt = (n.val : Int) ∧ c = q := by
  unfold ScatterDims.resultIdx?
  split
  · rename_i h
    rw [Option.some.injEq]
    constructor
    · intro hf
      have h0 := congrArg (fun f => (f 0).val) hf
      have h1 := congrArg (fun f => (f 1).val) hf
      simp only [start_rows_zero, window_rows_zero, start_rows_one, window_rows_one] at h0 h1
      have g0 := (h 0).1
      rw [start_rows_zero, window_rows_zero] at g0
      refine ⟨?_, Fin.ext ?_⟩
      · have : ((idx (ix2 e (0 : Fin 1))).toInt + ((0 : Nat) : Int)).toNat = n.val := h0
        omega
      · have : ((0 : Int) + (c.val : Int)).toNat = q.val := h1
        omega
    · rintro ⟨hn, rfl⟩
      funext a
      refine Fin.ext ?_
      match a with
      | ⟨0, _⟩ =>
        show ((rowScatterDims N E C wf).start (ix2 e c) idx 0 + ((rowScatterDims N E C wf).window (ix2 e c) 0 : Int)).toNat = n.val
        rw [start_rows_zero, window_rows_zero, hn]; omega
      | ⟨1, _⟩ =>
        show ((rowScatterDims N E C wf).start (ix2 e c) idx 1 + ((rowScatterDims N E C wf).window (ix2 e c) 1 : Int)).toNat = c.val
        rw [start_rows_one, window_rows_one]; omega
  · rename_i h
    constructor
    · intro hf; exact absurd hf (by simp)
    · rintro ⟨hn, rfl⟩
      exfalso
      apply h
      intro a
      match a with
      | ⟨0, _⟩ =>
        show 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int) < (N : Int)
        rw [start_rows_zero, window_rows_zero, hn]
        have := n.isLt
        omega
      | ⟨1, _⟩ =>
        show 0 ≤ (rowScatterDims N E C wf).start (ix2 e c) idx 1 + ((rowScatterDims N E C wf).window (ix2 e c) 1 : Int)
          ∧ (rowScatterDims N E C wf).start (ix2 e c) idx 1 + ((rowScatterDims N E C wf).window (ix2 e c) 1 : Int) < (C : Int)
        rw [start_rows_one, window_rows_one]
        have := c.isLt
        omega

/-- THE SCATTER-ADD READ AT (n, q), over the extended reals: the table's entry plus the sum, over the update rows
    whose index is n, of their entry in column q. -/
theorem scatterAdd_rows_apply (x : (⟨2, ![N, C]⟩ : Shape).Idx → EReal) (upd : (⟨2, ![E, C]⟩ : Shape).Idx → EReal)
    (n : Fin N) (q : Fin C) :
    Ideal.hostScatterAdd (rowScatterDims N E C wf) x idx upd (ix2 n q)
      = x (ix2 n q) + ∑ e : Fin E, if (idx (ix2 e (0 : Fin 1))).toInt = (n.val : Int) then upd (ix2 e q) else 0 := by
  unfold Ideal.hostScatterAdd
  congr 1
  rw [Finset.sum_filter, sum_idx2]
  refine Finset.sum_congr rfl fun e _ => ?_
  simp only [rows_land_iff]
  by_cases hn : (idx (ix2 e (0 : Fin 1))).toInt = (n.val : Int)
  · simp only [hn, true_and, if_true]
    rw [Finset.sum_ite_eq' Finset.univ q (fun c => upd (ix2 e c))]
    simp
  · simp only [hn, false_and, if_false, Finset.sum_const_zero]

end Scatter

end Cert.LibEdgeRows

end
-- ==== Proof.M.HostOps.lean ====
/- The four index operations of the host chain and the inverse square root, read at an entry for ANY operands:
   a gathered entry is an entry of the source (an out-of-range index is clamped into range); an entry of a scatter-add
   is the operand's entry plus the sum of the updates whose index is that entry's.  Stated over variables, so that the
   chain's own terms are only ever rewritten with them, never unfolded. -/
import proofs.«181293_j22840636080817_1_alg».proof.Proof.Gen.KernelIdeal
import proofs.«181293_j22840636080817_1_alg».proof.Proof.LibEdgeVec
import proofs.«181293_j22840636080817_1_alg».proof.Proof.LibEdgeRows
import Idealize.ShloMosaic.Lib.IdealHost

noncomputable section

namespace Cert.KernelIdeal.Chain

open Cert.KernelIdeal Cert.KernelIdeal.Gen Idealize.ShloMosaic Idealize.ShloMosaic.ValueIdx
open scoped BigOperators

/-- The node a length-850000 index column names at position e: the index read signed, clamped into [0, 49999]. -/
def nodeOf (idx : IVec S850000x1 32) (e : Fin 850000) : Fin 50000 :=
  ⟨min (idx (ix2 e (0 : Fin 1))).toInt.toNat (50000 - 1), by omega⟩

/-- A vector of 50000 entries gathered by an index column reads, at e, the vector's entry at the node e names. -/
theorem gather_vec_host {α : Type} (x : S50000.Idx → α) (idx : IVec S850000x1 32) (e : Fin 850000) :
    Host.gather gather_S50000_S850000x1_S850000_n_0_n_n_0_1_1 x idx (ix1 e) = x (ix1 (nodeOf idx e)) :=
  Cert.LibEdgeVec.gather_vec_apply (N := 50000) (E := 850000) (by decide)
    gather_S50000_S850000x1_S850000_n_0_n_n_0_1_1_wf x idx e

/-- A 50000 x 128 table's rows gathered by an index column read, at (e, c), the table at (the node e names, c). -/
theorem gather_rows_host {α : Type} (x : S50000x128.Idx → α) (idx : IVec S850000x1 32) (e : Fin 850000) (c : Fin 128) :
    Host.gather gather_S50000x128_S850000x1_S850000x128_1_0_n_n_0_1_1128 x idx (ix2 e c) = x (ix2 (nodeOf idx e) c) :=
  Cert.LibEdgeRows.gather_rows_apply (N := 50000) (E := 850000) (C := 128) (by decide)
    gather_S50000x128_S850000x1_S850000x128_1_0_n_n_0_1_1128_wf x idx e c

/-- Entry n of a scatter-add of 850000 scalars into 50000: the operand's entry plus the updates whose index is n. -/
theorem scatterAdd_vec_host (x : FVec Ideal S50000 .f32) (idx : IVec S850000x1 32) (upd : FVec Ideal S850000 .f32) (n : Fin 50000) :
    Host.scatterAdd (F := Ideal) scatter_S50000_S850000x1_S850000_n_0_0_1 x idx upd (ix1 n)
      = x (ix1 n) + ∑ e : Fin 850000, if (idx (ix2 e (0 : Fin 1))).toInt = (n.val : Int) then upd (ix1 e) else 0 :=
  Cert.LibEdgeVec.scatterAdd_vec_apply (N := 50000) (E := 850000) scatter_S50000_S850000x1_S850000_n_0_0_1_wf idx x upd n

/-- Entry (n, q) of a scatter-add of 850000 rows into 50000 x 128: the operand's entry plus the update entries
    (e, q) of the rows e whose index is n. -/
theorem scatterAdd_rows_host (x : FVec Ideal S50000x128 .f32) (idx : IVec S850000x1 32) (upd : FVec Ideal S850000x128 .f32)
    (n : Fin 50000) (q : Fin 128) :
    Host.scatterAdd (F := Ideal) scatter_S50000x128_S850000x1_S850000x128_1_0_0_1 x idx upd (ix2 n q)
      = x (ix2 n q) + ∑ e : Fin 850000, if (idx (ix2 e (0 : Fin 1))).toInt = (n.val : Int) then upd (ix2 e q) else 0 :=
  Cert.LibEdgeRows.scatterAdd_rows_apply (N := 50000) (E := 850000) (C := 128)
    scatter_S50000x128_S850000x1_S850000x128_1_0_0_1_wf idx x upd n q

/-- The host's inverse square root, entry by entry. -/
theorem host_rsqrt_apply {s : Shape} (x : FVec Ideal s .f32) (i : s.Idx) : Host.rsqrt x i = Ideal.rsqrt (x i) := rfl

end Cert.KernelIdeal.Chain

end
-- ==== Proof.LibEdgeLinear.lean ====
/-
  Summing selected rows and then multiplying by a column is multiplying each row by the column and then summing the
  selected products — a general module: it depends on Mathlib only (through the ideal float instance's imports).

  For real numbers a(e, k) and w(k), and any selection D of the rows e,

      Σ over e with D e of ( Σ over k of a(e, k) · w(k) )  =  Σ over k of ( Σ over e with D e of a(e, k) ) · w(k),

  by distributing w(k) over the inner sum and exchanging the two sums. Over the extended reals the law is stated for
  entries that are real numbers (it fails at the infinities, where a factor does not distribute over a sum), and it is
  proved by moving both sides into the reals: a finite sum of real numbers read in the extended reals is the real
  sum read there (`coe_sum`).
-/
import Idealize.ShloMosaic.PureOps.Ideal.Laws

namespace Cert.LibEdgeLinear

open scoped BigOperators

/-- A finite sum of real numbers, read in the extended reals, is the sum of the numbers read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A selected real number, read in the extended reals. -/
theorem coe_ite (p : Prop) [Decidable p] (x : ℝ) : ((if p then x else 0 : ℝ) : EReal) = if p then (x : EReal) else 0 := by
  split <;> simp

/-- The law over the reals. -/
theorem select_sum_mul_real {E K : Nat} (D : Fin E → Prop) [DecidablePred D] (a : Fin E → Fin K → ℝ) (w : Fin K → ℝ) :
    (∑ e, if D e then ∑ k, a e k * w k else 0) = ∑ k, (∑ e, if D e then a e k else 0) * w k := by
  simp only [Finset.sum_mul]
  rw [Finset.sum_comm]
  refine Finset.sum_congr rfl fun e _ => ?_
  by_cases h : D e
  · simp only [h, if_true]
  · simp only [h, if_false, zero_mul, Finset.sum_const_zero]

/-- THE LAW over the extended reals, for real entries. -/
theorem select_sum_mul {E K : Nat} (D : Fin E → Prop) [DecidablePred D] (a : Fin E → Fin K → EReal) (w : Fin K → EReal)
    (ha : ∀ e k, ∃ r : ℝ, a e k = (r : EReal)) (hw : ∀ k, ∃ r : ℝ, w k = (r : EReal)) :
    (∑ e, if D e then ∑ k, a e k * w k else 0) = ∑ k, (∑ e, if D e then a e k else 0) * w k := by
  choose a' ha' using ha
  choose w' hw' using hw
  have ea : a = fun e k => ((a' e k : ℝ) : EReal) := funext fun e => funext fun k => ha' e k
  have ew : w = fun k => ((w' k : ℝ) : EReal) := funext fun k => hw' k
  subst ea ew
  have hl : (∑ e, if D e then ∑ k, ((a' e k : ℝ) : EReal) * ((w' k : ℝ) : EReal) else 0)
      = ((∑ e, if D e then ∑ k, a' e k * w' k else 0 : ℝ) : EReal) := by
    rw [coe_sum]
    refine Finset.sum_congr rfl fun e _ => ?_
    rw [coe_ite, coe_sum]
    simp only [EReal.coe_mul]
  have hr : (∑ k, (∑ e, if D e then ((a' e k : ℝ) : EReal) else 0) * ((w' k : ℝ) : EReal))
      = ((∑ k, (∑ e, if D e then a' e k else 0) * w' k : ℝ) : EReal) := by
    rw [coe_sum]
    refine Finset.sum_congr rfl fun k _ => ?_
    rw [EReal.coe_mul, coe_sum]
    simp only [coe_ite]
  rw [hl, hr, select_sum_mul_real]

end Cert.LibEdgeLinear
-- ==== Proof.M.Deg.lean ====
/- The degree of every node is a real number at least one, and its inverse square root is a real number.

   The degree of node n is zero plus one for every position of the extended target list that lands on n: a sum
   of zeros and ones.  The self loop of n lands on n, so the sum contains at least one one. -/
import proofs.«181293_j22840636080817_1_alg».proof.Proof.M.Ints
import proofs.«181293_j22840636080817_1_alg».proof.Proof.M.HostOps
import proofs.«181293_j22840636080817_1_alg».proof.Proof.LibEdgeLinear

noncomputable section

namespace Cert.KernelIdeal.Chain

open Cert.KernelIdeal Cert.KernelIdeal.Gen Idealize.ShloMosaic Idealize.ShloMosaic.ValueIdx
open scoped BigOperators

/-- A sum of selected ones, over the extended reals, is the real count. -/
theorem sum_ite_one {E : Nat} (p : Fin E → Prop) [DecidablePred p] :
    (∑ e : Fin E, if p e then (1 : EReal) else 0) = ((∑ e : Fin E, if p e then (1 : ℝ) else 0 : ℝ) : EReal) := by
  rw [Cert.LibEdgeLinear.coe_sum]
  refine Finset.sum_congr rfl fun e _ => ?_
  rw [Cert.LibEdgeLinear.coe_ite, EReal.coe_one]

/-- A count that contains a selected position is at least one. -/
theorem one_le_count {E : Nat} (p : Fin E → Prop) [DecidablePred p] (e0 : Fin E) (h0 : p e0) :
    (1 : ℝ) ≤ ∑ e : Fin E, if p e then (1 : ℝ) else 0 := by
  have h := Finset.single_le_sum (f := fun e : Fin E => if p e then (1 : ℝ) else 0)
    (fun e _ => by split <;> norm_num) (Finset.mem_univ e0)
  simpa [h0] using h

/-- A scatter-add of ones onto zeros counts: when position e0 names node n, entry n is a real number at least one. -/
theorem count_real (idx : IVec S850000x1 32) (n : Fin 50000) (e0 : Fin 850000)
    (h0 : (idx (ix2 e0 (0 : Fin 1))).toInt = (n.val : Int)) :
    ∃ r : ℝ, 1 ≤ r ∧
      Host.scatterAdd (F := Ideal) scatter_S50000_S850000x1_S850000_n_0_0_1
        (broadcastInDim S50000 ![] bcast_S_S50000 (constant (F := Ideal) S_ .f32 0x00000000#32)) idx
        (broadcastInDim S850000 ![] bcast_S_S850000 (constant (F := Ideal) S_ .f32 0x3F800000#32)) (ix1 n) = (r : EReal) := by
  refine ⟨∑ e : Fin 850000, if (idx (ix2 e (0 : Fin 1))).toInt = (n.val : Int) then (1 : ℝ) else 0,
    one_le_count _ e0 h0, ?_⟩
  rw [scatterAdd_vec_host, broadcastInDim_scalar_apply, constant_apply, Ideal.ofBits_zero_f32, zero_add, ← sum_ite_one]
  refine Finset.sum_congr rfl fun e _ => ?_
  rw [broadcastInDim_scalar_apply, constant_apply, Ideal.ofBits_one_f32]

/-- The degree of node n is a real number at least one. -/
theorem degK_real (ei : (⟨S2x800000, .i32⟩ : BufTy).Contents (Elt Ideal)) (n : Fin 50000) :
    ∃ r : ℝ, 1 ≤ r ∧ degK (F := Ideal) ei (ix1 n) = (r : EReal) := by
  unfold degK
  exact count_real _ n ⟨800000 + n.val, by omega⟩ (target_loop ei n)

/-- The inverse square root of a real number at least one is a real number. -/
theorem rsqrt_real (x : EReal) (h : ∃ r : ℝ, 1 ≤ r ∧ x = (r : EReal)) : ∃ r : ℝ, Ideal.rsqrt x = (r : EReal) := by
  obtain ⟨d, hd1, rfl⟩ := h
  refine ⟨(Real.sqrt d)⁻¹, ?_⟩
  rw [Ideal.rsqrt_coe, if_neg (by linarith), if_neg (by linarith)]

/-- The inverse square root of the degree of every node is a real number. -/
theorem dinvK_real (ei : (⟨S2x800000, .i32⟩ : BufTy).Contents (Elt Ideal)) (i : S50000.Idx) :
    ∃ r : ℝ, dinvK (F := Ideal) ei i = (r : EReal) := by
  obtain ⟨n, rfl⟩ : ∃ n : Fin 50000, i = ix1 n := ⟨i 0, eq_ix1 i⟩
  unfold dinvK
  rw [host_rsqrt_apply]
  exact rsqrt_real _ (degK_real ei n)

end Cert.KernelIdeal.Chain

end
-- ==== Proof.LibColRow.lean ====
/-
  A vector laid along a column or a row of a matrix, read at an index: the row-major recast [a] → [a, 1] at (i, u) is
  the vector's entry i; a vector broadcast down a column [n] → [n, 1] and then across the lanes [n, 1] → [n, k] reads
  its entry r at (r, q); a vector broadcast along a row [k] → [1, k] and then down the rows [1, k] → [n, k] reads its
  entry q at (r, q). General in the extents and in the element type.
-/
import Idealize.ShloMosaic.Lib.ValueIdx
import Idealize.ShloMosaic.Lib.Pipeline.Value

namespace Cert.LibColRow

open Idealize.ShloMosaic Idealize.ShloMosaic.ValueIdx

variable {α : Type}

/-- A vector recast as a column reads, at (i, u), its entry i, whatever the unit coordinate u. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector laid down a column and then across the lanes reads, at (r, q), its entry r. -/
theorem bcast_col_apply {n k : Nat} (hn : n ≠ 1)
    (h1 : (⟨1, ![n]⟩ : Shape).BroadcastsInDim ⟨2, ![n, 1]⟩ (![0] : Fin 1 → Fin 2))
    (h2 : (⟨2, ![n, 1]⟩ : Shape).BroadcastsInDim ⟨2, ![n, k]⟩ (![0, 1] : Fin 2 → Fin 2))
    (v : (⟨1, ![n]⟩ : Shape).Idx → α) (r : Fin n) (q : Fin k) :
    broadcastInDim ⟨2, ![n, k]⟩ ![0, 1] h2 (broadcastInDim ⟨2, ![n, 1]⟩ ![0] h1 v) (ix2 r q) = v (ix1 r) := by
  rw [broadcastInDim_apply ![0, 1] h2 _ (ix2 r q) (ix2 r 0) (fun a => by
    match a with
    | ⟨0, _⟩ => exact (if_neg hn).symm
    | ⟨1, _⟩ => exact (if_pos rfl).symm)]
  exact broadcastInDim_apply ![0] h1 v (ix2 r 0) (ix1 r) (fun a => by
    match a with
    | ⟨0, _⟩ => exact (if_neg hn).symm)

/-- A vector laid along a row and then down the rows reads, at (r, q), its entry q. -/
theorem bcast_row_apply {n k : Nat} (hk : k ≠ 1)
    (h1 : (⟨1, ![k]⟩ : Shape).BroadcastsInDim ⟨2, ![1, k]⟩ (![1] : Fin 1 → Fin 2))
    (h2 : (⟨2, ![1, k]⟩ : Shape).BroadcastsInDim ⟨2, ![n, k]⟩ (![0, 1] : Fin 2 → Fin 2))
    (v : (⟨1, ![k]⟩ : Shape).Idx → α) (r : Fin n) (q : Fin k) :
    broadcastInDim ⟨2, ![n, k]⟩ ![0, 1] h2 (broadcastInDim ⟨2, ![1, k]⟩ ![1] h1 v) (ix2 r q) = v (ix1 q) := by
  rw [broadcastInDim_apply ![0, 1] h2 _ (ix2 r q) (ix2 0 q) (fun a => by
    match a with
    | ⟨0, _⟩ => exact (if_pos rfl).symm
    | ⟨1, _⟩ => exact (if_neg hk).symm)]
  exact broadcastInDim_apply ![1] h1 v (ix2 0 q) (ix1 q) (fun a => by
    match a with
    | ⟨0, _⟩ => exact (if_neg hk).symm)

end Cert.LibColRow
-- ==== Proof.M.Real.lean ====
/- Every entry of the aggregated features is a real number when the projected features and the bias are.

   The weight of an extended edge is a product of two inverse square roots of degrees, each an entry of a table of
   real numbers (a gathered entry is an entry of the source: an out-of-range index is clamped into range).  A message
   entry is an entry of the feature table times the edge's weight.  The sum over the edges landing on a node is zero
   plus a finite sum of real numbers; adding the bias keeps it real. -/
import proofs.«181293_j22840636080817_1_alg».proof.Proof.M.Deg
import proofs.«181293_j22840636080817_1_alg».proof.Proof.LibColRow

noncomputable section

namespace Cert.KernelIdeal.Chain

open Cert.KernelIdeal Cert.KernelIdeal.Gen Idealize.ShloMosaic Idealize.ShloMosaic.ValueIdx
open scoped BigOperators

/-- A product of two real numbers is a real number. -/
theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

/-- A sum of two real numbers is a real number. -/
theorem add_real {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, (EReal.coe_add a b).symm⟩

/-- A finite sum of selected real numbers, over the extended reals, is a real number. -/
theorem sum_ite_real {E : Nat} (p : Fin E → Prop) [DecidablePred p] (f : Fin E → EReal)
    (hf : ∀ e, ∃ r : ℝ, f e = (r : EReal)) : ∃ r : ℝ, (∑ e : Fin E, if p e then f e else 0) = (r : EReal) := by
  choose g hg using hf
  refine ⟨∑ e : Fin E, if p e then g e else 0, ?_⟩
  rw [Cert.LibEdgeLinear.coe_sum]
  refine Finset.sum_congr rfl fun e _ => ?_
  rw [Cert.LibEdgeLinear.coe_ite, hg]

/-- The weight of every extended edge is a real number. -/
theorem normK_real (ei : (⟨S2x800000, .i32⟩ : BufTy).Contents (Elt Ideal)) (i : S850000.Idx) :
    ∃ r : ℝ, normK (F := Ideal) ei i = (r : EReal) := by
  obtain ⟨e, rfl⟩ : ∃ e : Fin 850000, i = ix1 e := ⟨i 0, eq_ix1 i⟩
  unfold normK
  rw [mulf_apply, gather_vec_host, gather_vec_host]
  exact mul_real (dinvK_real ei _) (dinvK_real ei _)

/-- The weight laid down a column and across the 128 lanes reads, at (e, c), the weight of edge e. -/
theorem norm_lanes_apply (v : FVec Ideal S850000 .f32) (e : Fin 850000) (c : Fin 128) :
    broadcastInDim S850000x128 ![0, 1] bcast_S850000x1_S850000x128_0_1
      (broadcastInDim S850000x1 ![0] bcast_S850000_S850000x1_0 v) (ix2 e c) = v (ix1 e) :=
  Cert.LibColRow.bcast_col_apply (n := 850000) (k := 128) (by decide) bcast_S850000_S850000x1_0
    bcast_S850000x1_S850000x128_0_1 v e c

/-- A vector of 128 laid along a row and down the 50000 rows reads, at (n, q), its entry q. -/
theorem bias_rows_apply (v : FVec Ideal S128 .f32) (n : Fin 50000) (q : Fin 128) :
    broadcastInDim S50000x128 ![0, 1] bcast_S1x128_S50000x128_0_1
      (broadcastInDim S1x128 ![1] bcast_S128_S1x128_1 v) (ix2 n q) = v (ix1 q) :=
  Cert.LibColRow.bcast_row_apply (n := 50000) (k := 128) (by decide) bcast_S128_S1x128_1
    bcast_S1x128_S50000x128_0_1 v n q

/-- Every message entry is a real number. -/
theorem msgK_real (h : (⟨S50000x128, .f32⟩ : BufTy).Contents (Elt Ideal)) (ei : (⟨S2x800000, .i32⟩ : BufTy).Contents (Elt Ideal))
    (hh : ∀ i, ∃ r : ℝ, h i = (r : EReal)) (e : Fin 850000) (c : Fin 128) :
    ∃ r : ℝ, msgK (F := Ideal) h ei (ix2 e c) = (r : EReal) := by
  unfold msgK
  rw [mulf_apply, gather_rows_host, norm_lanes_apply]
  exact mul_real (hh _) (normK_real ei _)

/-- Every entry of the per-node sums of the messages is a real number. -/
theorem sumK_real (h : (⟨S50000x128, .f32⟩ : BufTy).Contents (Elt Ideal)) (ei : (⟨S2x800000, .i32⟩ : BufTy).Contents (Elt Ideal))
    (hh : ∀ i, ∃ r : ℝ, h i = (r : EReal)) (n : Fin 50000) (q : Fin 128) :
    ∃ r : ℝ, sumK (F := Ideal) h ei (ix2 n q) = (r : EReal) := by
  unfold sumK
  rw [scatterAdd_rows_host, broadcastInDim_scalar_apply, constant_apply, Ideal.ofBits_zero_f32, zero_add]
  exact sum_ite_real (fun e : Fin 850000 => (colOf (colK ei) (ix2 e (0 : Fin 1))).toInt = (n.val : Int))
    (fun e => msgK (F := Ideal) h ei (ix2 e q)) (fun e => msgK_real h ei hh e q)

/-- Every entry of the aggregated features is a real number. -/
theorem aggK_real (h : (⟨S50000x128, .f32⟩ : BufTy).Contents (Elt Ideal)) (bias : (⟨S128, .f32⟩ : BufTy).Contents (Elt Ideal))
    (ei : (⟨S2x800000, .i32⟩ : BufTy).Contents (Elt Ideal))
    (hh : ∀ i, ∃ r : ℝ, h i = (r : EReal)) (hb : ∀ j, ∃ r : ℝ, bias j = (r : EReal)) :
    ∀ i, ∃ r : ℝ, aggK (F := Ideal) h bias ei i = (r : EReal) := by
  intro i
  obtain ⟨n, q, rfl⟩ : ∃ (n : Fin 50000) (q : Fin 128), i = ix2 n q := ⟨i 0, i 1, eq_ix2 i⟩
  unfold aggK biasRowsK
  rw [addf_apply, bias_rows_apply]
  exact add_real (sumK_real h ei hh n q) (hb _)

end Cert.KernelIdeal.Chain

end
-- ==== Proof.LibFiniteTest.lean ====
/-
  The elementwise finiteness test, read over the extended reals — a general module: it depends only on the ideal
  float instance.

  A precondition "every entry is finite" compares |x| with the f32 word of +∞, 0x7F800000, entry by entry, and reduces
  the one-bit answers by "and". Over the extended reals |x| = max x (−x), the word denotes +∞ (`inf_word`), and
  |x| < +∞ holds exactly when x is neither infinity; so an entry that passes the test is a real number
  (`real_of_test`). A one-bit word made from a Boolean is 1 only for true (`true_of_ofBool_one`).
-/
import Idealize.ShloMosaic.PureOps.Ideal.Laws

noncomputable section

namespace Cert.LibFiniteTest

open Idealize.ShloMosaic

/-- The f32 word 0x7F800000 is +∞. -/
theorem inf_word : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ q : ℝ, x = (q : EReal) := by
  induction x using EReal.rec with
  | bot => simp at h
  | coe q => exact ⟨q, rfl⟩
  | top => simp at h

/-- A one-bit word made from a Boolean is 1 only for true. -/
theorem true_of_ofBool_one {b : Bool} (h : BitVec.ofBool b = 1#1) : b = true := by
  cases b
  · exact absurd h (by decide)
  · rfl

/-- The elementwise test |x| < +∞ against the word of +∞, passed, gives a real number. -/
theorem real_of_test (x : EReal) (h : Ideal.cmp .olt (max x (-x)) (Ideal.ofBits .f32 0x7F800000#32) = 1#1) :
    ∃ q : ℝ, x = (q : EReal) := by
  rw [inf_word] at h
  exact real_of_abs_lt_top x (of_decide_eq_true (true_of_ofBool_one h))

end Cert.LibFiniteTest

end
-- ==== Proof.M.Pre.lean ====
/- From the precondition to real entries.  The precondition tests every float input entry by entry, |x| < +inf,
   reduces each array's answers by "and", and joins the five answers by "and"; that the result is one says every
   entry of every float input passed its test, and an extended real whose absolute value is below +inf is a real
   number. -/
import proofs.«181293_j22840636080817_1_alg».proof.Defs
import proofs.«181293_j22840636080817_1_alg».proof.Proof.Gen.Pre_finite_inputs
import proofs.«181293_j22840636080817_1_alg».proof.Proof.LibFiniteTest
import Idealize.ShloMosaic.Lib.ReduceAll
import Idealize.ShloMosaic.Lib.ValueIdx

noncomputable section

namespace Cert.KernelIdeal.Chain

open Idealize.ShloMosaic Idealize.ShloMosaic.ValueIdx Idealize.SL.Sem

/-- A rank-0 array has one index. -/
instance subsingleton_scalar_idx : Subsingleton Cert.Pre_finite_inputs.S_.Idx := ⟨fun a b => funext fun d => d.elim0⟩

/-- One array's test: when the "and" of the entrywise tests |x| < +inf is one, every entry is a real number. -/
theorem real_of_all_test {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi (cmpf .olt (Host.absf x) (broadcastInDim s ![] hb (constant (F := Ideal) Cert.Pre_finite_inputs.S_ .f32 0x7F800000#32)))
          (constantI Cert.Pre_finite_inputs.S_ 1 1#1) hr hu ix0 = 1#1) :
    ∀ i, ∃ r : ℝ, x i = (r : EReal) := fun i =>
  Cert.LibFiniteTest.real_of_test (x i) (Host.reduce_andi_all _ _ hr hu ix0 h i)

/-- The printed precondition, passed, says every entry of the five float inputs is a real number. -/
theorem real_of_pre (a0 : FVec Ideal Cert.Pre_finite_inputs.S50000x128 .f32) (a1 : FVec Ideal Cert.Pre_finite_inputs.S128x128 .f32)
    (a2 a3 a4 : FVec Ideal Cert.Pre_finite_inputs.S128 .f32) (a5 : IVec Cert.Pre_finite_inputs.S2x800000 32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1] at h0
  obtain ⟨h0123, t4⟩ := IntOp.andi_eq_one.1 h0
  obtain ⟨h012, t3⟩ := IntOp.andi_eq_one.1 h0123
  obtain ⟨h01, t2⟩ := IntOp.andi_eq_one.1 h012
  obtain ⟨t0, t1⟩ := IntOp.andi_eq_one.1 h01
  exact ⟨real_of_all_test a0 _ _ _ t0, real_of_all_test a1 _ _ _ t1, real_of_all_test a2 _ _ _ t2,
    real_of_all_test a3 _ _ _ t3, real_of_all_test a4 _ _ _ t4⟩

section
variable (m : (ℓ : Loc Cert.KernelIdeal.nD Cert.KernelIdeal.τ Cert.KernelIdeal.sig) → Buf (Elt Ideal) ℓ)
  (hpre : Cert.Pre_KernelIdeal (hPre_finite_inputs := Cert.Pre_finite_inputs.Gen.facts) m) (c : Dev Cert.KernelIdeal.nD)
include hpre

theorem pre_real_arg0 : ∀ i, ∃ r : ℝ,
    m ((c.tc : Thread Cert.KernelIdeal.nD Cert.KernelIdeal.τ).loc Cert.KernelIdeal.main_arg0) i = (r : EReal) :=
  (real_of_pre _ _ _ _ _ _ (hpre c)).1

theorem pre_real_arg1 : ∀ i, ∃ r : ℝ,
    m ((c.tc : Thread Cert.KernelIdeal.nD Cert.KernelIdeal.τ).loc Cert.KernelIdeal.main_arg1) i = (r : EReal) :=
  (real_of_pre _ _ _ _ _ _ (hpre c)).2.1

theorem pre_real_arg2 : ∀ i, ∃ r : ℝ,
    m ((c.tc : Thread Cert.KernelIdeal.nD Cert.KernelIdeal.τ).loc Cert.KernelIdeal.main_arg2) i = (r : EReal) :=
  (real_of_pre _ _ _ _ _ _ (hpre c)).2.2.1

theorem pre_real_arg3 : ∀ i, ∃ r : ℝ,
    m ((c.tc : Thread Cert.KernelIdeal.nD Cert.KernelIdeal.τ).loc Cert.KernelIdeal.main_arg3) i = (r : EReal) :=
  (real_of_pre _ _ _ _ _ _ (hpre c)).2.2.2.1

theorem pre_real_arg4 : ∀ i, ∃ r : ℝ,
    m ((c.tc : Thread Cert.KernelIdeal.nD Cert.KernelIdeal.τ).loc Cert.KernelIdeal.main_arg4) i = (r : EReal) :=
  (real_of_pre _ _ _ _ _ _ (hpre c)).2.2.2.2

end

end Cert.KernelIdeal.Chain

end
-- ==== Proof.M.Dot.lean ====
/- A finite sum of products of real numbers is a real number: every entry of the product of a 50000 x 128 table
   of real numbers with a 128 x 128 table of real numbers is a real number. -/
import proofs.«181293_j22840636080817_1_alg».proof.KernelIdeal
import proofs.«181293_j22840636080817_1_alg».proof.Proof.LibEdgeLinear
import Idealize.ShloMosaic.Lib.ValueIdx

noncomputable section

namespace Cert.KernelIdeal.Chain

open Cert.KernelIdeal Idealize.ShloMosaic Idealize.ShloMosaic.ValueIdx
open scoped BigOperators

/-- A finite sum of products of real numbers, over the extended reals, is a real number. -/
theorem sum_mul_real {K : Nat} (a b : Fin K → EReal) (ha : ∀ k, ∃ r : ℝ, a k = (r : EReal)) (hb : ∀ k, ∃ r : ℝ, b k = (r : EReal)) :
    ∃ r : ℝ, (∑ k : Fin K, a k * b k) = (r : EReal) := by
  choose a' ha' using ha
  choose b' hb' using hb
  refine ⟨∑ k : Fin K, a' k * b' k, ?_⟩
  rw [Cert.LibEdgeLinear.coe_sum]
  refine Finset.sum_congr rfl fun k _ => ?_
  rw [ha', hb', EReal.coe_mul]

/-- Every entry of the projected features is a real number. -/
theorem dot_real (x : FVec Ideal S50000x128 .f32) (w : FVec Ideal S128x128 .f32)
    (hx : ∀ i, ∃ r : ℝ, x i = (r : EReal)) (hw : ∀ i, ∃ r : ℝ, w i = (r : EReal)) (p : Fin 50000) (q : Fin 128) :
    ∃ r : ℝ, (∑ k : Fin 128, x (ix2 p k) * w (ix2 k q)) = (r : EReal) :=
  sum_mul_real (fun k => x (ix2 p k)) (fun k => w (ix2 k q)) (fun k => hx _) (fun k => hw _)

end Cert.KernelIdeal.Chain

end
-- ==== Proof.LibAxisReads.lean ====
/-
  Reductions of a matrix along one axis, and a column laid across the lanes, read at an index — general in the
  extents.
  At the exact values a maximum reduction of an [a, b] array along its second axis, started from the pattern of -∞, is at
  row p the fold of `max` from the bottom element over the row's entries (`rowMax_apply`); along its first axis it is
  at column q the fold over the column's entries (`colMax_apply`); an add reduction along the first axis is at column q
  the sum of the column's entries (`colSum_apply`). An [a, 1] column broadcast to [a, b] reads, at (p, c), the
  column's entry p (`broadcastTo_a1_ab_apply`).
-/
import Idealize.ShloMosaic.Lib.ValueIdx
import Idealize.ShloMosaic.Lib.Pipeline.Value
import Idealize.ShloMosaic.PureOps.Ideal.Laws

namespace Cert.LibAxisReads

open Idealize.ShloMosaic Idealize.ShloMosaic.ValueIdx
open scoped BigOperators

/-- The f32 pattern of -∞ is the bottom element of the extended reals. -/
theorem ofBits_negInf_f32 : Ideal.ofBits .f32 0xFF800000#32 = (⊥ : EReal) := by simp [Ideal.ofBits, Ideal.ieee]

/-- An [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index a reduction along the second axis inserts over row p at coordinate n is (p, n). -/
theorem lift_row {a b : ℕ} (h : (⟨2, ![a, b]⟩ : Shape).Reduces [1] ⟨1, ![a]⟩) (p : Fin a) (n : Fin b) :
    h.lift (ix1 p) n = ix2 p n :=
  funext fun c => Fin.ext (by match c with | ⟨0, _⟩ => rfl | ⟨1, _⟩ => rfl)

/-- The source index a reduction along the first axis inserts over column q at coordinate n is (n, q). -/
theorem lift_col {a b : ℕ} (h : (⟨2, ![a, b]⟩ : Shape).Reduces [0] ⟨1, ![b]⟩) (q : Fin b) (n : Fin a) :
    h.lift (ix1 q) n = ix2 n q :=
  funext fun c => Fin.ext (by match c with | ⟨0, _⟩ => rfl | ⟨1, _⟩ => rfl)

/-- A maximum reduction along the second axis from -∞, at row p: the fold of `max` over the row's entries. -/
theorem rowMax_apply {a b : ℕ} (X : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ X 0xFF800000#32 h hφ hacc (ix1 p)
      = (Finset.univ : Finset (Fin b)).fold max (⊥ : EReal) (fun n => X (ix2 p n)) := by
  refine (Ideal.multiReduction_maximumf_single X _ h hφ hacc (ix1 p)).trans ?_
  show (Finset.univ : Finset (Fin b)).fold max (Ideal.ofBits .f32 0xFF800000#32) (fun n => X (h.lift (ix1 p) n)) = _
  rw [ofBits_negInf_f32]
  exact congrArg (fun f => Finset.fold max (⊥ : EReal) f (Finset.univ : Finset (Fin b)))
    (funext fun n => congrArg X (lift_row h p n))

/-- A maximum reduction along the first axis from -∞, at column q: the fold of `max` over the column's entries. -/
theorem colMax_apply {a b : ℕ} (X : FVec Ideal ⟨2, ![a, b]⟩ .f32) (h : (⟨2, ![a, b]⟩ : Shape).Reduces [0] ⟨1, ![b]⟩)
    (hφ : FKind.Formats .f32) (hacc : (0xFF800000#32 : BitVec 32) = FKind.maximumf.neutral .f32 hφ) (q : Fin b) :
    multiReduction .maximumf [0] ⟨1, ![b]⟩ X 0xFF800000#32 h hφ hacc (ix1 q)
      = (Finset.univ : Finset (Fin a)).fold max (⊥ : EReal) (fun n => X (ix2 n q)) := by
  refine (Ideal.multiReduction_maximumf_single X _ h hφ hacc (ix1 q)).trans ?_
  show (Finset.univ : Finset (Fin a)).fold max (Ideal.ofBits .f32 0xFF800000#32) (fun n => X (h.lift (ix1 q) n)) = _
  rw [ofBits_negInf_f32]
  exact congrArg (fun f => Finset.fold max (⊥ : EReal) f (Finset.univ : Finset (Fin a)))
    (funext fun n => congrArg X (lift_col h q n))

/-- An add reduction along the first axis, at column q: the sum of the column's entries. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (q : Fin b) :
    multiReduction .add [0] ⟨1, ![b]⟩ X 0x00000000#32 h hφ hacc (ix1 q) = ∑ n : Fin a, X (ix2 n q) := by
  refine (Ideal.multiReduction_add_single X _ h hφ hacc (ix1 q)).trans ?_
  show ∑ n : Fin a, X (h.lift (ix1 q) n) = _
  exact Finset.sum_congr rfl fun n _ => congrArg X (lift_col h q n)

end Cert.LibAxisReads
-- ==== Proof.R.Tail.lean ====
import proofs.«181293_j22840636080817_1_alg».proof.Proof.R.Spec
import proofs.«181293_j22840636080817_1_alg».proof.Proof.LibAxisReads
import Idealize.ShloMosaic.Lib.Pipeline.Value
import Idealize.ShloMosaic.Lib.ValueIdx
import Idealize.ShloMosaic.PureOps.Ideal.Laws

noncomputable section

namespace Cert.ReferenceIdeal.RefRun

open Cert.ReferenceIdeal Cert.ReferenceIdeal.Gen Idealize.ShloMosaic Idealize.ShloMosaic.ValueIdx
open scoped BigOperators

/-! The normalization layer read at an entry, at the exact values: the column's mean and variance are the sums over the
    50000 nodes divided by the node count, the entry is centred, scaled by the reciprocal square root of the variance plus
    ε, by the column's scale, shifted by the column's shift, and cut at zero. -/

/-- The node count as the program spells it: the f32 word of 50000. -/
def bnN : EReal := Ideal.ofBits .f32 0x47435000#32

/-- Column `q`'s mean over the nodes. -/
def bnMean (agg : FVec Ideal S50000x128 .f32) (q : Fin 128) : EReal :=
  Ideal.div (∑ n : Fin 50000, agg (ix2 n q)) bnN

/-- Column `q`'s variance over the nodes: the mean of the squared deviations from the column's mean. -/
def bnVar (agg : FVec Ideal S50000x128 .f32) (q : Fin 128) : EReal :=
  Ideal.div (∑ n : Fin 50000, (agg (ix2 n q) - bnMean agg q) * (agg (ix2 n q) - bnMean agg q)) bnN

/-- The word of 50000 denotes the real 50000. -/
theorem bnN_eq : bnN = ((50000 : ℝ) : EReal) := by
  unfold bnN
  simp [Ideal.ofBits, Ideal.ieee, -EReal.coe_mul]; norm_num

theorem bnN_pos : (0 : EReal) < bnN := by
  rw [bnN_eq]; exact_mod_cast (by norm_num : (0 : ℝ) < 50000)

/-- A scalar broadcast to any shape reads, everywhere, the scalar. -/
theorem bc0_apply {α : Type} {t : Shape} (dims : Fin S_.rank → Fin t.rank) (h : S_.BroadcastsInDim t dims) (x : S_.Idx → α)
    (j : t.Idx) : broadcastInDim t dims h x j = x ix0 := by
  unfold broadcastInDim
  exact congrArg x (funext fun a => a.elim0)

/-- A vector laid as a row reads, at `(u, q)`, its entry `q`. -/
theorem bc_vec_row {α : Type} (v : S128.Idx → α) (u : Fin 1) (q : Fin 128) :
    broadcastInDim S1x128 ![1] bcast_S128_S1x128_1 v (ix2 u q) = v (ix1 q) :=
  broadcastInDim_apply _ _ v _ _ (fun a => by match a with | ⟨0, _⟩ => rfl)

/-- A row repeated down the nodes reads, at `(n, q)`, the row's entry `(0, q)`. -/
theorem bc_row_rows {α : Type} (y : S1x128.Idx → α) (n : Fin 50000) (q : Fin 128) :
    broadcastInDim S50000x128 ![0, 1] bcast_S1x128_S50000x128_0_1 y (ix2 n q) = y (ix2 (0 : Fin 1) q) :=
  broadcastInDim_apply _ _ y _ _ (fun a => by match a with | ⟨0, _⟩ => rfl | ⟨1, _⟩ => rfl)

/-- The host's add reduction over the node axis reads, at column `q`, the initial value plus the column's sum. -/
theorem colSum_host (X : FVec Ideal S50000x128 .f32) (init : FVec Ideal S_ .f32) (q : Fin 128) :
    Host.reduceAdd (F := Ideal) X init reducesTo_S50000x128_S128_d0 h_S_ (ix1 q) = init ix0 + ∑ n : Fin 50000, X (ix2 n q) := by
  have hR : S50000x128.Reduces [0] S128 := by decide
  refine (Ideal.hostReduceAdd_single reducesTo_S50000x128_S128_d0 hR X _ (ix1 q)).trans ?_
  show init _ + ∑ n : Fin 50000, X (hR.lift (ix1 q) n) = _
  rw [show Shape.Idx.first h_S_ = ix0 from funext fun a => a.elim0]
  exact congrArg _ (Finset.sum_congr rfl fun n _ => congrArg X (Cert.LibAxisReads.lift_col hR q n))

/-! ### The layer's intermediate vectors, named -/

/-- The scalar constants the layer spells: zero, the node count, ε and the not-a-number word. -/
abbrev c0 : FVec Ideal S_ .f32 := constant (F := Ideal) S_ .f32 0x00000000#32
abbrev cN : FVec Ideal S_ .f32 := constant (F := Ideal) S_ .f32 0x47435000#32
abbrev cEps : FVec Ideal S_ .f32 := constant (F := Ideal) S_ .f32 0x3727C5AC#32
abbrev cNaN : FVec Ideal S_ .f32 := constant (F := Ideal) S_ .f32 0x7FC00000#32

/-- A per-column vector laid as a row and repeated down the nodes. -/
def rows {α : Type} (v : S128.Idx → α) : S50000x128.Idx → α :=
  broadcastInDim S50000x128 ![0, 1] bcast_S1x128_S50000x128_0_1 (broadcastInDim S1x128 ![1] bcast_S128_S1x128_1 v)

/-- The column means, as the layer computes them for the centring. -/
def meanV (agg : FVec Ideal S50000x128 .f32) : FVec Ideal S128 .f32 :=
  Host.divf (Host.reduceAdd agg c0 reducesTo_S50000x128_S128_d0 h_S_) (broadcastInDim S128 ![] bcast_S_S128 cN)

/-- The column means kept as a row, as the variance computes them. -/
def meanRow (agg : FVec Ideal S50000x128 .f32) : FVec Ideal S1x128 .f32 :=
  Host.divf (broadcastInDim S1x128 ![1] bcast_S128_S1x128_1 (Host.reduceAdd agg c0 reducesTo_S50000x128_S128_d0 h_S_))
    (broadcastInDim S1x128 ![] bcast_S_S1x128 cN)

/-- The deviations from the column means. -/
def devV (agg : FVec Ideal S50000x128 .f32) : FVec Ideal S50000x128 .f32 :=
  subf agg (broadcastInDim S50000x128 ![0, 1] bcast_S1x128_S50000x128_0_1 (meanRow agg))

/-- The variance's divisor: the node count less the zero degrees of freedom. -/
def divisorV : FVec Ideal S_ .f32 := subf cN (sitofp .f32 (constantI S_ 32 0#32))

/-- The column variances: the mean squared deviation where the divisor is positive, the not-a-number word elsewhere. -/
def varV (agg : FVec Ideal S50000x128 .f32) : FVec Ideal S128 .f32 :=
  select (broadcastInDim S128 ![] bcast_S_S128 (cmpf .ogt divisorV c0))
    (Host.divf (Host.reduceAdd (mulf (devV agg) (devV agg)) c0 reducesTo_S50000x128_S128_d0 h_S_)
      (broadcastInDim S128 ![] bcast_S_S128 divisorV))
    (broadcastInDim S128 ![] bcast_S_S128 (id cNaN))

/-- The layer is these vectors' composition. -/
theorem tailT_eq (agg : FVec Ideal S50000x128 .f32) (gamma beta : FVec Ideal S128 .f32) :
    tailT (F := Ideal) agg gamma beta
      = maximumf (addf (mulf (mulf (subf agg (rows (meanV agg)))
            (rows (Host.rsqrt (addf (varV agg) (broadcastInDim S128 ![] bcast_S_S128 cEps))))) (rows gamma)) (rows beta))
          (broadcastInDim S50000x128 ![] bcast_S_S50000x128 c0) := rfl

/-! ### Each read at an entry -/

theorem rows_apply {α : Type} (v : S128.Idx → α) (n : Fin 50000) (q : Fin 128) : rows v (ix2 n q) = v (ix1 q) :=
  (bc_row_rows _ n q).trans (bc_vec_row v 0 q)

theorem meanV_apply (agg : FVec Ideal S50000x128 .f32) (q : Fin 128) : meanV agg (ix1 q) = bnMean agg q := by
  show Ideal.div (Host.reduceAdd agg c0 reducesTo_S50000x128_S128_d0 h_S_ (ix1 q))
    (broadcastInDim S128 ![] bcast_S_S128 cN (ix1 q)) = _
  rw [colSum_host, bc0_apply]
  show Ideal.div (Ideal.ofBits .f32 0x00000000#32 + ∑ n : Fin 50000, agg (ix2 n q)) bnN = _
  rw [Ideal.ofBits_zero_f32, zero_add]
  rfl

theorem meanRow_apply (agg : FVec Ideal S50000x128 .f32) (u : Fin 1) (q : Fin 128) : meanRow agg (ix2 u q) = bnMean agg q := by
  show Ideal.div (broadcastInDim S1x128 ![1] bcast_S128_S1x128_1 (Host.reduceAdd agg c0 reducesTo_S50000x128_S128_d0 h_S_) (ix2 u q))
    (broadcastInDim S1x128 ![] bcast_S_S1x128 cN (ix2 u q)) = _
  rw [bc_vec_row, colSum_host, bc0_apply]
  show Ideal.div (Ideal.ofBits .f32 0x00000000#32 + ∑ n : Fin 50000, agg (ix2 n q)) bnN = _
  rw [Ideal.ofBits_zero_f32, zero_add]
  rfl

theorem devV_apply (agg : FVec Ideal S50000x128 .f32) (n : Fin 50000) (q : Fin 128) :
    devV agg (ix2 n q) = agg (ix2 n q) - bnMean agg q := by
  show agg (ix2 n q) - broadcastInDim S50000x128 ![0, 1] bcast_S1x128_S50000x128_0_1 (meanRow agg) (ix2 n q) = _
  rw [bc_row_rows, meanRow_apply]

theorem divisorV_apply (k : S_.Idx) : divisorV k = bnN := by
  show Ideal.ofBits .f32 0x47435000#32 - ((((0#32 : BitVec 32).toInt : ℝ)) : EReal) = bnN
  have h0 : (0#32 : BitVec 32).toInt = 0 := by decide
  rw [h0, Int.cast_zero, EReal.coe_zero, sub_zero]
  rfl

theorem varV_apply (agg : FVec Ideal S50000x128 .f32) (q : Fin 128) : varV agg (ix1 q) = bnVar agg q := by
  show Scalar.select (broadcastInDim S128 ![] bcast_S_S128 (cmpf .ogt divisorV c0) (ix1 q))
    (Ideal.div (Host.reduceAdd (mulf (devV agg) (devV agg)) c0 reducesTo_S50000x128_S128_d0 h_S_ (ix1 q))
      (broadcastInDim S128 ![] bcast_S_S128 divisorV (ix1 q)))
    (broadcastInDim S128 ![] bcast_S_S128 (id cNaN) (ix1 q)) = _
  have hc : cmpf .ogt divisorV c0 ix0 = 1#1 := by
    show Ideal.cmp .ogt (divisorV ix0) (Ideal.ofBits .f32 0x00000000#32) = 1#1
    rw [divisorV_apply, Ideal.ofBits_zero_f32]
    show BitVec.ofBool (decide ((0 : EReal) < bnN)) = 1#1
    rw [decide_eq_true bnN_pos]
    rfl
  rw [bc0_apply, hc, select_one, colSum_host, bc0_apply, divisorV_apply]
  show Ideal.div (Ideal.ofBits .f32 0x00000000#32 + ∑ n : Fin 50000, devV agg (ix2 n q) * devV agg (ix2 n q)) bnN = _
  rw [Ideal.ofBits_zero_f32, zero_add]
  unfold bnVar
  exact congrArg (fun s => Ideal.div s bnN) (Finset.sum_congr rfl fun n _ => by rw [devV_apply])

/-- The normalization layer at entry `(n, q)`. -/
theorem tailT_apply (agg : FVec Ideal S50000x128 .f32) (gamma beta : FVec Ideal S128 .f32) (n : Fin 50000) (q : Fin 128) :
    tailT (F := Ideal) agg gamma beta (ix2 n q)
      = max (((agg (ix2 n q) - bnMean agg q) * Ideal.rsqrt (bnVar agg q + Ideal.ofBits .f32 0x3727C5AC#32)) * gamma (ix1 q) + beta (ix1 q)) 0 := by
  rw [tailT_eq]
  show max ((agg (ix2 n q) - rows (meanV agg) (ix2 n q))
      * rows (Host.rsqrt (addf (varV agg) (broadcastInDim S128 ![] bcast_S_S128 cEps))) (ix2 n q) * rows gamma (ix2 n q)
      + rows beta (ix2 n q)) (broadcastInDim S50000x128 ![] bcast_S_S50000x128 c0 (ix2 n q)) = _
  rw [rows_apply, rows_apply, rows_apply, rows_apply, bc0_apply, meanV_apply]
  show max ((agg (ix2 n q) - bnMean agg q)
      * Ideal.rsqrt (varV agg (ix1 q) + broadcastInDim S128 ![] bcast_S_S128 cEps (ix1 q)) * gamma (ix1 q)
      + beta (ix1 q)) (Ideal.ofBits .f32 0x00000000#32) = _
  rw [varV_apply, bc0_apply, Ideal.ofBits_zero_f32]
  rfl

end Cert.ReferenceIdeal.RefRun

end
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.R.Dot.lean ====
import proofs.«181293_j22840636080817_1_alg».proof.Proof.R.Spec
import proofs.«181293_j22840636080817_1_alg».proof.Proof.LibPlainDot
import Idealize.ShloMosaic.Lib.ValueIdx
import Idealize.ShloMosaic.PureOps.Ideal.Laws

noncomputable section

namespace Cert.ReferenceIdeal.RefRun

open Cert.ReferenceIdeal Cert.ReferenceIdeal.Gen Idealize.ShloMosaic Idealize.ShloMosaic.ValueIdx
open scoped BigOperators

/-! The dense product read at an entry, at the exact values: row `n` of `x` against column `q` of `w`, summed over the
    128 contracted positions. -/

/-- The product's dimension numbers are the plain ones of a 50000×128 by 128×128 product: the left operand contracted on
    its columns, the right on its rows, no batch axis. -/
theorem dot_dims_plain : dot_S50000x128_S128x128_S50000x128_1_0_0_1_n_n = DotDims.plain 50000 128 128 := rfl

/-- The dense product at entry `(n, q)`. -/
theorem dotT_apply (x : FVec Ideal S50000x128 .f32) (w : FVec Ideal S128x128 .f32) (n : Fin 50000) (q : Fin 128) :
    dotT (F := Ideal) x w (ix2 n q) = ∑ k : Fin 128, x (ix2 n k) * w (ix2 k q) := by
  show FloatOps.dotGeneral dot_S50000x128_S128x128_S50000x128_1_0_0_1_n_n none .single x w (ix2 n q) = _
  rw [dot_dims_plain]
  exact Cert.LibPlainDot.dotGeneral_plain 50000 128 128 none .single x w (ix2 n q)

end Cert.ReferenceIdeal.RefRun

end
-- ==== Proof.R.Chain.lean ====
import proofs.«181293_j22840636080817_1_alg».proof.Proof.R.Spec
import proofs.«181293_j22840636080817_1_alg».proof.Proof.M.Chain

noncomputable section

namespace Cert.ReferenceIdeal.RefRun

open Idealize.ShloMosaic

/-! The reference's aggregation layer and the kernel program's host chain are one function: the same operations in the same
    order over the same shapes and dimension numbers, each program naming them in its own namespace. -/

set_option maxRecDepth 8192 in
theorem aggT_eq_aggK {F : FTy → Type} [FloatOps F] (h : (⟨Cert.ReferenceIdeal.S50000x128, .f32⟩ : BufTy).Contents (Elt F))
    (bias : (⟨Cert.ReferenceIdeal.S128, .f32⟩ : BufTy).Contents (Elt F))
    (ei : (⟨Cert.ReferenceIdeal.S2x800000, .i32⟩ : BufTy).Contents (Elt F)) :
    Cert.ReferenceIdeal.RefRun.aggT (F := F) h bias ei = Cert.KernelIdeal.Chain.aggK (F := F) h bias ei := rfl

end Cert.ReferenceIdeal.RefRun

end
-- ==== Proof.Bridge2.lean ====
/-
  The two programs compute one function. Row `n`, column `q` of the kernel program's result is
  max(((A − mean) · rsqrt(var + ε)) · γ + β, 0) with A the aggregated features, mean the column mean and var the
  mean of the squares less the squared mean; the reference's is the same expression with var the mean of the squared
  deviations. The aggregated features are real numbers when the inputs are finite (every node has a self-loop, so
  every degree is at least one), and for real entries the two variances are one number.
-/
import proofs.«181293_j22840636080817_1_alg».proof.Proof.Bridge1
import proofs.«181293_j22840636080817_1_alg».proof.Proof.P.Val2
import proofs.«181293_j22840636080817_1_alg».proof.Proof.P.Variance
import proofs.«181293_j22840636080817_1_alg».proof.Proof.M.Real
import proofs.«181293_j22840636080817_1_alg».proof.Proof.M.Pre
import proofs.«181293_j22840636080817_1_alg».proof.Proof.M.Dot
import proofs.«181293_j22840636080817_1_alg».proof.Proof.R.Tail
import proofs.«181293_j22840636080817_1_alg».proof.Proof.R.Dot
import proofs.«181293_j22840636080817_1_alg».proof.Proof.R.Chain

noncomputable section

namespace Cert.Proof.Bridge

open Cert.KernelIdeal Cert.KernelIdeal.Gen Cert.KernelIdeal.Hand Cert.KernelIdeal.Chain Cert.KernelIdeal.Val
open Idealize.ShloMosaic Idealize.ShloMosaic.TcCoe Idealize.ShloMosaic.ValueIdx Idealize.SL.Sem
open Idealize.ShloMosaic.Pipeline (Dat)
open scoped BigOperators

/-- What the statistics pipeline leaves, as two facts about any entry contents `V`: row 0 is the column mean, row 1
    the mean of the squares less the squared mean. -/
def StatsFacts : Prop :=
  ∀ (V : (c : Dev nD) → (b : Ref sig .tc) → Buf (Elt Ideal) ((c : Thread nD τ).loc b)) (c : Dev nD) (q : Fin 128)
    (a : S50000x128.Idx → EReal), a = (show S50000x128.Idx → EReal from V c main_v48) →
    @Eq EReal ((dat1 (F := Ideal) V c).arrAt 1 cfg1.N (ix2 (0 : Fin 2) q)) (Ideal.div (∑ n : Fin 50000, a (ix2 n q)) (Ideal.ofBits .f32 0x47435000#32))
    ∧ @Eq EReal ((dat1 (F := Ideal) V c).arrAt 1 cfg1.N (ix2 (1 : Fin 2) q))
        (Ideal.div (∑ n : Fin 50000, a (ix2 n q) * a (ix2 n q)) (Ideal.ofBits .f32 0x47435000#32)
          - Ideal.div (∑ n : Fin 50000, a (ix2 n q)) (Ideal.ofBits .f32 0x47435000#32) * Ideal.div (∑ n : Fin 50000, a (ix2 n q)) (Ideal.ofBits .f32 0x47435000#32))

variable (m : (ℓ : Loc nD τ sig) → Buf (Elt Ideal) ℓ) (ρ : Dev nD → PrngReg)

/-- The reference's product layer is the product array. -/
theorem dotT_eq (x : FVec Ideal S50000x128 .f32) (w : FVec Ideal S128x128 .f32) :
    Cert.ReferenceIdeal.RefRun.dotT (F := Ideal) x w = prodArr x w := by
  funext i
  obtain ⟨n, q, rfl⟩ : ∃ (n : Fin 50000) (q : Fin 128), i = ix2 n q := ⟨i 0, i 1, eq_ix2 i⟩
  rw [Cert.ReferenceIdeal.RefRun.dotT_apply, prodArr_apply]

/-- Every entry of the product array of two arrays of reals is a real. -/
theorem prodArr_real (x : FVec Ideal S50000x128 .f32) (w : FVec Ideal S128x128 .f32)
    (hx : ∀ i, ∃ r : ℝ, x i = (r : EReal)) (hw : ∀ i, ∃ r : ℝ, w i = (r : EReal)) :
    ∀ i, ∃ r : ℝ, prodArr x w i = (r : EReal) := by
  intro i
  obtain ⟨n, q, rfl⟩ : ∃ (n : Fin 50000) (q : Fin 128), i = ix2 n q := ⟨i 0, i 1, eq_ix2 i⟩
  rw [prodArr_apply]
  exact dot_real x w hx hw n q

/-- THE BRIDGE: under the precondition the kernel program's result buffer holds the reference's function of the
    six arguments. -/
theorem result_eq_of (hstats : StatsFacts)
    (hpre : Cert.Pre_KernelIdeal (hPre_finite_inputs := Cert.Pre_finite_inputs.Gen.facts) m) (c : Dev nD) :
    (W5 (F := Ideal) m ρ c (Proc.devRef .tc main_v52) : S50000x128.Idx → EReal)
      = Cert.ReferenceIdeal.RefRun.resT (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  -- the aggregated features, on both sides
  have hA : Cert.ReferenceIdeal.RefRun.aggT (F := Ideal)
        (Cert.ReferenceIdeal.RefRun.dotT (F := Ideal) (m ((c.tc : Thread nD τ).loc main_arg0)) (m ((c.tc : Thread nD τ).loc main_arg1)))
        (m ((c.tc : Thread nD τ).loc main_arg2)) (m ((c.tc : Thread nD τ).loc main_arg5))
      = aggK (F := Ideal) (prodArr (m ((c.tc : Thread nD τ).loc main_arg0)) (m ((c.tc : Thread nD τ).loc main_arg1)))
          (m ((c.tc : Thread nD τ).loc main_arg2)) (m ((c.tc : Thread nD τ).loc main_arg5)) := by
    rw [Cert.ReferenceIdeal.RefRun.aggT_eq_aggK, dotT_eq]
  generalize hAdef : aggK (F := Ideal) (prodArr (m ((c.tc : Thread nD τ).loc main_arg0)) (m ((c.tc : Thread nD τ).loc main_arg1)))
          (m ((c.tc : Thread nD τ).loc main_arg2)) (m ((c.tc : Thread nD τ).loc main_arg5)) = A at hA
  have hAreal : ∀ i, ∃ r : ℝ, (A : S50000x128.Idx → EReal) i = (r : EReal) := by
    rw [← hAdef]
    exact aggK_real _ _ _ (prodArr_real _ _ (pre_real_arg0 m hpre c) (pre_real_arg1 m hpre c)) (pre_real_arg2 m hpre c)
  have h48 : (U4 (F := Ideal) m ρ c main_v48 : S50000x128.Idx → EReal) = A := by
    show W4 (F := Ideal) m ρ c (Proc.devRef .tc main_v48) = A
    rw [w4_v48, w2_v48, hAdef]
  have h248 : (U2 (F := Ideal) m ρ c main_v48 : S50000x128.Idx → EReal) = A := by
    show W2 (F := Ideal) m ρ c (Proc.devRef .tc main_v48) = A
    rw [w2_v48, hAdef]
  funext i
  obtain ⟨n, q, rfl⟩ : ∃ (n : Fin 50000) (q : Fin 128), i = ix2 n q := ⟨i 0, i 1, eq_ix2 i⟩
  unfold Cert.ReferenceIdeal.RefRun.resT
  rw [hA, Cert.ReferenceIdeal.RefRun.tailT_apply, w5_v52, arr2_bnAt]
  unfold bnAt Cert.ReferenceIdeal.RefRun.bnVar Cert.ReferenceIdeal.RefRun.bnMean Cert.ReferenceIdeal.RefRun.bnN
  obtain ⟨hmean, hvar⟩ := hstats (U2 m ρ) c q A h248.symm
  have e49 : (U4 (F := Ideal) m ρ c main_v49 : S2x128.Idx → EReal) = (dat1 (U2 m ρ) c).arrAt 1 cfg1.N := w4_v49 m ρ c
  have e50 : @Eq EReal (U4 (F := Ideal) m ρ c main_v50 (ix2 (0 : Fin 1) q)) (m ((c : Thread nD τ).loc main_arg3) (ix1 q)) := w4_v50 m ρ c q
  have e51 : @Eq EReal (U4 (F := Ideal) m ρ c main_v51 (ix2 (0 : Fin 1) q)) (m ((c : Thread nD τ).loc main_arg4) (ix1 q)) := w4_v51 m ρ c q
  rw [h48, e49, hmean, hvar, e50, e51]
  rw [Cert.Spec.variance_eq_of_real (fun n : Fin 50000 => (A : S50000x128.Idx → EReal) (ix2 n q)) (fun n => hAreal (ix2 n q))
    (by simp)]

end Cert.Proof.Bridge

end
-- ==== Proof.P.Pay1.lean ====
import proofs.«181293_j22840636080817_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-! # The statistics body at an index

The second kernel keeps two 1 × 128 running rows: the column sums of the rows seen so far and the
column sums of their squares. At its first point it clears both rows; at every point it adds the
current 5000 × 128 block's column sums (of the entries, and of their squares); at its last point it
divides by the number of rows, 50000, to get the mean, and takes the mean of squares less the
squared mean for the variance. Each of these stores is read here at a column `q`. -/

/-- The cleared running sum is zero. -/
theorem k1_pay1_apply (q : Fin 128) : k1_pay1 (F := Ideal) (ix2 (0 : Fin 1) q) = 0 := by
  unfold k1_pay1
  rw [shapeCast_self]
  exact Ideal.ofBits_zero_f32

/-- The cleared running sum of squares is zero. -/
theorem k1_pay2_apply (q : Fin 128) : k1_pay2 (F := Ideal) (ix2 (0 : Fin 1) q) = 0 := by
  unfold k1_pay2
  rw [shapeCast_self]
  exact Ideal.ofBits_zero_f32

/-- The block read through the cast to its own shape is the block. -/
theorem k1_pay3_eq (v3 : Vec Ideal S5000x128 .f32) : k1_pay3 (F := Ideal) v3 = v3 := by
  unfold k1_pay3
  exact shapeCast_self _ _

/-- The sum over the row axis of a 5000 × 128 block, at column `q`, is the sum over the 5000 rows of the
    entries of that column. -/
theorem colsum_apply (v : FVec Ideal S5000x128 .f32) (hφ : FKind.Formats .f32)
    (hacc : (0x00000000#32 : BitVec 32) = 0x00000000#32) (q : Fin 128) :
    multiReduction (F := Ideal) .add [0] S128 v 0x00000000#32 reduces_S5000x128_S128 hφ hacc (ix1 q)
      = ∑ r : Fin 5000, v (ix2 r q) := by
  refine (Ideal.multiReduction_add_single v 0x00000000#32 reduces_S5000x128_S128 hφ hacc (ix1 q)).trans ?_
  refine Finset.sum_congr rfl fun r _ => congrArg v ?_
  funext a
  apply Fin.ext
  match a with
  | ⟨0, _⟩ => rfl
  | ⟨1, _⟩ => rfl

/-- The running sum after a block: the sum before it plus the block's column sum. -/
theorem k1_pay4_apply (v3 : Vec Ideal S5000x128 .f32) (v5 : Vec Ideal S1x128 .f32) (q : Fin 128) :
    k1_pay4 (F := Ideal) v3 v5 (ix2 (0 : Fin 1) q) = v5 (ix2 0 q) + ∑ r : Fin 5000, v3 (ix2 r q) := by
  unfold k1_pay4
  rw [shapeCast_self, k1_pay3_eq, addf_apply, shapeCast_a_1a_apply, colsum_apply]

/-- The running sum of squares after a block: the sum before it plus the column sum of the block's squares. -/
theorem k1_pay5_apply (v3 : Vec Ideal S5000x128 .f32) (v12 : Vec Ideal S1x128 .f32) (q : Fin 128) :
    k1_pay5 (F := Ideal) v3 v12 (ix2 (0 : Fin 1) q)
      = v12 (ix2 0 q) + ∑ r : Fin 5000, v3 (ix2 r q) * v3 (ix2 r q) := by
  unfold k1_pay5
  rw [shapeCast_self, k1_pay3_eq, addf_apply, shapeCast_a_1a_apply, colsum_apply]
  rfl

/-- The mean: the running sum divided by the number of rows. -/
theorem k1_pay6_apply (v23 : Vec Ideal S1x128 .f32) (q : Fin 128) :
    k1_pay6 (F := Ideal) v23 (ix2 (0 : Fin 1) q)
      = Ideal.div (v23 (ix2 0 q)) (Ideal.ofBits .f32 0x47435000#32) := by
  unfold k1_pay6
  rfl

/-- The variance: the mean of the squares less the square of the mean. -/
theorem k1_pay7_apply (v23 v26 : Vec Ideal S1x128 .f32) (q : Fin 128) :
    k1_pay7 (F := Ideal) v23 v26 (ix2 (0 : Fin 1) q)
      = Ideal.div (v26 (ix2 0 q)) (Ideal.ofBits .f32 0x47435000#32)
        - Ideal.div (v23 (ix2 0 q)) (Ideal.ofBits .f32 0x47435000#32)
          * Ideal.div (v23 (ix2 0 q)) (Ideal.ofBits .f32 0x47435000#32) := by
  unfold k1_pay7
  rw [subf_apply, mulf_apply, k1_pay6_apply]
  rfl

end Cert.KernelIdeal.Pay

end
-- ==== Proof.P.Val1.lean ====
import proofs.«181293_j22840636080817_1_alg».proof.Proof.KI.Region1
import proofs.«181293_j22840636080817_1_alg».proof.Proof.P.Pay1
import Idealize.ShloMosaic.Lib.ValueIdx
import Idealize.ShloMosaic.Lib.Pipeline.Value
import Idealize.ShloMosaic.Lib.Tactic

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! # The statistics, from the ten points to the 2 × 128 result

The second kernel carries two 1 × 128 rows from one grid point to the next: the column sums of the rows
of the input seen so far, and the column sums of their squares. The first point clears them before it
adds its block; every point adds the column sums of its block of 5000 rows; the last point divides by
50000 and writes the mean (row 0) and the mean of squares less the squared mean (row 1) to the result,
which is written back at that point only. -/

theorem hzC : (![0, 0] : Fin 2 → Nat) = fun _ => 0 := funext fun a => by fin_cases a <;> rfl

/-! ## What each kind of point leaves, as terms of the body's arithmetic -/

section Pieces
variable (c : Dev nD) (i : grid1.Coords) (arg1 : Memref sig .tc .vmem S5000x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole)

/-- The first point leaves in the first accumulator the block's column sums added to the cleared row. -/
theorem soutA0_eq (hc0 : cond1_0 i) (hc1 : ¬cond1_1 i) (x0 : Vec Ideal S5000x128 .f32) :
    sout1_A_0 c i arg1 harg1 arg2 harg2 arg3 harg3 arg4 harg4 hc0 hc1 x0 = k1_pay4 x0 (k1_pay1 (F := Ideal)) := by
  unfold sout1_A_0
  rw [View.read_writes_eq_canon _ _ _ (scover1_A_0 c i arg1 harg1 arg2 harg2 arg3 harg3 arg4 harg4 hc0 hc1 x0)]
  unfold kernelRun1_A
  dsimp only
  try sl_unfold_words
  rw [View.canon_cons_unit_zero hzC]
  simp only [View.readAt_eq_ld, harg1.read_unread, harg3.read_unread, harg4.read_unread,
    View.ld_unit_zero (S := S5000x128) hzC, View.ld_unit_zero (S := S1x128) hzC, View.readCov_unit_zero (S := S1x128) _ hzC]

/-- The first point leaves in the second accumulator the column sums of the block's squares added to the cleared row. -/
theorem soutA1_eq (hc0 : cond1_0 i) (hc1 : ¬cond1_1 i) (x0 : Vec Ideal S5000x128 .f32) :
    sout1_A_1 c i arg1 harg1 arg2 harg2 arg3 harg3 arg4 harg4 hc0 hc1 x0 = k1_pay5 x0 (k1_pay2 (F := Ideal)) := by
  unfold sout1_A_1
  rw [View.read_writes_eq_canon _ _ _ (scover1_A_1 c i arg1 harg1 arg2 harg2 arg3 harg3 arg4 harg4 hc0 hc1 x0)]
  unfold kernelRun1_A
  dsimp only
  try sl_unfold_words
  rw [View.canon_cons_unit_zero hzC]
  simp only [View.readAt_eq_ld, harg1.read_unread, harg3.read_unread, harg4.read_unread,
    View.ld_unit_zero (S := S5000x128) hzC, View.ld_unit_zero (S := S1x128) hzC, View.readCov_unit_zero (S := S1x128) _ hzC]

/-- A middle point adds the block's column sums to the first accumulator. -/
theorem soutB0_eq (hc0 : ¬cond1_0 i) (hc1 : ¬cond1_1 i) (x0 : Vec Ideal S5000x128 .f32) (xs0 xs1 : Vec Ideal S1x128 .f32) :
    sout1_B_0 c i arg1 harg1 arg2 harg2 arg3 harg3 arg4 harg4 hc0 hc1 x0 xs0 xs1 = k1_pay4 x0 xs0 := by
  unfold sout1_B_0
  rw [View.read_writes_eq_canon _ _ _ (scover1_B_0 c i arg1 harg1 arg2 harg2 arg3 harg3 arg4 harg4 hc0 hc1 x0 xs0 xs1)]
  unfold kernelRun1_B
  dsimp only
  try sl_unfold_words
  rw [View.canon_cons_unit_zero hzC]
  simp only [View.readAt_eq_ld, harg1.read_unread, harg3.read_unread, harg4.read_unread,
    View.ld_unit_zero (S := S5000x128) hzC, View.ld_unit_zero (S := S1x128) hzC, View.readCov_unit_zero (S := S1x128) _ hzC]

/-- A middle point adds the column sums of the block's squares to the second accumulator. -/
theorem soutB1_eq (hc0 : ¬cond1_0 i) (hc1 : ¬cond1_1 i) (x0 : Vec Ideal S5000x128 .f32) (xs0 xs1 : Vec Ideal S1x128 .f32) :
    sout1_B_1 c i arg1 harg1 arg2 harg2 arg3 harg3 arg4 harg4 hc0 hc1 x0 xs0 xs1 = k1_pay5 x0 xs1 := by
  unfold sout1_B_1
  rw [View.read_writes_eq_canon _ _ _ (scover1_B_1 c i arg1 harg1 arg2 harg2 arg3 harg3 arg4 harg4 hc0 hc1 x0 xs0 xs1)]
  unfold kernelRun1_B
  dsimp only
  try sl_unfold_words
  rw [View.canon_cons_unit_zero hzC]
  simp only [View.readAt_eq_ld, harg1.read_unread, harg3.read_unread, harg4.read_unread,
    View.ld_unit_zero (S := S5000x128) hzC, View.ld_unit_zero (S := S1x128) hzC, View.readCov_unit_zero (S := S1x128) _ hzC]

/-- The last point adds to the first accumulator as a middle point does. -/
theorem soutC0_eq (hc0 : ¬cond1_0 i) (hc1 : cond1_1 i) (x0 : Vec Ideal S5000x128 .f32) (xs0 xs1 : Vec Ideal S1x128 .f32) :
    sout1_C_0 c i arg1 harg1 arg2 harg2 arg3 harg3 arg4 harg4 hc0 hc1 x0 xs0 xs1 = k1_pay4 x0 xs0 := by
  unfold sout1_C_0
  rw [View.read_writes_eq_canon _ _ _ (scover1_C_0 c i arg1 harg1 arg2 harg2 arg3 harg3 arg4 harg4 hc0 hc1 x0 xs0 xs1)]
  unfold kernelRun1_C
  dsimp only
  try sl_unfold_words
  rw [View.canon_cons_unit_zero hzC]
  simp only [View.readAt_eq_ld, harg1.read_unread, harg3.read_unread, harg4.read_unread,
    View.ld_unit_zero (S := S5000x128) hzC, View.ld_unit_zero (S := S1x128) hzC, View.readCov_unit_zero (S := S1x128) _ hzC]

/-- The last point adds to the second accumulator as a middle point does. -/
theorem soutC1_eq (hc0 : ¬cond1_0 i) (hc1 : cond1_1 i) (x0 : Vec Ideal S5000x128 .f32) (xs0 xs1 : Vec Ideal S1x128 .f32) :
    sout1_C_1 c i arg1 harg1 arg2 harg2 arg3 harg3 arg4 harg4 hc0 hc1 x0 xs0 xs1 = k1_pay5 x0 xs1 := by
  unfold sout1_C_1
  rw [View.read_writes_eq_canon _ _ _ (scover1_C_1 c i arg1 harg1 arg2 harg2 arg3 harg3 arg4 harg4 hc0 hc1 x0 xs0 xs1)]
  unfold kernelRun1_C
  dsimp only
  try sl_unfold_words
  rw [View.canon_cons_unit_zero hzC]
  simp only [View.readAt_eq_ld, harg1.read_unread, harg3.read_unread, harg4.read_unread,
    View.ld_unit_zero (S := S5000x128) hzC, View.ld_unit_zero (S := S1x128) hzC, View.readCov_unit_zero (S := S1x128) _ hzC]

/-- The two rows of the 2 × 128 result block as rectangles. -/
abbrev rowR0 : Rect S2x128 := Rect.unit (s := S2x128) ![0, 0] S1x128.size inb_S2x128_S1x128_0_0
abbrev rowR1 : Rect S2x128 := Rect.unit (s := S2x128) ![1, 0] S1x128.size inb_S2x128_S1x128_1_0

/-- The last point stores into the result block its row 0, the mean, then its row 1, the variance, both
    of the accumulators as it has just left them. -/
theorem outC_eq (hc0 : ¬cond1_0 i) (hc1 : cond1_1 i) (x0 : Vec Ideal S5000x128 .f32) (xs0 xs1 : Vec Ideal S1x128 .f32) :
    out1_C_1 c i arg1 harg1 arg2 harg2 arg3 harg3 arg4 harg4 hc0 hc1 x0 xs0 xs1
      = View.canon [⟨rowR1, k1_pay7 (k1_pay4 x0 xs0) (k1_pay5 x0 xs1)⟩, ⟨rowR0, k1_pay6 (k1_pay4 x0 xs0)⟩] := by
  unfold out1_C_1
  rw [View.read_writes_eq_canon _ _ _ (cover1_C_1 c i arg1 harg1 arg2 harg2 arg3 harg3 arg4 harg4 hc0 hc1 x0 xs0 xs1)]
  unfold kernelRun1_C
  dsimp only
  try sl_unfold_words
  simp only [View.readAt_eq_ld, harg1.read_unread, harg3.read_unread, harg4.read_unread,
    View.ld_unit_zero (S := S5000x128) hzC, View.ld_unit_zero (S := S1x128) hzC, View.readCov_unit_zero (S := S1x128) _ hzC]

end Pieces

/-! ## The input's blocks -/

/-- The block indices of the two windows at every grid point: the input moves down one block of rows
    per point, the result stays. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- The input's block at point `t` is rows `5000 t …` of the input array. -/
theorem iblk1_0_apply (c : Dev nD) (t : Fin cfg1.N) (p : Fin 5000) (q : Fin 128) (n : Fin 50000)
    (hn : n.val = t.val * 5000 + p.val) :
    (iblk1 V c 0 t : S5000x128.Idx → EReal) (ix2 p q) = (V c main_v48 : S50000x128.Idx → EReal) (ix2 n q) := by
  obtain ⟨e0, e1, -⟩ := blockIdx1 t
  unfold iblk1
  rw [View.read_apply]
  show (V c main_v48 : S50000x128.Idx → EReal) _ = (V c main_v48 : S50000x128.Idx → EReal) _
  congr 1
  funext a
  apply Fin.ext
  match a with
  | ⟨0, _⟩ => show win1_0.index t (0 : Fin 2) * 5000 + 1 * p.val = n.val; rw [e0, hn]; omega
  | ⟨1, _⟩ => show win1_0.index t (1 : Fin 2) * 128 + 1 * q.val = q.val; rw [e1]; omega

/-! ## Sums over the first rows of a column -/

section Sums
variable (a : S50000x128.Idx → EReal) (q : Fin 128)

/-- Column `q` of the array as a sequence (zero past the last row). -/
def rowF (r : ℕ) : EReal := if h : r < 50000 then a (ix2 ⟨r, h⟩ q) else 0

/-- The sum of the first `k` entries of column `q`. -/
def psum (k : ℕ) : EReal := ∑ r ∈ Finset.range k, rowF a q r

/-- The sum of the squares of the first `k` entries of column `q`. -/
def psumSq (k : ℕ) : EReal := ∑ r ∈ Finset.range k, rowF a q r * rowF a q r

theorem psum_zero : psum a q 0 = 0 := Finset.sum_range_zero _
theorem psumSq_zero : psumSq a q 0 = 0 := Finset.sum_range_zero _

/-- Adding block `n`'s 5000 entries to the sum of the first `5000 n` gives the sum of the first `5000 (n + 1)`. -/
theorem psum_step (n : ℕ) :
    psum a q (n * 5000) + ∑ p ∈ Finset.range 5000, rowF a q (n * 5000 + p) = psum a q ((n + 1) * 5000) := by
  unfold psum
  rw [show (n + 1) * 5000 = n * 5000 + 5000 by ring, Finset.sum_range_add]

theorem psumSq_step (n : ℕ) :
    psumSq a q (n * 5000) + ∑ p ∈ Finset.range 5000, rowF a q (n * 5000 + p) * rowF a q (n * 5000 + p)
      = psumSq a q ((n + 1) * 5000) := by
  unfold psumSq
  rw [show (n + 1) * 5000 = n * 5000 + 5000 by ring, Finset.sum_range_add]

/-- The sum of all 50000 entries. -/
theorem psum_full : psum a q 50000 = ∑ n : Fin 50000, a (ix2 n q) := by
  unfold psum
  rw [Finset.sum_range]
  refine Finset.sum_congr rfl fun n _ => ?_
  unfold rowF
  rw [dif_pos n.isLt]

theorem psumSq_full : psumSq a q 50000 = ∑ n : Fin 50000, a (ix2 n q) * a (ix2 n q) := by
  unfold psumSq
  rw [Finset.sum_range]
  refine Finset.sum_congr rfl fun n _ => ?_
  unfold rowF
  rw [dif_pos n.isLt]

/-- A 5000 × 128 block that holds rows `5000 n …` of the array: its column sum is block `n`'s part of the sequence's sum. -/
theorem blocksum (x : S5000x128.Idx → EReal) (n : ℕ) (hx : ∀ p : Fin 5000, x (ix2 p q) = rowF a q (n * 5000 + p.val)) :
    ∑ p : Fin 5000, x (ix2 p q) = ∑ p ∈ Finset.range 5000, rowF a q (n * 5000 + p) := by
  rw [Finset.sum_range]
  exact Finset.sum_congr rfl fun p _ => hx p

theorem blocksumSq (x : S5000x128.Idx → EReal) (n : ℕ) (hx : ∀ p : Fin 5000, x (ix2 p q) = rowF a q (n * 5000 + p.val)) :
    ∑ p : Fin 5000, x (ix2 p q) * x (ix2 p q)
      = ∑ p ∈ Finset.range 5000, rowF a q (n * 5000 + p) * rowF a q (n * 5000 + p) := by
  rw [Finset.sum_range]
  exact Finset.sum_congr rfl fun p _ => by rw [hx p]

end Sums

/-- The input's block at point `t`, read through the column sequence. -/
theorem iblk1_rowF (c : Dev nD) (t : Fin cfg1.N) (q : Fin 128) (p : Fin 5000) :
    (iblk1 V c 0 t : S5000x128.Idx → EReal) (ix2 p q) = rowF (V c main_v48) q (t.val * 5000 + p.val) := by
  have ht : t.val < 10 := lt10 t.isLt
  have hp : t.val * 5000 + p.val < 50000 := by have := p.isLt; omega
  unfold rowF
  rw [dif_pos hp]
  exact iblk1_0_apply V c t p q ⟨t.val * 5000 + p.val, hp⟩ rfl

/-! ## The accumulators after each point -/

/-- After the first point the accumulators hold the first block's column sums. -/
theorem acc_first (c : Dev nD) (hn : 0 < cfg1.N) (q : Fin 128) :
    (outsAt1 (F := Ideal) V c 0 hn).2.1 (ix2 (0 : Fin 1) q) = psum (V c main_v48) q ((0 + 1) * 5000)
    ∧ (outsAt1 (F := Ideal) V c 0 hn).2.2 (ix2 (0 : Fin 1) q) = psumSq (V c main_v48) q ((0 + 1) * 5000) := by
  have hc0 : cond1_0 (grid1.coords ⟨0, hn⟩) := (hcond1_0 ⟨0, hn⟩).mpr (Nat.zero_mod _)
  have hc1 : ¬cond1_1 (grid1.coords ⟨0, hn⟩) := fun h => by
    have h9 := (hcond1_1 ⟨0, hn⟩).mp h; (try dsimp only at h9); omega
  have e := outsAt1_A (F := Ideal) V c ⟨0, hn⟩ rfl hc0 hc1
  constructor
  · refine (congrFun (congrArg (fun z => z.2.1) e) (ix2 (0 : Fin 1) q)).trans ?_
    dsimp only
    rw [soutA0_eq, Pay.k1_pay4_apply, Pay.k1_pay1_apply, blocksum (V c main_v48) q _ 0 (by
      intro p; have := iblk1_rowF V c ⟨0, hn⟩ q p; simpa using this), ← psum_step, Nat.zero_mul, psum_zero]
  · refine (congrFun (congrArg (fun z => z.2.2) e) (ix2 (0 : Fin 1) q)).trans ?_
    dsimp only
    rw [soutA1_eq, Pay.k1_pay5_apply, Pay.k1_pay2_apply, blocksumSq (V c main_v48) q _ 0 (by
      intro p; have := iblk1_rowF V c ⟨0, hn⟩ q p; simpa using this), ← psumSq_step, Nat.zero_mul, psumSq_zero]

/-- The input's block at point `t`, as a 5000 × 128 array of extended reals. -/
abbrev blk1 (c : Dev nD) (t : Fin cfg1.N) : S5000x128.Idx → EReal := iblk1 V c 0 t

/-- Every later point adds its block's column sums to what the point before left. -/
theorem acc_succ (c : Dev nD) (n : ℕ) (hn : n + 1 < cfg1.N) (q : Fin 128) :
    (outsAt1 (F := Ideal) V c (n + 1) hn).2.1 (ix2 (0 : Fin 1) q)
      = (outsAt1 (F := Ideal) V c n (Nat.lt_of_succ_lt hn)).2.1 (ix2 (0 : Fin 1) q)
        + ∑ p : Fin 5000, blk1 V c ⟨n + 1, hn⟩ (ix2 p q)
    ∧ (outsAt1 (F := Ideal) V c (n + 1) hn).2.2 (ix2 (0 : Fin 1) q)
      = (outsAt1 (F := Ideal) V c n (Nat.lt_of_succ_lt hn)).2.2 (ix2 (0 : Fin 1) q)
        + ∑ p : Fin 5000, blk1 V c ⟨n + 1, hn⟩ (ix2 p q)
            * blk1 V c ⟨n + 1, hn⟩ (ix2 p q) := by
  have h10 := lt10 hn
  have hc0 : ¬cond1_0 (grid1.coords ⟨n + 1, hn⟩) := fun h => by
    have h0 := (hcond1_0 ⟨n + 1, hn⟩).mp h; (try dsimp only at h0); omega
  by_cases h1 : (n + 1) % 10 = 9
  · have hc1 : cond1_1 (grid1.coords ⟨n + 1, hn⟩) := (hcond1_1 ⟨n + 1, hn⟩).mpr h1
    have e := outsAt1_C (F := Ideal) V c ⟨n + 1, hn⟩ (Nat.succ_ne_zero n) h1 hc0 hc1
    constructor
    · refine (congrFun (congrArg (fun z => z.2.1) e) (ix2 (0 : Fin 1) q)).trans ?_
      dsimp only
      rw [soutC0_eq]
      exact Pay.k1_pay4_apply _ _ q
    · refine (congrFun (congrArg (fun z => z.2.2) e) (ix2 (0 : Fin 1) q)).trans ?_
      dsimp only
      rw [soutC1_eq]
      exact Pay.k1_pay5_apply _ _ q
  · have hc1 : ¬cond1_1 (grid1.coords ⟨n + 1, hn⟩) := fun h => h1 ((hcond1_1 ⟨n + 1, hn⟩).mp h)
    have e := outsAt1_B (F := Ideal) V c ⟨n + 1, hn⟩ (Nat.succ_ne_zero n) h1 hc0 hc1
    constructor
    · refine (congrFun (congrArg (fun z => z.2.1) e) (ix2 (0 : Fin 1) q)).trans ?_
      dsimp only
      rw [soutB0_eq]
      exact Pay.k1_pay4_apply _ _ q
    · refine (congrFun (congrArg (fun z => z.2.2) e) (ix2 (0 : Fin 1) q)).trans ?_
      dsimp only
      rw [soutB1_eq]
      exact Pay.k1_pay5_apply _ _ q

/-- After point `n` the accumulators hold the column sums, and the column sums of squares, of the first
    `5000 (n + 1)` rows. -/
theorem acc_eq (c : Dev nD) (q : Fin 128) : ∀ (n : ℕ) (hn : n < cfg1.N),
    (outsAt1 (F := Ideal) V c n hn).2.1 (ix2 (0 : Fin 1) q) = psum (V c main_v48) q ((n + 1) * 5000)
    ∧ (outsAt1 (F := Ideal) V c n hn).2.2 (ix2 (0 : Fin 1) q) = psumSq (V c main_v48) q ((n + 1) * 5000)
  | 0, hn => acc_first V c hn q
  | n + 1, hn => by
    obtain ⟨ih0, ih1⟩ := acc_eq c q n (Nat.lt_of_succ_lt hn)
    obtain ⟨s0, s1⟩ := acc_succ V c n hn q
    constructor
    · rw [s0, ih0, blocksum (V c main_v48) q _ (n + 1) (fun p => iblk1_rowF V c ⟨n + 1, hn⟩ q p), psum_step]
    · rw [s1, ih1, blocksumSq (V c main_v48) q _ (n + 1) (fun p => iblk1_rowF V c ⟨n + 1, hn⟩ q p), psumSq_step]

/-! ## The result block and the result array -/

/-- The mean of column `q`. -/
def meanAt (a : S50000x128.Idx → EReal) (q : Fin 128) : EReal :=
  Ideal.div (∑ n : Fin 50000, a (ix2 n q)) (Ideal.ofBits .f32 0x47435000#32)

/-- The mean of the squares of column `q` less the square of its mean. -/
def varAt (a : S50000x128.Idx → EReal) (q : Fin 128) : EReal :=
  Ideal.div (∑ n : Fin 50000, a (ix2 n q) * a (ix2 n q)) (Ideal.ofBits .f32 0x47435000#32)
    - Ideal.div (∑ n : Fin 50000, a (ix2 n q)) (Ideal.ofBits .f32 0x47435000#32)
      * Ideal.div (∑ n : Fin 50000, a (ix2 n q)) (Ideal.ofBits .f32 0x47435000#32)

/-- The 2 × 128 array of statistics: the means in row 0, the variances in row 1. -/
def statArr (a : S50000x128.Idx → EReal) : S2x128.Idx → EReal :=
  fun i => if (i 0).val = 0 then meanAt a ⟨(i 1).val, idx2_lt1 i⟩ else varAt a ⟨(i 1).val, idx2_lt1 i⟩

theorem statArr_row0 (a : S50000x128.Idx → EReal) (q : Fin 128) : statArr a (ix2 (0 : Fin 2) q) = meanAt a q := rfl
theorem statArr_row1 (a : S50000x128.Idx → EReal) (q : Fin 128) : statArr a (ix2 (1 : Fin 2) q) = varAt a q := rfl

/-- Two stores of one row each into a 2 × 128 block, row 1 last: each row reads its own store. -/
theorem canon_rows (w1 w0 : Vec Ideal S1x128 .f32) (q : Fin 128) :
    View.canon (Val := Elt Ideal) [⟨rowR1, w1⟩, ⟨rowR0, w0⟩] (ix2 (0 : Fin 2) q) = w0 (ix2 (0 : Fin 1) q)
    ∧ View.canon (Val := Elt Ideal) [⟨rowR1, w1⟩, ⟨rowR0, w0⟩] (ix2 (1 : Fin 2) q) = w1 (ix2 (0 : Fin 1) q) := by
  have e0 : (ix2 (0 : Fin 2) q : S2x128.Idx) = rowR0.emb (ix2 (0 : Fin 1) q) := by
    funext a; apply Fin.ext
    match a with
    | ⟨0, _⟩ => show (0 : ℕ) = 0 + 1 * 0; omega
    | ⟨1, _⟩ => show q.val = 0 + 1 * q.val; omega
  have e1 : (ix2 (1 : Fin 2) q : S2x128.Idx) = rowR1.emb (ix2 (0 : Fin 1) q) := by
    funext a; apply Fin.ext
    match a with
    | ⟨0, _⟩ => show (1 : ℕ) = 1 + 1 * 0; omega
    | ⟨1, _⟩ => show q.val = 0 + 1 * q.val; omega
  have hn : (ix2 (0 : Fin 2) q : S2x128.Idx) ∉ rowR1.set := by
    rw [Rect.mem_set_unit]
    intro h
    have h1 : (1 : ℕ) ≤ 0 := (h (0 : Fin 2)).1
    omega
  constructor
  · exact (View.canon_cons_of_not_mem (⟨rowR1, w1⟩ : View.Piece (Elt Ideal) S2x128 .f32) [⟨rowR0, w0⟩] hn).trans
      ((congrArg (View.canon (Val := Elt Ideal) [⟨rowR0, w0⟩]) e0).trans (View.canon_cons_emb rowR0 w0 [] (ix2 (0 : Fin 1) q)))
  · exact (congrArg (View.canon (Val := Elt Ideal) [⟨rowR1, w1⟩, ⟨rowR0, w0⟩]) e1).trans
      (View.canon_cons_emb rowR1 w1 _ (ix2 (0 : Fin 1) q))

/-- What the last point leaves in the result block: its two rows stored from the accumulators as it has
    just left them. -/
theorem last_point (c : Dev nD) (t : Fin cfg1.N) (h9 : t.val % 10 = 9) :
    (outsAt1 (F := Ideal) V c t.val t.isLt).1
      = View.canon [⟨rowR1, k1_pay7 (outsAt1 (F := Ideal) V c t.val t.isLt).2.1 (outsAt1 (F := Ideal) V c t.val t.isLt).2.2⟩,
          ⟨rowR0, k1_pay6 (outsAt1 (F := Ideal) V c t.val t.isLt).2.1⟩] := by
  have h10 := lt10 t.isLt
  have h0 : t.val ≠ 0 := by omega
  have hc0 : ¬cond1_0 (grid1.coords t) := fun h => by have := (hcond1_0 t).mp h; omega
  have hc1 : cond1_1 (grid1.coords t) := (hcond1_1 t).mpr h9
  rw [outsAt1_C (F := Ideal) V c t h0 h9 hc0 hc1]
  dsimp only
  rw [outC_eq, soutC0_eq, soutC1_eq]

/-- The two rows the last point leaves: the means and the variances of the 50000 rows. -/
theorem last_rows (c : Dev nD) (t : Fin cfg1.N) (h9 : t.val % 10 = 9) (q : Fin 128) :
    (outsAt1 (F := Ideal) V c t.val t.isLt).1 (ix2 (0 : Fin 2) q) = meanAt (V c main_v48) q
    ∧ (outsAt1 (F := Ideal) V c t.val t.isLt).1 (ix2 (1 : Fin 2) q) = varAt (V c main_v48) q := by
  have h10 := lt10 t.isLt
  have hfull : (t.val + 1) * 5000 = 50000 := by omega
  obtain ⟨a0, a1⟩ := acc_eq V c q t.val t.isLt
  rw [hfull, psum_full] at a0
  rw [hfull, psumSq_full] at a1
  rw [last_point V c t h9]
  refine ⟨(canon_rows _ _ q).1.trans ?_, (canon_rows _ _ q).2.trans ?_⟩
  · rw [Pay.k1_pay6_apply, a0]
    rfl
  · rw [Pay.k1_pay7_apply, a0, a1]
    rfl

/-- What the one write-back, at the last point, writes: the whole 2 × 128 array of statistics. -/
theorem flushed1_eq (c : Dev nD) (t : Fin cfg1.N) (hf : (cfg1.win 1).flush t = true) :
    (dat1 (F := Ideal) V c).flushed 1 t
      = ((cfg1.win 1).blk t).view.read (Elt Ideal) (statArr (V c main_v48)) := by
  have h9 : t.val % 10 = 9 := (flush1_1 t).mp hf
  obtain ⟨-, -, e0, e1⟩ := blockIdx1 t
  show (cfg1.win 1).cut (grid1.coords t) ((dat1 (F := Ideal) V c).after 1 t) = _
  rw [after1_1]
  funext j
  obtain ⟨r, q, rfl⟩ : ∃ (r : Fin 2) (q : Fin 128), j = ix2 r q := ⟨j 0, j 1, eq_ix2 j⟩
  obtain ⟨m0, m1⟩ := last_rows V c t h9 q
  have hemb : ((cfg1.win 1).blk t).view.emb (ix2 r q) = (ix2 r q : S2x128.Idx) := by
    funext a
    apply Fin.ext
    match a with
    | ⟨0, _⟩ => show win1_1.index t (0 : Fin 2) * 2 + 1 * r.val = r.val; rw [e0]; omega
    | ⟨1, _⟩ => show win1_1.index t (1 : Fin 2) * 128 + 1 * q.val = q.val; rw [e1]; omega
  rw [View.read_apply, hemb]
  match r with
  | ⟨0, _⟩ => exact m0
  | ⟨1, _⟩ => exact m1

/-- An index of the 2 × 128 array is in point `t`'s block iff each coordinate is in the block's range on its axis. -/
theorem mem_blk1 (t : Fin cfg1.N) (i : S2x128.Idx) :
    i ∈ ((cfg1.win 1).blk t).view.set ↔ ∀ a : Fin 2, win1_1.index t a * S2x128.size a ≤ (i a).val
      ∧ (i a).val < win1_1.index t a * S2x128.size a + S2x128.size a := by
  show i ∈ ((View.whole main_v49).slice (win1_1.rect t)).set ↔ _
  rw [View.set_slice_whole, Rect.mem_set_unit]
  exact Iff.rfl

/-- The last point's block is the whole 2 × 128 array. -/
theorem cover1 (i : S2x128.Idx) :
    ∃ t : Fin cfg1.N, (cfg1.win 1).flush t = true ∧ i ∈ ((cfg1.win 1).blk t).view.set := by
  have h0 : (i 0).val < 2 := idx2_lt0 i
  have h1 : (i 1).val < 128 := idx2_lt1 i
  have h10 : cfg1.N = 10 := N_1
  obtain ⟨t, ht⟩ : ∃ t : Fin cfg1.N, t.val = 9 := ⟨⟨9, by omega⟩, rfl⟩
  obtain ⟨-, -, e0, e1⟩ := blockIdx1 t
  refine ⟨t, (flush1_1 t).mpr (by rw [ht]), ?_⟩
  rw [mem_blk1]
  intro a
  match a with
  | ⟨0, _⟩ =>
    show win1_1.index t (0 : Fin 2) * 2 ≤ (i 0).val ∧ (i 0).val < win1_1.index t (0 : Fin 2) * 2 + 2
    omega
  | ⟨1, _⟩ =>
    show win1_1.index t (1 : Fin 2) * 128 ≤ (i 1).val ∧ (i 1).val < win1_1.index t (1 : Fin 2) * 128 + 128
    omega

/-- The result array after the ten points is the array of statistics. -/
theorem final1 (c : Dev nD) :
    (dat1 (F := Ideal) V c).arrAt 1 cfg1.N = statArr (V c main_v48) :=
  (dat1 (F := Ideal) V c).arrAt_eq_of_cover 1 (statArr (V c main_v48))
    (fun t hf => flushed1_eq V c t hf) cover1

/-- Row 0 of the result: the means, through the named formula. -/
theorem arr1_meanAt (c : Dev nD) (q : Fin 128) :
    @Eq EReal ((dat1 (F := Ideal) V c).arrAt 1 cfg1.N (ix2 (0 : Fin 2) q)) (meanAt (V c main_v48) q) := by
  rw [final1]
  rfl

/-- Row 1 of the result: the variances, through the named formula. -/
theorem arr1_varAt (c : Dev nD) (q : Fin 128) :
    @Eq EReal ((dat1 (F := Ideal) V c).arrAt 1 cfg1.N (ix2 (1 : Fin 2) q)) (varAt (V c main_v48) q) := by
  rw [final1]
  rfl

/-- Row 0 of the result, spelt out: the column's sum over the 50000 rows divided by 50000. -/
theorem arr1_mean (c : Dev nD) (q : Fin 128) :
    @Eq EReal ((dat1 (F := Ideal) V c).arrAt 1 cfg1.N (ix2 (0 : Fin 2) q))
      (Ideal.div (@Finset.sum (Fin 50000) EReal _ Finset.univ
          fun n => (V c main_v48 : S50000x128.Idx → EReal) (ix2 n q))
        (Ideal.ofBits .f32 0x47435000#32)) :=
  arr1_meanAt V c q

/-- Row 1 of the result, spelt out: the mean of the squares less the square of the mean. -/
theorem arr1_var (c : Dev nD) (q : Fin 128) :
    @Eq EReal ((dat1 (F := Ideal) V c).arrAt 1 cfg1.N (ix2 (1 : Fin 2) q))
      (@HSub.hSub EReal EReal EReal instHSub
        (Ideal.div (@Finset.sum (Fin 50000) EReal _ Finset.univ fun n =>
            @HMul.hMul EReal EReal EReal instHMul ((V c main_v48 : S50000x128.Idx → EReal) (ix2 n q))
              ((V c main_v48 : S50000x128.Idx → EReal) (ix2 n q)))
          (Ideal.ofBits .f32 0x47435000#32))
        (@HMul.hMul EReal EReal EReal instHMul
          (Ideal.div (@Finset.sum (Fin 50000) EReal _ Finset.univ
              fun n => (V c main_v48 : S50000x128.Idx → EReal) (ix2 n q))
            (Ideal.ofBits .f32 0x47435000#32))
          (Ideal.div (@Finset.sum (Fin 50000) EReal _ Finset.univ
              fun n => (V c main_v48 : S50000x128.Idx → EReal) (ix2 n q))
            (Ideal.ofBits .f32 0x47435000#32)))) :=
  arr1_varAt V c q

end Cert.KernelIdeal.Val

end
-- ==== Proof.lean ====
/-
  The certificate of the graph-convolution layer: a dense product h = x · W, a degree-normalised neighbourhood
  aggregation with self-loops and a bias, batch statistics over the 50000 nodes, and a fused normalisation, scale,
  shift and rectifier. The kernel program runs three pallas_calls (the product; the column sums and sums of
  squares accumulated over ten row blocks; the pointwise normalisation) around host operations; the reference is
  plain array code with the variance as the mean of squared deviations.

  Frames: each kernel program is run as a list of segments — a region per pallas_call over that pipeline's proof
  data, a host segment per stretch — to a final state that holds every unscoped buffer at the last boundary's
  contents, from which the arguments are read back unchanged. The reference's frame is its run with the result
  dropped. The idealization rewrote nothing. At the exact values both programs end with
  max(((A − mean) · rsqrt(var + ε)) · γ + β, 0) for the same aggregated features A; the kernel's
  var = E[A²] − mean² and the reference's var = E[(A − mean)²] agree because every entry of A is a real number when
  the inputs are finite.
-/
import proofs.«181293_j22840636080817_1_alg».proof.Defs
import proofs.«181293_j22840636080817_1_alg».proof.Proof.Gen.Kernel
import proofs.«181293_j22840636080817_1_alg».proof.Proof.Gen.KernelIdeal
import proofs.«181293_j22840636080817_1_alg».proof.Proof.Gen.ReferenceIdeal
import proofs.«181293_j22840636080817_1_alg».proof.Proof.Gen.Pre_finite_inputs
import proofs.«181293_j22840636080817_1_alg».proof.Proof.K.Run
import proofs.«181293_j22840636080817_1_alg».proof.Proof.KI.Run
import proofs.«181293_j22840636080817_1_alg».proof.Proof.R.Frame
import proofs.«181293_j22840636080817_1_alg».proof.Proof.Bridge2
import proofs.«181293_j22840636080817_1_alg».proof.Proof.P.Val1
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Hand.frame m ρ
/-- So does its idealization. -/
theorem frame_ki : Cert.frame_KernelIdeal := fun m ρ _ => Cert.KernelIdeal.Hand.frame m ρ

/-- What the statistics pipeline leaves in its two output rows. -/
theorem stats : Cert.Proof.Bridge.StatsFacts := fun V c q a ha => by
  subst ha
  exact ⟨Cert.KernelIdeal.Val.arr1_mean V c q, Cert.KernelIdeal.Val.arr1_var V c q⟩

/-- At the exact values the idealized kernel program and the idealized reference end with equal results. -/
theorem algebraic : Cert.algebraic_KernelIdeal_ReferenceIdeal := by
  intro m ρ m' ρ' hpre hagree
  refine ⟨fun c => Cert.KernelIdeal.Hand.W5 (F := Ideal) m ρ c (Proc.devRef .tc Cert.KernelIdeal.main_v52), ?_, ?_⟩
  · exact (θ_run Cert.KernelIdeal.defs _ _).mono (fun r h c =>
      ⟨h c _ (Cert.KernelIdeal.Hand.mem_uc Cert.KernelIdeal.main_v52 (by decide)),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c),
       (h c _ (Cert.KernelIdeal.Hand.mem_uc Cert.KernelIdeal.main_arg2 (by decide))).trans (Cert.KernelIdeal.Hand.W5_main_arg2 m ρ c),
       (h c _ (Cert.KernelIdeal.Hand.mem_uc Cert.KernelIdeal.main_arg3 (by decide))).trans (Cert.KernelIdeal.Hand.W5_main_arg3 m ρ c),
       (h c _ (Cert.KernelIdeal.Hand.mem_uc Cert.KernelIdeal.main_arg4 (by decide))).trans (Cert.KernelIdeal.Hand.W5_main_arg4 m ρ c),
       (h c _ (Cert.KernelIdeal.Hand.mem_uc Cert.KernelIdeal.main_arg5 (by decide))).trans (Cert.KernelIdeal.Hand.W5_main_arg5 m ρ c)⟩)
      (Cert.KernelIdeal.Hand.run_all (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]
    exact (Cert.Proof.Bridge.result_eq_of m ρ stats hpre c).symm

theorem claim : Cert.Claim := ⟨Cert.Kernel.Gen.facts, Cert.KernelIdeal.Gen.facts, Cert.ReferenceIdeal.Gen.facts, Cert.Pre_finite_inputs.Gen.facts,
  frame_k, frame_ki, Cert.Proof.Ref.frame_ri, trivial, algebraic⟩

end Cert.Proof

end
